-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S100000x384 : Shape := ⟨2, ![100000, 384]⟩
abbrev S5000x128 : Shape := ⟨2, ![5000, 128]⟩
abbrev S5000x384 : Shape := ⟨2, ![5000, 384]⟩
abbrev S_ : Shape := ⟨0, ![]⟩
abbrev S600000x1 : Shape := ⟨2, ![600000, 1]⟩
abbrev S600000x128 : Shape := ⟨2, ![600000, 128]⟩
abbrev S6000x128 : Shape := ⟨2, ![6000, 128]⟩
abbrev S6000x32 : Shape := ⟨2, ![6000, 32]⟩
abbrev S6000 : Shape := ⟨1, ![6000]⟩
abbrev S6000x1 : Shape := ⟨2, ![6000, 1]⟩
abbrev S6000x4 : Shape := ⟨2, ![6000, 4]⟩
abbrev S1x128 : Shape := ⟨2, ![1, 128]⟩

abbrev nBuf : Space → Nat
  | .hbm => 52
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S384, .f32⟩
  | .hbm, ⟨13, _⟩ => ⟨S1x384, .f32⟩
  | .hbm, ⟨14, _⟩ => ⟨S100000x384, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S1x128, .f32⟩
  | .hbm, ⟨51, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S1x384, .f32⟩
  | .local _ .vmem, ⟨4, _⟩ => ⟨S5000x384, .f32⟩
  | .local _ .vmem, ⟨5, _⟩ => ⟨S5000x384, .f32⟩
  | .local _ .vmem, ⟨6, _⟩ => ⟨S6000x128, .f32⟩
  | .local _ .vmem, ⟨7, _⟩ => ⟨S6000x128, .f32⟩
  | .local _ .vmem, ⟨8, _⟩ => ⟨S6000x128, .f32⟩
  | .local _ .vmem, ⟨9, _⟩ => ⟨S6000x128, .f32⟩
  | .local _ .vmem, ⟨10, _⟩ => ⟨S6000x128, .f32⟩
  | .local _ .vmem, ⟨11, _⟩ => ⟨S6000x128, .f32⟩
  | .local _ .vmem, ⟨12, _⟩ => ⟨S6000x128, .f32⟩
  | .local _ .vmem, ⟨13, _⟩ => ⟨S6000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  bcast_S_S600000 : S_.BroadcastsInDim S600000 (![] : Fin 0 → Fin S600000.rank)
  bcast_S600000_S600000x1_0 : S600000.BroadcastsInDim S600000x1 (![0] : Fin 1 → Fin S600000x1.rank)
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  slices_S6000x128_o0_0_S6000x32 : S6000x128.Slices ![0, 0] S6000x32
  reduces_S6000x32_S6000 : S6000x32.Reduces [1] S6000
  shapeCasts_S6000_S6000x1 : S6000.ShapeCasts S6000x1
  slices_S6000x128_o0_32_S6000x32 : S6000x128.Slices ![0, 32] S6000x32
  slices_S6000x128_o0_64_S6000x32 : S6000x128.Slices ![0, 64] S6000x32
  slices_S6000x128_o0_96_S6000x32 : S6000x128.Slices ![0, 96] S6000x32
  concatenates_S6000x1_S6000x1_S6000x1_S6000x1_S6000x4_d1 : Shape.Concatenates [S6000x1, S6000x1, S6000x1, S6000x1] S6000x4 1
  reduces_S6000x4_S6000 : S6000x4.Reduces [1] S6000
  broadcasts_S6000x1_S6000x4 : S6000x1.Broadcasts S6000x4
  slices_S6000x4_o0_0_S6000x1 : S6000x4.Slices ![0, 0] S6000x1
  broadcasts_S6000x1_S6000x32 : S6000x1.Broadcasts S6000x32
  slices_S6000x4_o0_1_S6000x1 : S6000x4.Slices ![0, 1] S6000x1
  slices_S6000x4_o0_2_S6000x1 : S6000x4.Slices ![0, 2] S6000x1
  slices_S6000x4_o0_3_S6000x1 : S6000x4.Slices ![0, 3] S6000x1
  concatenates_S6000x32_S6000x32_S6000x32_S6000x32_S6000x128_d1 : Shape.Concatenates [S6000x32, S6000x32, S6000x32, S6000x32] S6000x128 1
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x384_S5000x384_1_0_0_1_n_n_wf : DotDims.WF S5000x128 S128x384 S5000x384 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S100000x384.size a
  hwx0_3 : ∀ i : grid0.Coords, EltTy.bits .f32 = 32 ∨ (Rect.block (s := S100000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .f32 = 32 ∨ (Rect.block (s := S600000x128) S6000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x128.size a ≤ S600000x128.size a
  hwx1_2 : ∀ i : grid1.Coords, EltTy.bits .f32 = 32 ∨ (Rect.block (s := S600000x128) S6000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S6000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S100000x4x32 : Shape := ⟨3, ![100000, 4, 32]⟩
abbrev S_ : Shape := ⟨0, ![]⟩
abbrev S600000x1 : Shape := ⟨2, ![600000, 1]⟩
abbrev S600000x4x32 : Shape := ⟨3, ![600000, 4, 32]⟩
abbrev S600000x4 : Shape := ⟨2, ![600000, 4]⟩
abbrev S600000x4x1 : Shape := ⟨3, ![600000, 4, 1]⟩
abbrev S600000x128 : Shape := ⟨2, ![600000, 128]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000x4x32, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S100000x4x32, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S100000x4x32, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x4x32, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x4x32, .f32⟩
  | .hbm, ⟨44, _⟩ => ⟨S600000x4x32, .f32⟩
  | .hbm, ⟨45, _⟩ => ⟨S_, .f32⟩
  | .hbm, ⟨46, _⟩ => ⟨S600000x4, .f32⟩
  | .hbm, ⟨47, _⟩ => ⟨S_, .f32⟩
  | .hbm, ⟨48, _⟩ => ⟨S600000x4, .f32⟩
  | .hbm, ⟨49, _⟩ => ⟨S600000x4, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S600000, .f32⟩
  | .hbm, ⟨54, _⟩ => ⟨S600000, .f32⟩
  | .hbm, ⟨55, _⟩ => ⟨S600000x1, .f32⟩
  | .hbm, ⟨56, _⟩ => ⟨S600000x4, .f32⟩
  | .hbm, ⟨57, _⟩ => ⟨S600000x4, .f32⟩
  | .hbm, ⟨58, _⟩ => ⟨S600000x4, .f32⟩
  | .hbm, ⟨59, _⟩ => ⟨S_, .f32⟩
  | .hbm, ⟨60, _⟩ => ⟨S600000, .f32⟩
  | .hbm, ⟨61, _⟩ => ⟨S600000x1, .f32⟩
  | .hbm, ⟨62, _⟩ => ⟨S600000x4, .f32⟩
  | .hbm, ⟨63, _⟩ => ⟨S600000x4, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x4x32, .f32⟩
  | .hbm, ⟨73, _⟩ => ⟨S600000x4x1, .f32⟩
  | .hbm, ⟨74, _⟩ => ⟨S600000x4x32, .f32⟩
  | .hbm, ⟨75, _⟩ => ⟨S600000x4x32, .f32⟩
  | .hbm, ⟨76, _⟩ => ⟨S600000x128, .f32⟩
  | .hbm, ⟨77, _⟩ => ⟨S_, .f32⟩
  | .hbm, ⟨78, _⟩ => ⟨S100000x128, .f32⟩
  | .hbm, ⟨79, _⟩ => ⟨S600000x1, .i32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x4x32 : S100000x128.ShapeCasts S100000x4x32
  bcast_S_S600000 : S_.BroadcastsInDim S600000 (![] : Fin 0 → Fin S600000.rank)
  bcast_S600000_S600000x1_0 : S600000.BroadcastsInDim S600000x1 (![0] : Fin 1 → Fin S600000x1.rank)
  reducesTo_S600000x4x32_S600000x4_d2 : S600000x4x32.ReducesTo [2] S600000x4
  h_S_ : 0 < S_.numel
  bcast_S_S600000x4 : S_.BroadcastsInDim S600000x4 (![] : Fin 0 → Fin S600000x4.rank)
  reducesTo_S600000x4_S600000_d1 : S600000x4.ReducesTo [1] S600000
  bcast_S600000x1_S600000x4_0_1 : S600000x1.BroadcastsInDim S600000x4 (![0, 1] : Fin 2 → Fin S600000x4.rank)
  bcast_S600000x4_S600000x4x1_0_1 : S600000x4.BroadcastsInDim S600000x4x1 (![0, 1] : Fin 2 → Fin S600000x4x1.rank)
  bcast_S600000x4x1_S600000x4x32_0_1_2 : S600000x4x1.BroadcastsInDim S600000x4x32 (![0, 1, 2] : Fin 3 → Fin S600000x4x32.rank)
  shapeCasts_S600000x4x32_S600000x128 : S600000x4x32.ShapeCasts S600000x128
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x4x32_S600000x1_S600000x4x32_12_0_n_n_0_1_1432_wf : GatherDims.WF S100000x4x32 S600000x1 S600000x4x32 [1, 2] [0] [] [0] [] 1 ![1, 4, 32]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x4x32_S600000x1_S600000x4x32_12_0_n_n_0_1_1432 : GatherDims S100000x4x32 S600000x1 S600000x4x32 where
  offsetDims := [1, 2]
  collapsedSliceDims := [0]
  operandBatchingDims := []
  startIndicesBatchingDims := []
  startIndexMap := [0]
  indexVectorDim := 1
  sliceSizes := ![1, 4, 32]
  wf := gather_S100000x4x32_S600000x1_S600000x4x32_12_0_n_n_0_1_1432_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.BitsBodies0.lean ====
/-
  The three kernels of `Kernel` one region at a time, at a parameter `V` (the TensorCore's buffer contents when the
  region is entered). Each kernel loads its input blocks whole, computes one value and stores it over its output block
  whole, so per region: a window's block at a grid point is the array read through the block's rectangle; the output
  buffer after the body is the one stored value as a function of the input blocks; the body's triple; the proof data
  (inputs left in place, the output at that function of the input blocks); and the body obligation at every point.
  Region 0 is the fused projection: rows t*5000 .. t*5000+4999 of nodes times the [128,384] weights plus the bias row.
  Region 1 is the per-edge attention on 6000 edges at a time: scores from q*k summed over each head's 32 lanes,
  a softmax over the four heads, and the value rows scaled by their head's share.
  Region 2 is the output projection with bias and residual on 5000 rows at a time.
-/
import proofs.«124997_j40149354283101_2_alg».proof.Proof.Gen.Kernel.Launch
import proofs.«124997_j40149354283101_2_alg».proof.Proof.Gen.Kernel.Skeleton
import proofs.«124997_j40149354283101_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bodies

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the fused query / key / value projection -/

/-- Window `w`'s block at grid point `t`: the window's array, as the region finds it, read through the block. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or the
    block index stood still (the weights and the bias row are fetched once): stated per window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

abbrev rN0 : Rect S5000x128 := Rect.unit (s := S5000x128) ![0, 0] S5000x128.size inb_S5000x128_S5000x128_0_0
abbrev rW0 : Rect S128x384 := Rect.unit (s := S128x384) ![0, 0] S128x384.size inb_S128x384_S128x384_0_0
abbrev rB0 : Rect S1x384 := Rect.unit (s := S1x384) ![0, 0] S1x384.size inb_S1x384_S1x384_0_0
abbrev rO0 : Rect S5000x384 := Rect.unit (s := S5000x384) ![0, 0] S5000x384.size inb_S5000x384_S5000x384_0_0

/-- The projection's output block from its three input blocks: the one store's value over the whole block. -/
def out0 (x0 : Vec F S5000x128 .f32) (x1 : Vec F S128x384 .f32) (x2 : Vec F S1x384 .f32) : Vec F S5000x384 .f32 :=
  View.canon [⟨rO0, k0_pay1 (View.ld x0 rN0) (View.ld x1 rW0) (View.ld x2 rB0)⟩]

theorem cover0 (p0 : Vec F S5000x384 .f32) (y : S5000x384.Idx) :
    ∃ pc ∈ ([⟨rO0, p0⟩] : List (View.Piece (Elt F) S5000x384 .f32)), y ∈ pc.1.set :=
  View.cover_of_tiled [⟨rO0, p0⟩] S5000x384.size (by rfl) y

set_option maxHeartbeats 1000000 in
/-- The projection body on whole staging memrefs: the inputs are left as read, the output holds `out0` of them. -/
theorem sound_kernel0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S5000x384 .f32) (harg4 : arg4.IsWhole)
    (x0 : Vec F S5000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0 _)

/-- The proof data of pipeline 0 on core `c`: arrays as entered, inputs left in place, the output block at `out0`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Bodies

end
-- ==== Proof.BitsBodies1.lean ====
/-
  Region 1 of `Kernel`, the per-edge attention, at a parameter `V` (the TensorCore's buffer contents when the region is
  entered): 6000 edges at a grid point. The body loads the gathered query, key and value blocks whole, forms the four
  head scores of every edge (q*k summed over the head's 32 lanes, times the scale), their softmax over the heads, and
  stores the value block with each head's 32 lanes scaled by that head's share. Here: a window's block, the output
  buffer after the body as one function of the three input blocks, the body's triple, the proof data, the obligation.
-/
import proofs.«124997_j40149354283101_2_alg».proof.Proof.Gen.Kernel.Launch
import proofs.«124997_j40149354283101_2_alg».proof.Proof.Gen.Kernel.Skeleton
import proofs.«124997_j40149354283101_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bodies

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the per-edge attention -/

/-- Window `w`'s block at grid point `t`: the window's array, as the region finds it, read through the block. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index stood still: stated per window. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

abbrev rE1 : Rect S6000x128 := Rect.unit (s := S6000x128) ![0, 0] S6000x128.size inb_S6000x128_S6000x128_0_0

/-- The attention's output block from the query, key and value blocks: the one store's value over the whole block, the
    value being the last stage (scaled value lanes, concatenated) over the earlier stages' values. -/
def out1 (x0 x1 x2 : Vec F S6000x128 .f32) : Vec F S6000x128 .f32 :=
  View.canon [⟨rE1, k1_pay1 (k1_pay2 (View.ld x2 rE1)) (k1_pay3 (View.ld x0 rE1) (View.ld x1 rE1))
    (k1_pay4 (View.ld x0 rE1) (View.ld x1 rE1) (View.ld x2 rE1)) (k1_pay5 (View.ld x2 rE1)) (k1_pay6 (View.ld x0 rE1) (View.ld x1 rE1))⟩]

theorem cover1 (p0 : Vec F S6000x128 .f32) (y : S6000x128.Idx) :
    ∃ pc ∈ ([⟨rE1, p0⟩] : List (View.Piece (Elt F) S6000x128 .f32)), y ∈ pc.1.set :=
  View.cover_of_tiled [⟨rE1, p0⟩] S6000x128.size (by rfl) y

set_option maxHeartbeats 1000000 in
/-- The attention body on whole staging memrefs: the inputs are left as read, the output holds `out1` of them. -/
theorem sound_kernel1 (c : Dev nD) (E : Set ℕ) (i : grid1.Coords)
    (arg1 : Memref sig .tc .vmem S6000x128 .f32) (harg1 : arg1.IsWhole) (arg2 : Memref sig .tc .vmem S6000x128 .f32) (harg2 : arg2.IsWhole)
    (arg3 : Memref sig .tc .vmem S6000x128 .f32) (harg3 : arg3.IsWhole) (arg4 : Memref sig .tc .vmem S6000x128 .f32) (harg4 : arg4.IsWhole)
    (x0 x1 x2 : Vec F S6000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__edge_attn_kernel i arg1 harg1 arg2 harg2 arg3 harg3 arg4 harg4) K := by
  simp only [cc1__edge_attn_kernel_eq_skeleton]; unfold cc1__edge_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _)

/-- The proof data of pipeline 1 on core `c`: arrays as entered, inputs left in place, the output block at `out1`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Bodies

end
-- ==== Proof.BitsBodies2.lean ====
/-
  Region 2 of `Kernel`, the output projection, at a parameter `V` (the TensorCore's buffer contents when the region is
  entered): 5000 node rows at a grid point. The body loads the summed-message block, the [128,128] weights, the bias
  row and the node block whole, and stores (messages times weights, plus the bias row) plus the node block. Here: a
  window's block, the output buffer after the body as one function of the four input blocks, the body's triple, the
  proof data, the obligation.
-/
import proofs.«124997_j40149354283101_2_alg».proof.Proof.Gen.Kernel.Launch
import proofs.«124997_j40149354283101_2_alg».proof.Proof.Gen.Kernel.Skeleton
import proofs.«124997_j40149354283101_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bodies

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the output projection with bias and residual -/

/-- Window `w`'s block at grid point `t`: the window's array, as the region finds it, read through the block. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or the
    block index stood still: stated per window. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

abbrev rN2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The projection's output block from its four input blocks: the one store's value over the whole block. -/
def out2 (x0 : Vec F S5000x128 .f32) (x1 : Vec F S128x128 .f32) (x2 : Vec F S1x128 .f32) (x3 : Vec F S5000x128 .f32) : Vec F S5000x128 .f32 :=
  View.canon [⟨rN2, k2_pay1 (View.ld x0 rN2) (View.ld x1 rW2) (View.ld x2 rB2) (View.ld x3 rN2)⟩]

theorem cover2 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

set_option maxHeartbeats 1000000 in
/-- The projection body on whole staging memrefs: the inputs are left as read, the output holds `out2` of them. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x128 .f32) (x1 : Vec F S128x128 .f32) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2 x0 x1 x2 x3)) -∗ K ⟨⟩))
      ⊢ wp frame (wpE (defs₀ (F := F)) Variants.none c none) E (cc2__out_kernel i arg1 harg1 arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2 _)

/-- The proof data of pipeline 2 on core `c`: arrays as entered, inputs left in place, the output block at `out2`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => out2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) :
    (dat2 V c).after 4 t = out2 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Bodies

end
-- ==== Proof.BitsRun.lean ====
/-
  The whole run of `Kernel`'s @main: three stretches of host operations, each followed by one of the three kernels'
  regions. The contents of the TensorCore's buffers at each of the seven boundaries are a fold from the launch memory:
  a stretch applies its operations; a region leaves each of its arrays at what its pipeline leaves (an input as it
  was entered, the output with every grid point's block written back) and every other buffer as entered. Over that
  fold: every weakly fair execution ends, nothing faulting, with every unscoped buffer at the last boundary's contents;
  no stretch and no region writes an argument array, so each ends as launched (the frame); and the result buffer
  ends at region 2's output array.
-/
import proofs.«124997_j40149354283101_2_alg».proof.Proof.BitsBodies0
import proofs.«124997_j40149354283101_2_alg».proof.Proof.BitsBodies1
import proofs.«124997_j40149354283101_2_alg».proof.Proof.BitsBodies2
import proofs.«124997_j40149354283101_2_alg».proof.Proof.Gen.Kernel.Regions

set_option maxRecDepth 16384

noncomputable section

namespace Cert.Kernel.Bodies

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- Core `c`'s buffers at launch. -/
abbrev Bd0 : Dev nD → Valuation τ sig (Elt F) := fun c b => (s₀ m ρ).mem ((c : Dev nD), b)
/-- After the first stretch (the weights and biases concatenated): region 0's entry. -/
abbrev Bd1 : Dev nD → Valuation τ sig (Elt F) := fun c => StableHlo.after hostOps0 (Bd0 m ρ c)
/-- The contents region 0 is entered with, read at the TensorCore's references. -/
abbrev En0 : (c : Dev nD) → (b : Ref sig .tc) → Buf (Elt F) ((c : Thread nD τ).loc b) := fun c b => Bd1 m ρ c b
/-- At region 0's exit: its arrays at what the pipeline leaves (an input as entered, the output with every grid
    point's block written back), every other buffer as entered. -/
def Bd2 (c : Dev nD) : Valuation τ sig (Elt F) :=
  Pipeline.withArrays spec0 c (Bd1 m ρ c) fun w => (dat0 (En0 m ρ) c).arrAt w cfg0.N
theorem Bd2_arr (c : Dev nD) (w : Fin cfg0.W) :
    Bd2 m ρ c (Proc.devRef .tc (Pipeline.arrRef spec0 w)) = (dat0 (En0 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex0 : (c : Dev nD) → (b : Ref sig .tc) → Buf (Elt F) ((c : Thread nD τ).loc b) := fun c b => Bd2 m ρ c b
theorem hleft0 (c : Dev nD) (w : Fin cfg0.W) : (dat0 (En0 m ρ) c).arrAt w cfg0.N = Ex0 m ρ c (Pipeline.arrRef spec0 w) :=
  (Bd2_arr m ρ c w).symm
theorem hrest0 (c : Dev nD) : ∀ b, b ∉ Finset.univ.image (Pipeline.arrRef spec0) → Ex0 m ρ c b = En0 m ρ c b :=
  fun b hb => Bd2_of_ne m ρ c b fun w e => hb (Finset.mem_image.mpr ⟨w, Finset.mem_univ _, e⟩)

/-- After the second stretch (the three column bands cut out and their rows gathered per edge): region 1's entry. -/
abbrev Bd3 : Dev nD → Valuation τ sig (Elt F) := fun c => StableHlo.after hostOps1 (Bd2 m ρ c)
/-- The contents region 1 is entered with, read at the TensorCore's references. -/
abbrev En1 : (c : Dev nD) → (b : Ref sig .tc) → Buf (Elt F) ((c : Thread nD τ).loc b) := fun c b => Bd3 m ρ c b
/-- At region 1's exit: its arrays at what the pipeline leaves (an input as entered, the output with every grid
    point's block written back), every other buffer as entered. -/
def Bd4 (c : Dev nD) : Valuation τ sig (Elt F) :=
  Pipeline.withArrays spec1 c (Bd3 m ρ c) fun w => (dat1 (En1 m ρ) c).arrAt w cfg1.N
theorem Bd4_arr (c : Dev nD) (w : Fin cfg1.W) :
    Bd4 m ρ c (Proc.devRef .tc (Pipeline.arrRef spec1 w)) = (dat1 (En1 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex1 : (c : Dev nD) → (b : Ref sig .tc) → Buf (Elt F) ((c : Thread nD τ).loc b) := fun c b => Bd4 m ρ c b
theorem hleft1 (c : Dev nD) (w : Fin cfg1.W) : (dat1 (En1 m ρ) c).arrAt w cfg1.N = Ex1 m ρ c (Pipeline.arrRef spec1 w) :=
  (Bd4_arr m ρ c w).symm
theorem hrest1 (c : Dev nD) : ∀ b, b ∉ Finset.univ.image (Pipeline.arrRef spec1) → Ex1 m ρ c b = En1 m ρ c b :=
  fun b hb => Bd4_of_ne m ρ c b fun w e => hb (Finset.mem_image.mpr ⟨w, Finset.mem_univ _, e⟩)

/-- After the third stretch (the messages summed into their receivers' rows, the bias as a row): region 2's entry. -/
abbrev Bd5 : Dev nD → Valuation τ sig (Elt F) := fun c => StableHlo.after hostOps2 (Bd4 m ρ c)
/-- The contents region 2 is entered with, read at the TensorCore's references. -/
abbrev En2 : (c : Dev nD) → (b : Ref sig .tc) → Buf (Elt F) ((c : Thread nD τ).loc b) := fun c b => Bd5 m ρ c b
/-- At region 2's exit: its arrays at what the pipeline leaves (an input as entered, the output with every grid
    point's block written back), every other buffer as entered. -/
def Bd6 (c : Dev nD) : Valuation τ sig (Elt F) :=
  Pipeline.withArrays spec2 c (Bd5 m ρ c) fun w => (dat2 (En2 m ρ) c).arrAt w cfg2.N
theorem Bd6_arr (c : Dev nD) (w : Fin cfg2.W) :
    Bd6 m ρ c (Proc.devRef .tc (Pipeline.arrRef spec2 w)) = (dat2 (En2 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex2 : (c : Dev nD) → (b : Ref sig .tc) → Buf (Elt F) ((c : Thread nD τ).loc b) := fun c b => Bd6 m ρ c b
theorem hleft2 (c : Dev nD) (w : Fin cfg2.W) : (dat2 (En2 m ρ) c).arrAt w cfg2.N = Ex2 m ρ c (Pipeline.arrRef spec2 w) :=
  (Bd6_arr m ρ c w).symm
theorem hrest2 (c : Dev nD) : ∀ b, b ∉ Finset.univ.image (Pipeline.arrRef spec2) → Ex2 m ρ c b = En2 m ρ c b :=
  fun b hb => Bd6_of_ne m ρ c b fun w e => hb (Finset.mem_image.mpr ⟨w, Finset.mem_univ _, e⟩)

/-! ## A region leaves everything but its output array -/

/-- Region 0 changes only its output array: an input window's array is left as entered, any other buffer untouched. -/
theorem Bd2_keep (c : Dev nD) (b : Ref sig .tc) (hb : b ≠ Pipeline.arrRef spec0 3) :
    Bd2 m ρ c (Proc.devRef .tc b) = Bd1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (Bd2_arr m ρ c w).trans (((dat0 (En0 m ρ) c).arrAt_in w hw _).trans (A_eq0 (En0 m ρ) c w))
  · exact Bd2_of_ne m ρ c b fun w e => h ⟨w, e⟩

theorem Bd4_keep (c : Dev nD) (b : Ref sig .tc) (hb : b ≠ Pipeline.arrRef spec1 3) :
    Bd4 m ρ c (Proc.devRef .tc b) = Bd3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => exact absurd rfl hb
    exact (Bd4_arr m ρ c w).trans (((dat1 (En1 m ρ) c).arrAt_in w hw _).trans (A_eq1 (En1 m ρ) c w))
  · exact Bd4_of_ne m ρ c b fun w e => h ⟨w, e⟩

theorem Bd6_keep (c : Dev nD) (b : Ref sig .tc) (hb : b ≠ Pipeline.arrRef spec2 4) :
    Bd6 m ρ c (Proc.devRef .tc b) = Bd5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => exact absurd rfl hb
    exact (Bd6_arr m ρ c w).trans (((dat2 (En2 m ρ) c).arrAt_in w hw _).trans (A_eq2 (En2 m ρ) c w))
  · exact Bd6_of_ne m ρ c b fun w e => h ⟨w, e⟩

/-- A buffer that no stretch writes and that is no region's output ends as launched. -/
theorem Bd6_launch (c : Dev nD) (b : Ref sig .tc) (h0 : b ∉ hostOps0_W) (h1 : b ∉ hostOps1_W) (h2 : b ∉ hostOps2_W)
    (ho0 : b ≠ Pipeline.arrRef spec0 3) (ho1 : b ≠ Pipeline.arrRef spec1 3) (ho2 : b ≠ Pipeline.arrRef spec2 4) :
    Bd6 m ρ c (Proc.devRef .tc b) = m ((c : Thread nD τ).loc b) :=
  (Bd6_keep m ρ c b ho2).trans <| (StableHlo.after_of_writes_sub hostOps2 _ hostOps2_writes h2).trans <|
    (Bd4_keep m ρ c b ho1).trans <| (StableHlo.after_of_writes_sub hostOps1 _ hostOps1_writes h1).trans <|
    (Bd2_keep m ρ c b ho0).trans <| (StableHlo.after_of_writes_sub hostOps0 _ hostOps0_writes h0).trans rfl

/-! ## The proof data family and the thread state -/

/-- Every pipeline's proof data, each at its region's entry contents. -/
def pdata : (p : Fin 3) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
abbrev 𝒱n : Variants := Variants.none
abbrev Ln : GSem nD τ sig → Finset Unit := fun _ => ∅
abbrev lvn : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A stretch of host operations as a segment from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (Bd6 m ρ c) ∗ ∃ r, prngReg c r)

/-! ## The regions as segments -/

set_option backward.isDefEq.respectTransparency.types false in
/-- Region 0 as a segment: entered with every unscoped buffer at `Bd1`, left with them at `Bd2`. Its
    arrays are split out of the unscoped buffers on entry and put back at what the pipeline leaves on exit; the
    generator register goes into the class invariant and comes back; nothing is owed; the kernel has no semaphore of
    its own. -/
def reg0 : Pipeline.RegionSeg (pcfgs (F := F)) adm (pdata m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ Ln lvn 0 fun _ _ => rfl
  pre c := iprop(StableHlo.held (c : Thread nD τ) (Pipeline.ucRefs τ sig) (Bd1 m ρ c) ∗ Rest c)
  post c := iprop(StableHlo.held (c : Thread nD τ) (Pipeline.ucRefs τ sig) (Bd2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdata m ρ) launch0.win launch0.arr_whole c
      ((pdata m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdata m ρ) ((pdata m ρ 0 c).share_full fun _ => rfl)
      (En0 m ρ c) (Ex0 m ρ c) ((pdata m ρ 0 c).arrAt · cfg0.N) (hleft0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Bd3`, left with them at `Bd4`. Its
    arrays are split out of the unscoped buffers on entry and put back at what the pipeline leaves on exit; the
    generator register goes into the class invariant and comes back; nothing is owed; the kernel has no semaphore of
    its own. -/
def reg1 : Pipeline.RegionSeg (pcfgs (F := F)) adm (pdata m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ Ln lvn 1 fun _ _ => rfl
  pre c := iprop(StableHlo.held (c : Thread nD τ) (Pipeline.ucRefs τ sig) (Bd3 m ρ c) ∗ Rest c)
  post c := iprop(StableHlo.held (c : Thread nD τ) (Pipeline.ucRefs τ sig) (Bd4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdata m ρ) launch1.win launch1.arr_whole c
      ((pdata m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdata m ρ) ((pdata m ρ 1 c).share_full fun _ => rfl)
      (En1 m ρ c) (Ex1 m ρ c) ((pdata m ρ 1 c).arrAt · cfg1.N) (hleft1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Bd5`, left with them at `Bd6`. Its
    arrays are split out of the unscoped buffers on entry and put back at what the pipeline leaves on exit; the
    generator register goes into the class invariant and comes back; nothing is owed; the kernel has no semaphore of
    its own. -/
def reg2 : Pipeline.RegionSeg (pcfgs (F := F)) adm (pdata m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ Ln lvn 2 fun _ _ => rfl
  pre c := iprop(StableHlo.held (c : Thread nD τ) (Pipeline.ucRefs τ sig) (Bd5 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) adm (pdata m ρ) launch2.win launch2.arr_whole c
      ((pdata m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdata m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdata m ρ) ((pdata m ρ 2 c).share_full fun _ => rfl)
      (En2 m ρ c) (Ex2 m ρ c) ((pdata m ρ 2 c).arrAt · cfg2.N) (hleft2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev pieces : List (Pipeline.Seg (pcfgs (F := F)) adm (pdata m ρ) () defs₀ 𝒱n Ln lvn) :=
  [ .host (stretch hostOps0 hostOps0_sub hostOps0_fresh (Bd0 m ρ)),
    .region (reg0 m ρ),
    .host (stretch hostOps1 hostOps1_sub hostOps1_fresh (Bd2 m ρ)),
    .region (reg1 m ρ),
    .host (stretch hostOps2 hostOps2_sub hostOps2_fresh (Bd4 m ρ)),
    .region (reg2 m ρ) ]
theorem main_pieces (c : Dev nD) : main (F := F) c = Pipeline.Seg.run (pieces m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m ρ c b) :=
  Pipeline.θ_run_regions_kit (pcfgs (F := F)) adm (pdata m ρ) () cellOf_inj emb₁ defs₀ 𝒱n Ln lvn m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rest c)) (Tₙ := Tend m ρ)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have keep : ∀ (b : Ref sig .tc), ¬ (Proc.devRef .tc b : DevRef τ sig).isScoped → b ∉ hostOps0_W → b ∉ hostOps1_W → b ∉ hostOps2_W →
        b ≠ Pipeline.arrRef spec0 3 → b ≠ Pipeline.arrRef spec1 3 → b ≠ Pipeline.arrRef spec2 4 →
        r.2.mem ((c.tc : Thread nD τ).loc b) = m ((c.tc : Thread nD τ).loc b) :=
      fun b hs h0 h1 h2 ho0 ho1 ho2 => (h c _ (mem_uc b hs)).trans (Bd6_launch m ρ c b h0 h1 h2 ho0 ho1 ho2)
    ⟨keep main_arg0 (by decide) (by decide) (by decide) (by decide) (by decide) (by decide) (by decide),
     keep main_arg1 (by decide) (by decide) (by decide) (by decide) (by decide) (by decide) (by decide),
     keep main_arg2 (by decide) (by decide) (by decide) (by decide) (by decide) (by decide) (by decide),
     keep main_arg3 (by decide) (by decide) (by decide) (by decide) (by decide) (by decide) (by decide),
     keep main_arg4 (by decide) (by decide) (by decide) (by decide) (by decide) (by decide) (by decide),
     keep main_arg5 (by decide) (by decide) (by decide) (by decide) (by decide) (by decide) (by decide),
     keep main_arg6 (by decide) (by decide) (by decide) (by decide) (by decide) (by decide) (by decide),
     keep main_arg7 (by decide) (by decide) (by decide) (by decide) (by decide) (by decide) (by decide),
     keep main_arg8 (by decide) (by decide) (by decide) (by decide) (by decide) (by decide) (by decide),
     keep main_arg9 (by decide) (by decide) (by decide) (by decide) (by decide) (by decide) (by decide),
     keep main_arg10 (by decide) (by decide) (by decide) (by decide) (by decide) (by decide) (by decide)⟩) (run_all m ρ)

end Cert.Kernel.Bodies

end
-- ==== Proof.IdealBodies0.lean ====
/-
  The three kernels of `KernelIdeal` one region at a time, at a parameter `V` (the TensorCore's buffer contents when the
  region is entered). Each kernel loads its input blocks whole, computes one value and stores it over its output block
  whole, so per region: a window's block at a grid point is the array read through the block's rectangle; the output
  buffer after the body is the one stored value as a function of the input blocks; the body's triple; the proof data
  (inputs left in place, the output at that function of the input blocks); and the body obligation at every point.
  Region 0 is the fused projection: rows t*5000 .. t*5000+4999 of nodes times the [128,384] weights plus the bias row.
  Region 1 is the per-edge attention on 6000 edges at a time: scores from q*k summed over each head's 32 lanes,
  a softmax over the four heads, and the value rows scaled by their head's share.
  Region 2 is the output projection with bias and residual on 5000 rows at a time.
-/
import proofs.«124997_j40149354283101_2_alg».proof.Proof.Gen.KernelIdeal.Launch
import proofs.«124997_j40149354283101_2_alg».proof.Proof.Gen.KernelIdeal.Skeleton
import proofs.«124997_j40149354283101_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the fused query / key / value projection -/

/-- Window `w`'s block at grid point `t`: the window's array, as the region finds it, read through the block. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or the
    block index stood still (the weights and the bias row are fetched once): stated per window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

abbrev rN0 : Rect S5000x128 := Rect.unit (s := S5000x128) ![0, 0] S5000x128.size inb_S5000x128_S5000x128_0_0
abbrev rW0 : Rect S128x384 := Rect.unit (s := S128x384) ![0, 0] S128x384.size inb_S128x384_S128x384_0_0
abbrev rB0 : Rect S1x384 := Rect.unit (s := S1x384) ![0, 0] S1x384.size inb_S1x384_S1x384_0_0
abbrev rO0 : Rect S5000x384 := Rect.unit (s := S5000x384) ![0, 0] S5000x384.size inb_S5000x384_S5000x384_0_0

/-- The projection's output block from its three input blocks: the one store's value over the whole block. -/
def out0 (x0 : Vec F S5000x128 .f32) (x1 : Vec F S128x384 .f32) (x2 : Vec F S1x384 .f32) : Vec F S5000x384 .f32 :=
  View.canon [⟨rO0, k0_pay1 (View.ld x0 rN0) (View.ld x1 rW0) (View.ld x2 rB0)⟩]

theorem cover0 (p0 : Vec F S5000x384 .f32) (y : S5000x384.Idx) :
    ∃ pc ∈ ([⟨rO0, p0⟩] : List (View.Piece (Elt F) S5000x384 .f32)), y ∈ pc.1.set :=
  View.cover_of_tiled [⟨rO0, p0⟩] S5000x384.size (by rfl) y

set_option maxHeartbeats 1000000 in
/-- The projection body on whole staging memrefs: the inputs are left as read, the output holds `out0` of them. -/
theorem sound_kernel0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S5000x384 .f32) (harg4 : arg4.IsWhole)
    (x0 : Vec F S5000x128 .f32) (x1 : Vec F S128x384 .f32) (x2 : Vec F S1x384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0 _)

/-- The proof data of pipeline 0 on core `c`: arrays as entered, inputs left in place, the output block at `out0`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Bodies

end
-- ==== Proof.IdealBodies1.lean ====
/-
  Region 1 of `KernelIdeal`, the per-edge attention, at a parameter `V` (the TensorCore's buffer contents when the region is
  entered): 6000 edges at a grid point. The body loads the gathered query, key and value blocks whole, forms the four
  head scores of every edge (q*k summed over the head's 32 lanes, times the scale), their softmax over the heads, and
  stores the value block with each head's 32 lanes scaled by that head's share. Here: a window's block, the output
  buffer after the body as one function of the three input blocks, the body's triple, the proof data, the obligation.
-/
import proofs.«124997_j40149354283101_2_alg».proof.Proof.Gen.KernelIdeal.Launch
import proofs.«124997_j40149354283101_2_alg».proof.Proof.Gen.KernelIdeal.Skeleton
import proofs.«124997_j40149354283101_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the per-edge attention -/

/-- Window `w`'s block at grid point `t`: the window's array, as the region finds it, read through the block. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index stood still: stated per window. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

abbrev rE1 : Rect S6000x128 := Rect.unit (s := S6000x128) ![0, 0] S6000x128.size inb_S6000x128_S6000x128_0_0

/-- The attention's output block from the query, key and value blocks: the one store's value over the whole block, the
    value being the last stage (scaled value lanes, concatenated) over the earlier stages' values. -/
def out1 (x0 x1 x2 : Vec F S6000x128 .f32) : Vec F S6000x128 .f32 :=
  View.canon [⟨rE1, k1_pay1 (k1_pay2 (View.ld x2 rE1)) (k1_pay3 (View.ld x0 rE1) (View.ld x1 rE1))
    (k1_pay4 (View.ld x0 rE1) (View.ld x1 rE1) (View.ld x2 rE1)) (k1_pay5 (View.ld x2 rE1)) (k1_pay6 (View.ld x0 rE1) (View.ld x1 rE1))⟩]

theorem cover1 (p0 : Vec F S6000x128 .f32) (y : S6000x128.Idx) :
    ∃ pc ∈ ([⟨rE1, p0⟩] : List (View.Piece (Elt F) S6000x128 .f32)), y ∈ pc.1.set :=
  View.cover_of_tiled [⟨rE1, p0⟩] S6000x128.size (by rfl) y

set_option maxHeartbeats 1000000 in
/-- The attention body on whole staging memrefs: the inputs are left as read, the output holds `out1` of them. -/
theorem sound_kernel1 (c : Dev nD) (E : Set ℕ) (i : grid1.Coords)
    (arg1 : Memref sig .tc .vmem S6000x128 .f32) (harg1 : arg1.IsWhole) (arg2 : Memref sig .tc .vmem S6000x128 .f32) (harg2 : arg2.IsWhole)
    (arg3 : Memref sig .tc .vmem S6000x128 .f32) (harg3 : arg3.IsWhole) (arg4 : Memref sig .tc .vmem S6000x128 .f32) (harg4 : arg4.IsWhole)
    (x0 x1 x2 : Vec F S6000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__edge_attn_kernel i arg1 harg1 arg2 harg2 arg3 harg3 arg4 harg4) K := by
  simp only [cc1__edge_attn_kernel_eq_skeleton]; unfold cc1__edge_attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _)

/-- The proof data of pipeline 1 on core `c`: arrays as entered, inputs left in place, the output block at `out1`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Bodies

end
-- ==== Proof.IdealBodies2.lean ====
/-
  Region 2 of `KernelIdeal`, the output projection, at a parameter `V` (the TensorCore's buffer contents when the region is
  entered): 5000 node rows at a grid point. The body loads the summed-message block, the [128,128] weights, the bias
  row and the node block whole, and stores (messages times weights, plus the bias row) plus the node block. Here: a
  window's block, the output buffer after the body as one function of the four input blocks, the body's triple, the
  proof data, the obligation.
-/
import proofs.«124997_j40149354283101_2_alg».proof.Proof.Gen.KernelIdeal.Launch
import proofs.«124997_j40149354283101_2_alg».proof.Proof.Gen.KernelIdeal.Skeleton
import proofs.«124997_j40149354283101_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the output projection with bias and residual -/

/-- Window `w`'s block at grid point `t`: the window's array, as the region finds it, read through the block. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the pipeline fetched it there or the
    block index stood still: stated per window. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

abbrev rN2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The projection's output block from its four input blocks: the one store's value over the whole block. -/
def out2 (x0 : Vec F S5000x128 .f32) (x1 : Vec F S128x128 .f32) (x2 : Vec F S1x128 .f32) (x3 : Vec F S5000x128 .f32) : Vec F S5000x128 .f32 :=
  View.canon [⟨rN2, k2_pay1 (View.ld x0 rN2) (View.ld x1 rW2) (View.ld x2 rB2) (View.ld x3 rN2)⟩]

theorem cover2 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

set_option maxHeartbeats 1000000 in
/-- The projection body on whole staging memrefs: the inputs are left as read, the output holds `out2` of them. -/
theorem sound_kernel2 (c : Dev nD) (E : Set ℕ) (i : grid2.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S5000x128 .f32) (harg4 : arg4.IsWhole)
    (arg5 : Memref sig .tc .vmem S5000x128 .f32) (harg5 : arg5.IsWhole)
    (x0 : Vec F S5000x128 .f32) (x1 : Vec F S128x128 .f32) (x2 : Vec F S1x128 .f32) (x3 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2 x0 x1 x2 x3)) -∗ K ⟨⟩))
      ⊢ wp frame (wpE (defs₀ (F := F)) Variants.none c none) E (cc2__out_kernel i arg1 harg1 arg2 harg2 arg3 harg3 arg4 harg4 arg5 harg5) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2 _)

/-- The proof data of pipeline 2 on core `c`: arrays as entered, inputs left in place, the output block at `out2`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => out2 (blk2 V c 0 t) (blk2 V c 1 t) (blk2 V c 2 t) (blk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) :
    (dat2 V c).after 4 t = out2 (blk2 V c 0 t) (blk2 V c 1 t) (blk2 V c 2 t) (blk2 V c 3 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (blk2 V c 0 t) (blk2 V c 1 t) (blk2 V c 2 t) (blk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Bodies

end
-- ==== Proof.IdealRun.lean ====
/-
  The whole run of `KernelIdeal`'s @main: three stretches of host operations, each followed by one of the three kernels'
  regions. The contents of the TensorCore's buffers at each of the seven boundaries are a fold from the launch memory:
  a stretch applies its operations; a region leaves each of its arrays at what its pipeline leaves (an input as it
  was entered, the output with every grid point's block written back) and every other buffer as entered. Over that
  fold: every weakly fair execution ends, nothing faulting, with every unscoped buffer at the last boundary's contents;
  no stretch and no region writes an argument array, so each ends as launched (the frame); and the result buffer
  ends at region 2's output array.
-/
import proofs.«124997_j40149354283101_2_alg».proof.Proof.IdealBodies0
import proofs.«124997_j40149354283101_2_alg».proof.Proof.IdealBodies1
import proofs.«124997_j40149354283101_2_alg».proof.Proof.IdealBodies2
import proofs.«124997_j40149354283101_2_alg».proof.Proof.Gen.KernelIdeal.Regions

set_option maxRecDepth 16384

noncomputable section

namespace Cert.KernelIdeal.Bodies

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the seven boundaries -/

/-- Core `c`'s buffers at launch. -/
abbrev Bd0 : Dev nD → Valuation τ sig (Elt F) := fun c b => (s₀ m ρ).mem ((c : Dev nD), b)
/-- After the first stretch (the weights and biases concatenated): region 0's entry. -/
abbrev Bd1 : Dev nD → Valuation τ sig (Elt F) := fun c => StableHlo.after hostOps0 (Bd0 m ρ c)
/-- The contents region 0 is entered with, read at the TensorCore's references. -/
abbrev En0 : (c : Dev nD) → (b : Ref sig .tc) → Buf (Elt F) ((c : Thread nD τ).loc b) := fun c b => Bd1 m ρ c b
/-- At region 0's exit: its arrays at what the pipeline leaves (an input as entered, the output with every grid
    point's block written back), every other buffer as entered. -/
def Bd2 (c : Dev nD) : Valuation τ sig (Elt F) :=
  Pipeline.withArrays spec0 c (Bd1 m ρ c) fun w => (dat0 (En0 m ρ) c).arrAt w cfg0.N
theorem Bd2_arr (c : Dev nD) (w : Fin cfg0.W) :
    Bd2 m ρ c (Proc.devRef .tc (Pipeline.arrRef spec0 w)) = (dat0 (En0 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex0 : (c : Dev nD) → (b : Ref sig .tc) → Buf (Elt F) ((c : Thread nD τ).loc b) := fun c b => Bd2 m ρ c b
theorem hleft0 (c : Dev nD) (w : Fin cfg0.W) : (dat0 (En0 m ρ) c).arrAt w cfg0.N = Ex0 m ρ c (Pipeline.arrRef spec0 w) :=
  (Bd2_arr m ρ c w).symm
theorem hrest0 (c : Dev nD) : ∀ b, b ∉ Finset.univ.image (Pipeline.arrRef spec0) → Ex0 m ρ c b = En0 m ρ c b :=
  fun b hb => Bd2_of_ne m ρ c b fun w e => hb (Finset.mem_image.mpr ⟨w, Finset.mem_univ _, e⟩)

/-- After the second stretch (the three column bands cut out and their rows gathered per edge): region 1's entry. -/
abbrev Bd3 : Dev nD → Valuation τ sig (Elt F) := fun c => StableHlo.after hostOps1 (Bd2 m ρ c)
/-- The contents region 1 is entered with, read at the TensorCore's references. -/
abbrev En1 : (c : Dev nD) → (b : Ref sig .tc) → Buf (Elt F) ((c : Thread nD τ).loc b) := fun c b => Bd3 m ρ c b
/-- At region 1's exit: its arrays at what the pipeline leaves (an input as entered, the output with every grid
    point's block written back), every other buffer as entered. -/
def Bd4 (c : Dev nD) : Valuation τ sig (Elt F) :=
  Pipeline.withArrays spec1 c (Bd3 m ρ c) fun w => (dat1 (En1 m ρ) c).arrAt w cfg1.N
theorem Bd4_arr (c : Dev nD) (w : Fin cfg1.W) :
    Bd4 m ρ c (Proc.devRef .tc (Pipeline.arrRef spec1 w)) = (dat1 (En1 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex1 : (c : Dev nD) → (b : Ref sig .tc) → Buf (Elt F) ((c : Thread nD τ).loc b) := fun c b => Bd4 m ρ c b
theorem hleft1 (c : Dev nD) (w : Fin cfg1.W) : (dat1 (En1 m ρ) c).arrAt w cfg1.N = Ex1 m ρ c (Pipeline.arrRef spec1 w) :=
  (Bd4_arr m ρ c w).symm
theorem hrest1 (c : Dev nD) : ∀ b, b ∉ Finset.univ.image (Pipeline.arrRef spec1) → Ex1 m ρ c b = En1 m ρ c b :=
  fun b hb => Bd4_of_ne m ρ c b fun w e => hb (Finset.mem_image.mpr ⟨w, Finset.mem_univ _, e⟩)

/-- After the third stretch (the messages summed into their receivers' rows, the bias as a row): region 2's entry. -/
abbrev Bd5 : Dev nD → Valuation τ sig (Elt F) := fun c => StableHlo.after hostOps2 (Bd4 m ρ c)
/-- The contents region 2 is entered with, read at the TensorCore's references. -/
abbrev En2 : (c : Dev nD) → (b : Ref sig .tc) → Buf (Elt F) ((c : Thread nD τ).loc b) := fun c b => Bd5 m ρ c b
/-- At region 2's exit: its arrays at what the pipeline leaves (an input as entered, the output with every grid
    point's block written back), every other buffer as entered. -/
def Bd6 (c : Dev nD) : Valuation τ sig (Elt F) :=
  Pipeline.withArrays spec2 c (Bd5 m ρ c) fun w => (dat2 (En2 m ρ) c).arrAt w cfg2.N
theorem Bd6_arr (c : Dev nD) (w : Fin cfg2.W) :
    Bd6 m ρ c (Proc.devRef .tc (Pipeline.arrRef spec2 w)) = (dat2 (En2 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex2 : (c : Dev nD) → (b : Ref sig .tc) → Buf (Elt F) ((c : Thread nD τ).loc b) := fun c b => Bd6 m ρ c b
theorem hleft2 (c : Dev nD) (w : Fin cfg2.W) : (dat2 (En2 m ρ) c).arrAt w cfg2.N = Ex2 m ρ c (Pipeline.arrRef spec2 w) :=
  (Bd6_arr m ρ c w).symm
theorem hrest2 (c : Dev nD) : ∀ b, b ∉ Finset.univ.image (Pipeline.arrRef spec2) → Ex2 m ρ c b = En2 m ρ c b :=
  fun b hb => Bd6_of_ne m ρ c b fun w e => hb (Finset.mem_image.mpr ⟨w, Finset.mem_univ _, e⟩)

/-! ## A region leaves everything but its output array -/

/-- Region 0 changes only its output array: an input window's array is left as entered, any other buffer untouched. -/
theorem Bd2_keep (c : Dev nD) (b : Ref sig .tc) (hb : b ≠ Pipeline.arrRef spec0 3) :
    Bd2 m ρ c (Proc.devRef .tc b) = Bd1 m ρ c (Proc.devRef .tc b) := by
  by_cases h : ∃ w, Pipeline.arrRef spec0 w = b
  · obtain ⟨w, rfl⟩ := h
    have hw : (cfg0.win w).isOut = false := by
      match w with
      | ⟨0, _⟩ => rfl
      | ⟨1, _⟩ => rfl
      | ⟨2, _⟩ => rfl
      | ⟨3, _⟩ => exact absurd rfl hb
    exact (Bd2_arr m ρ c w).trans (((dat0 (En0 m ρ) c).arrAt_in w hw _).trans (A_eq0 (En0 m ρ) c w))
  · exact Bd2_of_ne m ρ c b fun w e => h ⟨w, e⟩

theorem Bd4_keep (c : Dev nD) (b : Ref sig .tc) (hb : b ≠ Pipeline.arrRef spec1 3) :
    Bd4 m ρ c (Proc.devRef .tc b) = Bd3 m ρ c (Proc.devRef .tc b) := by
  by_cases h : ∃ w, Pipeline.arrRef spec1 w = b
  · obtain ⟨w, rfl⟩ := h
    have hw : (cfg1.win w).isOut = false := by
      match w with
      | ⟨0, _⟩ => rfl
      | ⟨1, _⟩ => rfl
      | ⟨2, _⟩ => rfl
      | ⟨3, _⟩ => exact absurd rfl hb
    exact (Bd4_arr m ρ c w).trans (((dat1 (En1 m ρ) c).arrAt_in w hw _).trans (A_eq1 (En1 m ρ) c w))
  · exact Bd4_of_ne m ρ c b fun w e => h ⟨w, e⟩

theorem Bd6_keep (c : Dev nD) (b : Ref sig .tc) (hb : b ≠ Pipeline.arrRef spec2 4) :
    Bd6 m ρ c (Proc.devRef .tc b) = Bd5 m ρ c (Proc.devRef .tc b) := by
  by_cases h : ∃ w, Pipeline.arrRef spec2 w = b
  · obtain ⟨w, rfl⟩ := h
    have hw : (cfg2.win w).isOut = false := by
      match w with
      | ⟨0, _⟩ => rfl
      | ⟨1, _⟩ => rfl
      | ⟨2, _⟩ => rfl
      | ⟨3, _⟩ => rfl
      | ⟨4, _⟩ => exact absurd rfl hb
    exact (Bd6_arr m ρ c w).trans (((dat2 (En2 m ρ) c).arrAt_in w hw _).trans (A_eq2 (En2 m ρ) c w))
  · exact Bd6_of_ne m ρ c b fun w e => h ⟨w, e⟩

/-- A buffer that no stretch writes and that is no region's output ends as launched. -/
theorem Bd6_launch (c : Dev nD) (b : Ref sig .tc) (h0 : b ∉ hostOps0_W) (h1 : b ∉ hostOps1_W) (h2 : b ∉ hostOps2_W)
    (ho0 : b ≠ Pipeline.arrRef spec0 3) (ho1 : b ≠ Pipeline.arrRef spec1 3) (ho2 : b ≠ Pipeline.arrRef spec2 4) :
    Bd6 m ρ c (Proc.devRef .tc b) = m ((c : Thread nD τ).loc b) :=
  (Bd6_keep m ρ c b ho2).trans <| (StableHlo.after_of_writes_sub hostOps2 _ hostOps2_writes h2).trans <|
    (Bd4_keep m ρ c b ho1).trans <| (StableHlo.after_of_writes_sub hostOps1 _ hostOps1_writes h1).trans <|
    (Bd2_keep m ρ c b ho0).trans <| (StableHlo.after_of_writes_sub hostOps0 _ hostOps0_writes h0).trans rfl

/-! ## The proof data family and the thread state -/

/-- Every pipeline's proof data, each at its region's entry contents. -/
def pdata : (p : Fin 3) → (c : Dev nD) → Dat τ (Elt F) Unit ℕ (UR sig nD τ) ℕ (Pipeline.pin (pcfgs (F := F)) adm p) c
  | ⟨0, _⟩ => fun c => dat0 (En0 m ρ) c
  | ⟨1, _⟩ => fun c => dat1 (En1 m ρ) c
  | ⟨2, _⟩ => fun c => dat2 (En2 m ρ) c
abbrev 𝒱n : Variants := Variants.none
abbrev Ln : GSem nD τ sig → Finset Unit := fun _ => ∅
abbrev lvn : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A stretch of host operations as a segment from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (Bd6 m ρ c) ∗ ∃ r, prngReg c r)

/-! ## The regions as segments -/

set_option backward.isDefEq.respectTransparency.types false in
/-- Region 0 as a segment: entered with every unscoped buffer at `Bd1`, left with them at `Bd2`. Its
    arrays are split out of the unscoped buffers on entry and put back at what the pipeline leaves on exit; the
    generator register goes into the class invariant and comes back; nothing is owed; the kernel has no semaphore of
    its own. -/
def reg0 : Pipeline.RegionSeg (pcfgs (F := F)) adm (pdata m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (En0 m ρ) c).loose
  hwaits := Pipeline.hwaits_of_owed_zero _ _ _ _ Ln lvn 0 fun _ _ => rfl
  pre c := iprop(StableHlo.held (c : Thread nD τ) (Pipeline.ucRefs τ sig) (Bd1 m ρ c) ∗ Rest c)
  post c := iprop(StableHlo.held (c : Thread nD τ) (Pipeline.ucRefs τ sig) (Bd2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) adm (pdata m ρ) launch0.win launch0.arr_whole c
      ((pdata m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdata m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdata m ρ) ((pdata m ρ 0 c).share_full fun _ => rfl)
      (En0 m ρ c) (Ex0 m ρ c) ((pdata m ρ 0 c).arrAt · cfg0.N) (hleft0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Bd3`, left with them at `Bd4`. Its
    arrays are split out of the unscoped buffers on entry and put back at what the pipeline leaves on exit; the
    generator register goes into the class invariant and comes back; nothing is owed; the kernel has no semaphore of
    its own. -/
def reg1 : Pipeline.RegionSeg (pcfgs (F := F)) adm (pdata m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (En1 m ρ) c).loose
  hwaits := Pipeline.hwaits_of_owed_zero _ _ _ _ Ln lvn 1 fun _ _ => rfl
  pre c := iprop(StableHlo.held (c : Thread nD τ) (Pipeline.ucRefs τ sig) (Bd3 m ρ c) ∗ Rest c)
  post c := iprop(StableHlo.held (c : Thread nD τ) (Pipeline.ucRefs τ sig) (Bd4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) adm (pdata m ρ) launch1.win launch1.arr_whole c
      ((pdata m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdata m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdata m ρ) ((pdata m ρ 1 c).share_full fun _ => rfl)
      (En1 m ρ c) (Ex1 m ρ c) ((pdata m ρ 1 c).arrAt · cfg1.N) (hleft1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Bd5`, left with them at `Bd6`. Its
    arrays are split out of the unscoped buffers on entry and put back at what the pipeline leaves on exit; the
    generator register goes into the class invariant and comes back; nothing is owed; the kernel has no semaphore of
    its own. -/
def reg2 : Pipeline.RegionSeg (pcfgs (F := F)) adm (pdata m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (En2 m ρ) c).loose
  hwaits := Pipeline.hwaits_of_owed_zero _ _ _ _ Ln lvn 2 fun _ _ => rfl
  pre c := iprop(StableHlo.held (c : Thread nD τ) (Pipeline.ucRefs τ sig) (Bd5 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) adm (pdata m ρ) launch2.win launch2.arr_whole c
      ((pdata m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdata m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdata m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdata m ρ) ((pdata m ρ 2 c).share_full fun _ => rfl)
      (En2 m ρ c) (Ex2 m ρ c) ((pdata m ρ 2 c).arrAt · cfg2.N) (hleft2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev pieces : List (Pipeline.Seg (pcfgs (F := F)) adm (pdata m ρ) () defs₀ 𝒱n Ln lvn) :=
  [ .host (stretch hostOps0 hostOps0_sub hostOps0_fresh (Bd0 m ρ)),
    .region (reg0 m ρ),
    .host (stretch hostOps1 hostOps1_sub hostOps1_fresh (Bd2 m ρ)),
    .region (reg1 m ρ),
    .host (stretch hostOps2 hostOps2_sub hostOps2_fresh (Bd4 m ρ)),
    .region (reg2 m ρ) ]
theorem main_pieces (c : Dev nD) : main (F := F) c = Pipeline.Seg.run (pieces m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m ρ c b) :=
  Pipeline.θ_run_regions_kit (pcfgs (F := F)) adm (pdata m ρ) () cellOf_inj emb₁ defs₀ 𝒱n Ln lvn m ρ main (pieces m ρ)
    (fun c Q => by rw [main_pieces m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rest c)) (Tₙ := Tend m ρ)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have keep : ∀ (b : Ref sig .tc), ¬ (Proc.devRef .tc b : DevRef τ sig).isScoped → b ∉ hostOps0_W → b ∉ hostOps1_W → b ∉ hostOps2_W →
        b ≠ Pipeline.arrRef spec0 3 → b ≠ Pipeline.arrRef spec1 3 → b ≠ Pipeline.arrRef spec2 4 →
        r.2.mem ((c.tc : Thread nD τ).loc b) = m ((c.tc : Thread nD τ).loc b) :=
      fun b hs h0 h1 h2 ho0 ho1 ho2 => (h c _ (mem_uc b hs)).trans (Bd6_launch m ρ c b h0 h1 h2 ho0 ho1 ho2)
    ⟨keep main_arg0 (by decide) (by decide) (by decide) (by decide) (by decide) (by decide) (by decide),
     keep main_arg1 (by decide) (by decide) (by decide) (by decide) (by decide) (by decide) (by decide),
     keep main_arg2 (by decide) (by decide) (by decide) (by decide) (by decide) (by decide) (by decide),
     keep main_arg3 (by decide) (by decide) (by decide) (by decide) (by decide) (by decide) (by decide),
     keep main_arg4 (by decide) (by decide) (by decide) (by decide) (by decide) (by decide) (by decide),
     keep main_arg5 (by decide) (by decide) (by decide) (by decide) (by decide) (by decide) (by decide),
     keep main_arg6 (by decide) (by decide) (by decide) (by decide) (by decide) (by decide) (by decide),
     keep main_arg7 (by decide) (by decide) (by decide) (by decide) (by decide) (by decide) (by decide),
     keep main_arg8 (by decide) (by decide) (by decide) (by decide) (by decide) (by decide) (by decide),
     keep main_arg9 (by decide) (by decide) (by decide) (by decide) (by decide) (by decide) (by decide),
     keep main_arg10 (by decide) (by decide) (by decide) (by decide) (by decide) (by decide) (by decide)⟩) (run_all m ρ)

end Cert.KernelIdeal.Bodies

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibRowSoftmax.lean ====
/-
  The softmax of each row of a matrix, read at an entry.

  For a row of scores s : Fin b → EReal and an accumulator value `bot` the row's maximum is the fold of max from `bot`
  over the scores, and the row's share at column j is exp (s j − maximum) divided by the sum over the columns k of
  exp (s k − maximum). On the extended reals the usual arrangement of a softmax over the second axis of an [a, b]
  array — the maximum over the axis kept as an [a, 1] column and broadcast back, the difference, its exponential, the
  sum of the exponentials over the axis kept and broadcast back likewise, the quotient — reads, at (r, c), the share of
  row r at column c. Nothing is assumed finite: both sides are the same operations of the extended reals.

  Also: taking the maximum with the accumulator value once more changes nothing, the fold being already above it.
-/
import proofs.«124997_j40149354283101_2_alg».proof.Proof.LibKeepdims
import proofs.«124997_j40149354283101_2_alg».proof.Proof.LibRowMax

noncomputable section

namespace RowSoftmax

open Idealize.ShloMosaic Idealize.ShloMosaic.ValueIdx

/-- A row's maximum: the fold of max, from the accumulator value, over its scores. -/
def rowMax {b : ℕ} (bot : EReal) (s : Fin b → EReal) : EReal := (Finset.univ : Finset (Fin b)).fold max bot s

/-- A row's share at column j: its shifted exponential over the sum of the row's shifted exponentials. -/
def share {b : ℕ} (bot : EReal) (s : Fin b → EReal) (j : Fin b) : EReal :=
  Ideal.div (Ideal.exp (s j - rowMax bot s)) (∑ k : Fin b, Ideal.exp (s k - rowMax bot s))

/-- The fold of max from `bot` is above `bot`: one more max with it is the fold. -/
theorem max_rowMax {b : ℕ} (bot : EReal) (s : Fin b → EReal) : max bot (rowMax bot s) = rowMax bot s :=
  max_eq_right ((Finset.le_fold_max bot).mpr (Or.inl le_rfl))

/-- The softmax over the second axis of an [a, b] array, as a kernel arranges it with kept axes, read at (r, c). -/
theorem softmax_rows_apply {a b : ℕ} (v : FVec Ideal (⟨2, ![a, b]⟩ : Shape) .f32) (accM accS : BitVec 32)
    (h : (⟨2, ![a, b]⟩ : Shape).Reduces [1] ⟨1, ![a]⟩) (hφ hφ' : FKind.Formats .f32)
    (hM : accM = FKind.maximumf.neutral .f32 hφ) (hS : accS = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (c : Fin b) :
    divf (exp (subf v (broadcastTo ⟨2, ![a, b]⟩ (shapeCast ⟨2, ![a, 1]⟩ (multiReduction .maximumf [1] ⟨1, ![a]⟩ v accM h hφ hM) hc) hb)))
        (broadcastTo ⟨2, ![a, b]⟩ (shapeCast ⟨2, ![a, 1]⟩
          (multiReduction .add [1] ⟨1, ![a]⟩
            (exp (subf v (broadcastTo ⟨2, ![a, b]⟩ (shapeCast ⟨2, ![a, 1]⟩ (multiReduction .maximumf [1] ⟨1, ![a]⟩ v accM h hφ hM) hc) hb)))
            accS h hφ' hS) hc) hb) (ix2 r c)
      = share (Ideal.ofBits .f32 accM) (fun k => v (ix2 r k)) c := by
  have hmx : ∀ (r' : Fin a) (c' : Fin b),
      broadcastTo ⟨2, ![a, b]⟩ (shapeCast ⟨2, ![a, 1]⟩ (multiReduction .maximumf [1] ⟨1, ![a]⟩ v accM h hφ hM) hc) hb (ix2 r' c')
        = rowMax (Ideal.ofBits .f32 accM) (fun k => v (ix2 r' k)) := fun r' c' =>
    (Keepdims.broadcastTo_a1_ab_apply _ hb r' c').trans
      ((Keepdims.shapeCast_a_a1_apply _ hc r' 0).trans (RowMax.rowMax_apply v accM h hφ hM r'))
  have hp : ∀ (r' : Fin a) (c' : Fin b),
      exp (subf v (broadcastTo ⟨2, ![a, b]⟩ (shapeCast ⟨2, ![a, 1]⟩ (multiReduction .maximumf [1] ⟨1, ![a]⟩ v accM h hφ hM) hc) hb)) (ix2 r' c')
        = Ideal.exp (v (ix2 r' c') - rowMax (Ideal.ofBits .f32 accM) (fun k => v (ix2 r' k))) := fun r' c' =>
    congrArg (fun x => Ideal.exp (v (ix2 r' c') - x)) (hmx r' c')
  refine (divf_apply _ _ _).trans ?_
  rw [hp r c, Keepdims.broadcastTo_a1_ab_apply, Keepdims.rowSumKeep_apply]
  unfold share
  exact congrArg (Ideal.div _) (Finset.sum_congr rfl fun k _ => hp r k)

end RowSoftmax

end
-- ==== Proof.AttnLayer.lean ====
/-
  One attention message-passing layer on the extended reals, entry by entry.

  A node row x (128 features) is sent through three dense layers to a query, a key and a value row. For an edge with
  sender row s and receiver row r the score of head h (four heads of 32 lanes each) is the sum over the head's lanes of
  query(s) * key(r), times a fixed scale; the four scores are turned into shares by a softmax over the heads; the
  edge's message is value(s) with each head's 32 lanes multiplied by that head's share. Messages are summed into their
  receiver's row (that sum is the same operation in both programs and is not opened here), and the result row is the
  summed messages through a fourth dense layer plus the node's own row.

  Nothing here is assumed finite: every definition is the same expression of extended reals that both programs compute.
-/
import proofs.«124997_j40149354283101_2_alg».proof.Proof.LibRowSoftmax
import Idealize.ShloMosaic.PureOps.Ideal
import Idealize.ShloMosaic.Lib.ValueIdx

noncomputable section

namespace AttnLayer

open Idealize.ShloMosaic

/-- The value the running maximum over the heads starts from (the pattern of minus infinity). -/
abbrev floor : EReal := Ideal.ofBits .f32 0xFF800000#32
/-- The fixed scale of a score (the pattern both programs multiply by; never evaluated). -/
abbrev scale : EReal := Ideal.ofBits .f32 0x3E3504F3#32

/-- Lane d of head h among the 128 features. -/
def lane (h : Fin 4) (d : Fin 32) : Fin 128 := ⟨h.val * 32 + d.val, by omega⟩

/-- A dense layer at one entry: row x times column j of W, plus the bias. -/
def dense (x : Fin 128 → EReal) (W : Fin 128 → Fin 128 → EReal) (b : Fin 128 → EReal) (j : Fin 128) : EReal :=
  (∑ k : Fin 128, x k * W k j) + b j

/-- Head h's score of a query row against a key row. -/
def score (q k : Fin 128 → EReal) (h : Fin 4) : EReal :=
  (∑ d : Fin 32, q (lane h d) * k (lane h d)) * scale

/-- An edge's message at lane d of head h: the value there times the head's share of the softmax over the heads. -/
def message (q k v : Fin 128 → EReal) (h : Fin 4) (d : Fin 32) : EReal :=
  v (lane h d) * RowSoftmax.share floor (score q k) h

/-- The result at one entry: the summed messages' row through the output layer, plus the node's own feature. -/
def result (agg : Fin 128 → EReal) (Wo : Fin 128 → Fin 128 → EReal) (bo : Fin 128 → EReal) (x : Fin 128 → EReal) (j : Fin 128) : EReal :=
  dense agg Wo bo j + x j

/-- The row of the 100000-row tables an index word selects: the word read as a signed integer, clamped into the table. -/
def rowOf (w : BitVec 32) : Fin 100000 := ⟨min w.toInt.toNat (100000 - 1), by omega⟩

/-- Every feature index is a lane of exactly one head. -/
theorem lane_surj (j : Fin 128) : ∃ (h : Fin 4) (d : Fin 32), j = lane h d :=
  ⟨⟨j.val / 32, by omega⟩, ⟨j.val % 32, Nat.mod_lt _ (by omega)⟩, Fin.ext (by simp only [lane]; omega)⟩

end AttnLayer

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.IdealPayloads.lean ====
/-
  The three kernel bodies' stored values read at an index, on the extended reals.

  The projection body stores, at (r, j), row r of its input times column j of the weights plus the bias row at j; the
  output body stores the same with one more addend, the node's own feature; the edge body stores, at lane d of head h
  of edge e, the value there times the head's share of the softmax, over the four heads, of the scaled lane sums of
  query times key. Rounding to a narrower format is the identity on the extended reals, a cast to the same shape is
  the identity, and a product into the zero accumulator is the plain sum of products.
-/
import proofs.«124997_j40149354283101_2_alg».proof.Proof.Gen.KernelIdeal.Skeleton
import proofs.«124997_j40149354283101_2_alg».proof.Proof.AttnLayer
import proofs.«124997_j40149354283101_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen
open Idealize.ShloMosaic Idealize.ShloMosaic.ValueIdx

/-! ## The two dense bodies -/

/-- The projection's dimension numbers are the plain ones: rows by contraction times contraction by columns. -/
theorem dot0_eq : dot_S5000x128_S128x384_S5000x384_1_0_0_1_n_n = DotDims.plain 5000 128 384 := rfl

/-- The output layer's dimension numbers are the plain ones. -/
theorem dot2_eq : dot_S5000x128_S128x128_S5000x128_1_0_0_1_n_n = DotDims.plain 5000 128 128 := rfl

/-- The projection body's stored value at (r, j): row r times column j of the weights, plus the bias at j. -/
theorem pay0_apply (x0 : Vec Ideal S5000x128 .f32) (x1 : Vec Ideal S128x384 .f32) (x2 : Vec Ideal S1x384 .f32)
    (r : Fin 5000) (j : Fin 384) :
    Gen.k0_pay1 (F := Ideal) x0 x1 x2 (ix2 r j) = (∑ k : Fin 128, x0 (ix2 r k) * x1 (ix2 k j)) + x2 (ix2 0 j) := by
  unfold Gen.k0_pay1
  refine (addf_apply _ _ _).trans ?_
  refine congrArg₂ (· + ·) ?_ ?_
  · rw [dot0_eq]
    refine (PlainDot.matmul_zero_apply 5000 128 384 none _ _ (ix2 r j)).trans ?_
    rw [shapeCast_self]
    rfl
  · rw [shapeCast_self]
    exact broadcastTo_1b_ab_apply _ _ r j

/-- The output body's stored value at (r, j): row r times column j of the weights, plus the bias at j, plus the
    node's own feature at (r, j). -/
theorem pay2_apply (a : Vec Ideal S5000x128 .f32) (w : Vec Ideal S128x128 .f32) (b : Vec Ideal S1x128 .f32)
    (x : Vec Ideal S5000x128 .f32) (r : Fin 5000) (j : Fin 128) :
    Gen.k2_pay1 (F := Ideal) a w b x (ix2 r j)
      = ((∑ k : Fin 128, a (ix2 r k) * w (ix2 k j)) + b (ix2 0 j)) + x (ix2 r j) := by
  unfold Gen.k2_pay1
  refine (addf_apply _ _ _).trans ?_
  refine congrArg (· + x (ix2 r j)) ?_
  refine (addf_apply _ _ _).trans ?_
  refine congrArg₂ (· + ·) ?_ ?_
  · rw [dot2_eq]
    refine (PlainDot.matmul_zero_apply 5000 128 128 none _ _ (ix2 r j)).trans ?_
    rw [shapeCast_self]
    rfl
  · rw [shapeCast_self]
    exact broadcastTo_1b_ab_apply _ _ r j

end Cert.KernelIdeal.Payloads

end
-- ==== Proof.IdealTable0.lean ====
/-
  Region 0's output array at Ideal, as one function of the arrays the region is entered with: the projected table.
  Grid point t holds rows t*5000 .. t*5000+4999 of the node table, the whole [128,384] weights and the whole bias
  row; what it writes back is those rows of  nodes * weights + bias ; the twenty row blocks tile the [100000,384]
  table, so after the region the table is that product everywhere.
-/
import proofs.«124997_j40149354283101_2_alg».proof.Proof.IdealBodies0
import proofs.«124997_j40149354283101_2_alg».proof.Proof.IdealPayloads
import Idealize.ShloMosaic.Lib.Pipeline.Value
import Idealize.ShloMosaic.Lib.ValueIdx

set_option maxRecDepth 16384

noncomputable section

namespace Cert.KernelIdeal.Bodies

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The projected table: entry (n, j) is row n of the nodes times column j of the weights, plus the bias row's entry j. -/
def projected (a : S100000x128.Idx → EReal) (w : S128x384.Idx → EReal) (b : S1x384.Idx → EReal) : S100000x384.Idx → EReal :=
  fun i => (∑ k : Fin 128, a (ix2 (i 0) k) * w (ix2 k (i 1))) + b (ix2 0 (i 1))

/-- Where the windows' blocks sit: the node rows and the output rows move with the grid point, the weights and the
    bias row stand still. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node block at point t, read at (p, k): row t*5000+p of the node table. -/
theorem nodeBlock0 (c : Dev nD) (t : Fin cfg0.N) (p : Fin 5000) (k : Fin 128) (j : S100000x384.Idx)
    (hj : (j 0).val = t.val * 5000 + p.val) :
    blk0 V c 0 t (ix2 p k) = V c main_arg0 (ix2 (j 0) k) := by
  show V c main_arg0 (((cfg0.win 0).blk t).view.emb (ix2 p k)) = V c main_arg0 (ix2 (j 0) k)
  refine congrArg _ ?_
  obtain ⟨e0, e1, -⟩ := where0 t
  funext a; apply Fin.ext
  match a with
  | ⟨0, _⟩ => show win0_0.index t (0 : Fin 2) * 5000 + 1 * p.val = (j 0).val; omega
  | ⟨1, _⟩ => show win0_0.index t (1 : Fin 2) * 128 + 1 * k.val = k.val; omega

/-- The weights block at any point is the whole weights array. -/
theorem weightBlock0 (c : Dev nD) (t : Fin cfg0.N) (k : Fin 128) (q : Fin 384) :
    blk0 V c 1 t (ix2 k q) = V c main_v0 (ix2 k q) := by
  show V c main_v0 (((cfg0.win 1).blk t).view.emb (ix2 k q)) = V c main_v0 (ix2 k q)
  refine congrArg _ ?_
  obtain ⟨-, -, e2, e3, -⟩ := where0 t
  funext a; apply Fin.ext
  match a with
  | ⟨0, _⟩ => show win0_1.index t (0 : Fin 2) * 128 + 1 * k.val = k.val; omega
  | ⟨1, _⟩ => show win0_1.index t (1 : Fin 2) * 384 + 1 * q.val = q.val; omega

/-- The bias block at any point is the whole bias row. -/
theorem biasBlock0 (c : Dev nD) (t : Fin cfg0.N) (q : Fin 384) :
    blk0 V c 2 t (ix2 0 q) = V c main_v2 (ix2 0 q) := by
  show V c main_v2 (((cfg0.win 2).blk t).view.emb (ix2 0 q)) = V c main_v2 (ix2 0 q)
  refine congrArg _ ?_
  obtain ⟨-, -, -, -, e4, e5, -⟩ := where0 t
  funext a; apply Fin.ext
  match a with
  | ⟨0, _⟩ => show win0_2.index t (0 : Fin 2) * 1 + 1 * 0 = 0; omega
  | ⟨1, _⟩ => show win0_2.index t (1 : Fin 2) * 384 + 1 * q.val = q.val; omega

/-- What point t writes back is block t of the projected table. -/
theorem flushed0_eq (c : Dev nD) (t : Fin cfg0.N) :
    (dat0 V c).flushed 3 t = ((cfg0.win 3).blk t).view.read (Elt Ideal) (projected (V c main_arg0) (V c main_v0) (V c main_v2)) := by
  show (cfg0.win 3).cut (grid0.coords t) ((dat0 V c).after 3 t) = _
  rw [after0_3]
  unfold out0
  rw [View.canon_unit_zero zeroOffsets]
  simp only [View.ld_unit_zero (S := S5000x128) zeroOffsets, View.ld_unit_zero (S := S128x384) zeroOffsets, View.ld_unit_zero (S := S1x384) zeroOffsets]
  funext y
  obtain ⟨p, q, rfl⟩ : ∃ (p : Fin 5000) (q : Fin 384), y = ix2 p q := ⟨y 0, y 1, eq_ix2 y⟩
  refine (Payloads.pay0_apply _ _ _ p q).trans ?_
  obtain ⟨-, -, -, -, -, -, e6, e7⟩ := where0 t
  have hemb0 : ((((cfg0.win 3).blk t).view.emb (ix2 p q)) 0).val = t.val * 5000 + p.val := by
    show win0_3.index t (0 : Fin 2) * 5000 + 1 * p.val = _; omega
  have hemb1 : ((((cfg0.win 3).blk t).view.emb (ix2 p q)) 1) = q := by
    apply Fin.ext; show win0_3.index t (1 : Fin 2) * 384 + 1 * q.val = _; omega
  show _ = projected (V c main_arg0) (V c main_v0) (V c main_v2) (((cfg0.win 3).blk t).view.emb (ix2 p q))
  unfold projected
  rw [hemb1]
  refine congrArg₂ (· + ·) (Finset.sum_congr rfl fun k _ => ?_) (biasBlock0 V c t q)
  rw [nodeBlock0 V c t p k _ hemb0, weightBlock0 V c t k q]

/-- An index of the table is in point t's block iff each coordinate is in the block's range on its axis. -/
theorem mem_blk0 (t : Fin cfg0.N) (i : S100000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v3).slice (win0_3.rect t)).set ↔ _
  rw [View.set_slice_whole, Rect.mem_set_unit]
  exact Iff.rfl

/-- Every index of the table lies in the block of the point that holds its row. -/
theorem cover0_all (i : S100000x384.Idx) :
    ∃ t : Fin cfg0.N, (cfg0.win 3).flush t = true ∧ i ∈ ((cfg0.win 3).blk t).view.set := by
  have hi0 : (i 0).val < 100000 := (i 0).isLt
  have hi1 : (i 1).val < 384 := (i 1).isLt
  refine ⟨⟨(i 0).val / 5000, by show _ < grid0.N; rw [N_0]; omega⟩, flush0_3 _, ?_⟩
  rw [mem_blk0]
  obtain ⟨-, -, -, -, -, -, e6, e7⟩ := where0 ⟨(i 0).val / 5000, by show _ < grid0.N; rw [N_0]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 384 ≤ (i 1).val ∧ (i 1).val < win0_3.index _ (1 : Fin 2) * 384 + 384
    rw [e7]; omega

/-- THE TABLE after region 0: the projected table of the arrays the region is entered with. -/
theorem final0 (c : Dev nD) :
    (dat0 V c).arrAt 3 cfg0.N = projected (V c main_arg0) (V c main_v0) (V c main_v2) :=
  (dat0 V c).arrAt_eq_of_cover 3 _ (fun t _ => flushed0_eq V c t) cover0_all

end Cert.KernelIdeal.Bodies

end
-- ==== Proof.IdealPayloads1.lean ====
/-
  The edge body's stored value read at an index, on the extended reals.

  The edge body stores, at lane d of head h of edge e, the value there times the head's share of the softmax, over the
  four heads, of the scaled lane sums of query times key. The score array is four kept-axis row sums laid side by
  side, the shares are its softmax in the kept-axis arrangement, and the stored block is the four heads' 32-lane
  pieces of the value block, each times its head's share column broadcast over the lanes, laid side by side.
-/
import proofs.«124997_j40149354283101_2_alg».proof.Proof.Gen.KernelIdeal.Skeleton
import proofs.«124997_j40149354283101_2_alg».proof.Proof.AttnLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen
open Idealize.ShloMosaic Idealize.ShloMosaic.ValueIdx

/-! ## Four pieces laid side by side -/

/-- Four [n, w] pieces concatenated along the second axis read, at row e and column h * w + d, piece h at (e, d). -/
theorem concat4_apply {α : Type} {n w m : ℕ} (x : Fin 4 → ((⟨2, ![n, w]⟩ : Shape).Idx → α))
    (hc : Shape.Concatenates
      (([⟨⟨2, ![n, w]⟩, x 0⟩, ⟨⟨2, ![n, w]⟩, x 1⟩, ⟨⟨2, ![n, w]⟩, x 2⟩, ⟨⟨2, ![n, w]⟩, x 3⟩] :
        List ((s : Shape) × (s.Idx → α))).map (·.1)) ⟨2, ![n, m]⟩ 1)
    (e : Fin n) (h : Fin 4) (d : Fin w) (c : Fin m) (hcv : c.val = h.val * w + d.val) :
    concatenate ⟨2, ![n, m]⟩ 1 [⟨⟨2, ![n, w]⟩, x 0⟩, ⟨⟨2, ![n, w]⟩, x 1⟩, ⟨⟨2, ![n, w]⟩, x 2⟩, ⟨⟨2, ![n, w]⟩, x 3⟩] hc (ix2 e c)
      = x h (ix2 e d) := by
  have hi : ∀ b : Fin 2, b.cast (rfl : (2 : ℕ) = 2) ≠ (1 : Fin 2) → ((ix2 e d : (⟨2, ![n, w]⟩ : Shape).Idx) b).val
      = ((ix2 e c : (⟨2, ![n, m]⟩ : Shape).Idx) (b.cast rfl)).val := fun b hb => by
    match b with
    | ⟨0, _⟩ => rfl
    | ⟨1, _⟩ => exact absurd rfl hb
  match h with
  | ⟨0, _⟩ =>
    exact concatenate_apply_piece 1 _ hc (ix2 e c) 0 (show (0 : ℕ) < 4 by omega) ⟨2, ![n, w]⟩ (x 0) rfl rfl 0 rfl (ix2 e d) hi
      (by show 0 + d.val = c.val; rw [hcv]; show 0 + d.val = 0 * w + d.val; omega)
  | ⟨1, _⟩ =>
    exact concatenate_apply_piece 1 _ hc (ix2 e c) 1 (show (1 : ℕ) < 4 by omega) ⟨2, ![n, w]⟩ (x 1) rfl rfl w rfl (ix2 e d) hi
      (by show w + d.val = c.val; rw [hcv]; show w + d.val = 1 * w + d.val; omega)
  | ⟨2, _⟩ =>
    exact concatenate_apply_piece 1 _ hc (ix2 e c) 2 (show (2 : ℕ) < 4 by omega) ⟨2, ![n, w]⟩ (x 2) rfl rfl (w + w) rfl (ix2 e d) hi
      (by show w + w + d.val = c.val; rw [hcv]; show w + w + d.val = 2 * w + d.val; omega)
  | ⟨3, _⟩ =>
    exact concatenate_apply_piece 1 _ hc (ix2 e c) 3 (show (3 : ℕ) < 4 by omega) ⟨2, ![n, w]⟩ (x 3) rfl rfl (w + (w + w)) rfl (ix2 e d) hi
      (by show w + (w + w) + d.val = c.val; rw [hcv]; show w + (w + w) + d.val = 3 * w + d.val; omega)

/-! ## The edge body -/

/-- The product of the query and key blocks, entry by entry. -/
def qk (q k : Vec Ideal S6000x128 .f32) : FVec Ideal S6000x128 .f32 :=
  mulf (shapeCast S6000x128 q shapeCasts_S6000x128_S6000x128) (shapeCast S6000x128 k shapeCasts_S6000x128_S6000x128)

/-- One head's score column: the sum over the 32 lanes from offset o of the product, kept as a column, times the scale. -/
def scoreCol (q k : Vec Ideal S6000x128 .f32) (o : ℕ) (hs : S6000x128.Slices ![0, o] S6000x32) : FVec Ideal S6000x1 .f32 :=
  mulf (shapeCast S6000x1 (multiReduction .add [1] S6000 (extractStridedSlice S6000x32 ![0, o] (qk q k) hs) 0x00000000#32
      reduces_S6000x32_S6000 (.inl rfl) rfl) shapeCasts_S6000_S6000x1)
    (broadcast S6000x1 (Scalar.ofBits (F := Ideal) .f32 0x3E3504F3#32))

/-- The four heads' score columns side by side. -/
def scores (q k : Vec Ideal S6000x128 .f32) : FVec Ideal S6000x4 .f32 :=
  concatenate S6000x4 1 [⟨S6000x1, scoreCol q k 0 slices_S6000x128_o0_0_S6000x32⟩, ⟨S6000x1, scoreCol q k 32 slices_S6000x128_o0_32_S6000x32⟩,
    ⟨S6000x1, scoreCol q k 64 slices_S6000x128_o0_64_S6000x32⟩, ⟨S6000x1, scoreCol q k 96 slices_S6000x128_o0_96_S6000x32⟩]
    concatenates_S6000x1_S6000x1_S6000x1_S6000x1_S6000x4_d1

/-- A score column at edge e is head h's score of the edge's query row against its key row, when the column's lanes
    start at 32 h. -/
theorem scoreCol_apply (q k : Vec Ideal S6000x128 .f32) (o : ℕ) (hs : S6000x128.Slices ![0, o] S6000x32) (h : Fin 4)
    (ho : o = 32 * h.val) (e : Fin 6000) (u : Fin 1) :
    scoreCol q k o hs (ix2 e u) = AttnLayer.score (fun j => q (ix2 e j)) (fun j => k (ix2 e j)) h := by
  unfold scoreCol AttnLayer.score
  refine (mulf_apply _ _ _).trans ?_
  refine congrArg₂ (· * ·) ?_ rfl
  refine (Keepdims.rowSumKeep_apply _ _ _ _ _ _ e u).trans ?_
  refine Finset.sum_congr rfl fun d _ => ?_
  refine (slice2_axis1_apply o _ hs e d (AttnLayer.lane h d) (by simp only [AttnLayer.lane]; omega)).trans ?_
  unfold qk
  rw [shapeCast_self, shapeCast_self]
  rfl

/-- The score array at (e, h) is head h's score of edge e. -/
theorem scores_apply (q k : Vec Ideal S6000x128 .f32) (e : Fin 6000) (h : Fin 4) :
    scores q k (ix2 e h) = AttnLayer.score (fun j => q (ix2 e j)) (fun j => k (ix2 e j)) h := by
  unfold scores
  refine (concat4_apply (n := 6000) (w := 1) (m := 4)
    ![scoreCol q k 0 slices_S6000x128_o0_0_S6000x32, scoreCol q k 32 slices_S6000x128_o0_32_S6000x32,
      scoreCol q k 64 slices_S6000x128_o0_64_S6000x32, scoreCol q k 96 slices_S6000x128_o0_96_S6000x32]
    concatenates_S6000x1_S6000x1_S6000x1_S6000x1_S6000x4_d1 e h (0 : Fin 1) h (by simp)).trans ?_
  match h with
  | ⟨0, _⟩ => exact scoreCol_apply q k 0 _ ⟨0, by omega⟩ rfl e 0
  | ⟨1, _⟩ => exact scoreCol_apply q k 32 _ ⟨1, by omega⟩ rfl e 0
  | ⟨2, _⟩ => exact scoreCol_apply q k 64 _ ⟨2, by omega⟩ rfl e 0
  | ⟨3, _⟩ => exact scoreCol_apply q k 96 _ ⟨3, by omega⟩ rfl e 0

/-- The shares array is the softmax over the heads of the score array, in the kept-axis arrangement. -/
theorem pay3_eq (q k : Vec Ideal S6000x128 .f32) :
    Gen.k1_pay3 (F := Ideal) q k
      = divf (exp (subf (scores q k) (broadcastTo S6000x4 (shapeCast S6000x1 (multiReduction .maximumf [1] S6000 (scores q k)
            0xFF800000#32 reduces_S6000x4_S6000 (.inl rfl) rfl) shapeCasts_S6000_S6000x1) broadcasts_S6000x1_S6000x4)))
        (broadcastTo S6000x4 (shapeCast S6000x1
          (multiReduction .add [1] S6000
            (exp (subf (scores q k) (broadcastTo S6000x4 (shapeCast S6000x1 (multiReduction .maximumf [1] S6000 (scores q k)
              0xFF800000#32 reduces_S6000x4_S6000 (.inl rfl) rfl) shapeCasts_S6000_S6000x1) broadcasts_S6000x1_S6000x4)))
            0x00000000#32 reduces_S6000x4_S6000 (.inl rfl) rfl) shapeCasts_S6000_S6000x1) broadcasts_S6000x1_S6000x4) := rfl

/-- The shares array at (e, h) is head h's share of the softmax over the heads of edge e's scores. -/
theorem pay3_apply (q k : Vec Ideal S6000x128 .f32) (e : Fin 6000) (h : Fin 4) :
    Gen.k1_pay3 (F := Ideal) q k (ix2 e h)
      = RowSoftmax.share AttnLayer.floor (AttnLayer.score (fun j => q (ix2 e j)) (fun j => k (ix2 e j))) h := by
  rw [pay3_eq]
  refine (RowSoftmax.softmax_rows_apply (a := 6000) (b := 4) (scores q k) 0xFF800000#32 0x00000000#32 reduces_S6000x4_S6000
    (.inl rfl) (.inl rfl) rfl rfl shapeCasts_S6000_S6000x1 broadcasts_S6000x1_S6000x4 e h).trans ?_
  exact congrArg (fun s => RowSoftmax.share AttnLayer.floor s h) (funext fun h' => scores_apply q k e h')

/-- One head's piece of the stored block: the 32 lanes of the value block from offset o, times column o' of the shares
    broadcast over the lanes. -/
def piece (v : FVec Ideal S6000x128 .f32) (s : FVec Ideal S6000x4 .f32) (o o' : ℕ) (hs : S6000x128.Slices ![0, o] S6000x32)
    (hs' : S6000x4.Slices ![0, o'] S6000x1) : FVec Ideal S6000x32 .f32 :=
  mulf (extractStridedSlice S6000x32 ![0, o] v hs)
    (broadcastTo S6000x32 (extractStridedSlice S6000x1 ![0, o'] s hs') broadcasts_S6000x1_S6000x32)

/-- Head h's piece at (e, d): the value at lane d of head h times the share at (e, h). -/
theorem piece_apply (v : FVec Ideal S6000x128 .f32) (s : FVec Ideal S6000x4 .f32) (o o' : ℕ) (hs : S6000x128.Slices ![0, o] S6000x32)
    (hs' : S6000x4.Slices ![0, o'] S6000x1) (h : Fin 4) (ho : o = 32 * h.val) (ho' : o' = h.val) (e : Fin 6000) (d : Fin 32) :
    piece v s o o' hs hs' (ix2 e d) = v (ix2 e (AttnLayer.lane h d)) * s (ix2 e h) := by
  unfold piece
  refine (mulf_apply _ _ _).trans ?_
  refine congrArg₂ (· * ·) ?_ ?_
  · exact slice2_axis1_apply o v hs e d (AttnLayer.lane h d) (by simp only [AttnLayer.lane]; omega)
  · refine (Keepdims.broadcastTo_a1_ab_apply _ _ e d).trans ?_
    exact slice2_axis1_apply o' s hs' e (0 : Fin 1) h (by show h.val = o' + 0; omega)

/-- The stored block is the four heads' pieces side by side. -/
theorem pay1_eq (q k v : Vec Ideal S6000x128 .f32) :
    Gen.k1_pay1 (F := Ideal) (Gen.k1_pay2 v) (Gen.k1_pay3 q k) (Gen.k1_pay4 q k v) (Gen.k1_pay5 v) (Gen.k1_pay6 q k)
      = concatenate S6000x128 1
          [⟨S6000x32, piece (Gen.k1_pay2 v) (Gen.k1_pay3 q k) 0 0 slices_S6000x128_o0_0_S6000x32 slices_S6000x4_o0_0_S6000x1⟩,
           ⟨S6000x32, piece (Gen.k1_pay2 v) (Gen.k1_pay3 q k) 32 1 slices_S6000x128_o0_32_S6000x32 slices_S6000x4_o0_1_S6000x1⟩,
           ⟨S6000x32, piece (Gen.k1_pay2 v) (Gen.k1_pay3 q k) 64 2 slices_S6000x128_o0_64_S6000x32 slices_S6000x4_o0_2_S6000x1⟩,
           ⟨S6000x32, piece (Gen.k1_pay2 v) (Gen.k1_pay3 q k) 96 3 slices_S6000x128_o0_96_S6000x32 slices_S6000x4_o0_3_S6000x1⟩]
          concatenates_S6000x32_S6000x32_S6000x32_S6000x32_S6000x128_d1 := rfl

/-- The edge body's stored value at lane d of head h of edge e: the edge's message there. -/
theorem pay1_apply (q k v : Vec Ideal S6000x128 .f32) (e : Fin 6000) (h : Fin 4) (d : Fin 32) :
    Gen.k1_pay1 (F := Ideal) (Gen.k1_pay2 v) (Gen.k1_pay3 q k) (Gen.k1_pay4 q k v) (Gen.k1_pay5 v) (Gen.k1_pay6 q k)
        (ix2 e (AttnLayer.lane h d))
      = AttnLayer.message (fun j => q (ix2 e j)) (fun j => k (ix2 e j)) (fun j => v (ix2 e j)) h d := by
  rw [pay1_eq]
  refine (concat4_apply (n := 6000) (w := 32) (m := 128)
    ![piece (Gen.k1_pay2 v) (Gen.k1_pay3 q k) 0 0 slices_S6000x128_o0_0_S6000x32 slices_S6000x4_o0_0_S6000x1,
      piece (Gen.k1_pay2 v) (Gen.k1_pay3 q k) 32 1 slices_S6000x128_o0_32_S6000x32 slices_S6000x4_o0_1_S6000x1,
      piece (Gen.k1_pay2 v) (Gen.k1_pay3 q k) 64 2 slices_S6000x128_o0_64_S6000x32 slices_S6000x4_o0_2_S6000x1,
      piece (Gen.k1_pay2 v) (Gen.k1_pay3 q k) 96 3 slices_S6000x128_o0_96_S6000x32 slices_S6000x4_o0_3_S6000x1]
    concatenates_S6000x32_S6000x32_S6000x32_S6000x32_S6000x128_d1 e h d (AttnLayer.lane h d) rfl).trans ?_
  have hv : Gen.k1_pay2 (F := Ideal) v = v := shapeCast_self v _
  unfold AttnLayer.message
  rw [← pay3_apply q k e h]
  match h with
  | ⟨0, _⟩ => exact (piece_apply _ _ 0 0 _ _ ⟨0, by omega⟩ rfl rfl e d).trans (by rw [hv])
  | ⟨1, _⟩ => exact (piece_apply _ _ 32 1 _ _ ⟨1, by omega⟩ rfl rfl e d).trans (by rw [hv])
  | ⟨2, _⟩ => exact (piece_apply _ _ 64 2 _ _ ⟨2, by omega⟩ rfl rfl e d).trans (by rw [hv])
  | ⟨3, _⟩ => exact (piece_apply _ _ 96 3 _ _ ⟨3, by omega⟩ rfl rfl e d).trans (by rw [hv])

end Cert.KernelIdeal.Payloads

end
-- ==== Proof.AttnLanes.lean ====
/-
  The head and the offset within its head of a feature index among the 128: index j is lane (j mod 32) of head (j / 32).
-/
import proofs.«124997_j40149354283101_2_alg».proof.Proof.AttnLayer

noncomputable section

namespace AttnLayer

/-- The head a feature index belongs to. -/
def headOf (j : Fin 128) : Fin 4 := ⟨j.val / 32, by omega⟩
/-- Its offset within that head. -/
def offOf (j : Fin 128) : Fin 32 := ⟨j.val % 32, Nat.mod_lt _ (by omega)⟩

theorem lane_headOf_offOf (j : Fin 128) : lane (headOf j) (offOf j) = j :=
  Fin.ext (by simp only [lane, headOf, offOf]; omega)
theorem headOf_lane (h : Fin 4) (d : Fin 32) : headOf (lane h d) = h :=
  Fin.ext (by simp only [lane, headOf]; omega)
theorem offOf_lane (h : Fin 4) (d : Fin 32) : offOf (lane h d) = d :=
  Fin.ext (by simp only [lane, offOf]; omega)

end AttnLayer

end
-- ==== Proof.IdealTable1.lean ====
/-
  Region 1's output array at Ideal, as one function of the arrays the region is entered with: the message table.
  Grid point t holds edges t*6000 .. t*6000+5999 of the gathered query, key and value rows; what it writes back is,
  for each of those edges, the edge's message (the value row with each head's lanes scaled by the head's share of the
  softmax of the four scores); the hundred edge blocks tile the [600000,128] table.
-/
import proofs.«124997_j40149354283101_2_alg».proof.Proof.IdealBodies1
import proofs.«124997_j40149354283101_2_alg».proof.Proof.IdealPayloads1
import proofs.«124997_j40149354283101_2_alg».proof.Proof.AttnLanes
import Idealize.ShloMosaic.Lib.Pipeline.Value
import Idealize.ShloMosaic.Lib.ValueIdx

set_option maxRecDepth 16384

noncomputable section

namespace Cert.KernelIdeal.Bodies

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The message table: entry (e, j) is edge e's message at the head and offset of feature j, from the edge's
    query, key and value rows. -/
def messageTable (q k v : S600000x128.Idx → EReal) : S600000x128.Idx → EReal :=
  fun i => AttnLayer.message (fun j => q (ix2 (i 0) j)) (fun j => k (ix2 (i 0) j)) (fun j => v (ix2 (i 0) j))
    (AttnLayer.headOf (i 1)) (AttnLayer.offOf (i 1))

/-- Where the windows' blocks sit: all four move with the grid point. -/
theorem where1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem queryBlock1 (c : Dev nD) (t : Fin cfg1.N) (p : Fin 6000) (k : Fin 128) (j : S600000x128.Idx)
    (hj : (j 0).val = t.val * 6000 + p.val) :
    blk1 V c 0 t (ix2 p k) = V c main_v13 (ix2 (j 0) k) := by
  show V c main_v13 (((cfg1.win 0).blk t).view.emb (ix2 p k)) = V c main_v13 (ix2 (j 0) k)
  refine congrArg _ ?_
  obtain ⟨e0, e1, -⟩ := where1 t
  funext a; apply Fin.ext
  match a with
  | ⟨0, _⟩ => show win1_0.index t (0 : Fin 2) * 6000 + 1 * p.val = (j 0).val; omega
  | ⟨1, _⟩ => show win1_0.index t (1 : Fin 2) * 128 + 1 * k.val = k.val; omega

theorem keyBlock1 (c : Dev nD) (t : Fin cfg1.N) (p : Fin 6000) (k : Fin 128) (j : S600000x128.Idx)
    (hj : (j 0).val = t.val * 6000 + p.val) :
    blk1 V c 1 t (ix2 p k) = V c main_v20 (ix2 (j 0) k) := by
  show V c main_v20 (((cfg1.win 1).blk t).view.emb (ix2 p k)) = V c main_v20 (ix2 (j 0) k)
  refine congrArg _ ?_
  obtain ⟨-, -, e2, e3, -⟩ := where1 t
  funext a; apply Fin.ext
  match a with
  | ⟨0, _⟩ => show win1_1.index t (0 : Fin 2) * 6000 + 1 * p.val = (j 0).val; omega
  | ⟨1, _⟩ => show win1_1.index t (1 : Fin 2) * 128 + 1 * k.val = k.val; omega

theorem valueBlock1 (c : Dev nD) (t : Fin cfg1.N) (p : Fin 6000) (k : Fin 128) (j : S600000x128.Idx)
    (hj : (j 0).val = t.val * 6000 + p.val) :
    blk1 V c 2 t (ix2 p k) = V c main_v27 (ix2 (j 0) k) := by
  show V c main_v27 (((cfg1.win 2).blk t).view.emb (ix2 p k)) = V c main_v27 (ix2 (j 0) k)
  refine congrArg _ ?_
  obtain ⟨-, -, -, -, e4, e5, -⟩ := where1 t
  funext a; apply Fin.ext
  match a with
  | ⟨0, _⟩ => show win1_2.index t (0 : Fin 2) * 6000 + 1 * p.val = (j 0).val; omega
  | ⟨1, _⟩ => show win1_2.index t (1 : Fin 2) * 128 + 1 * k.val = k.val; omega

/-- What point t writes back is block t of the message table. -/
theorem flushed1_eq (c : Dev nD) (t : Fin cfg1.N) :
    (dat1 V c).flushed 3 t = ((cfg1.win 3).blk t).view.read (Elt Ideal)
      (messageTable (V c main_v13) (V c main_v20) (V c main_v27)) := by
  show (cfg1.win 3).cut (grid1.coords t) ((dat1 V c).after 3 t) = _
  rw [after1_3]
  unfold out1
  rw [View.canon_unit_zero zeroOffsets1]
  simp only [View.ld_unit_zero (S := S6000x128) zeroOffsets1]
  funext y
  obtain ⟨p, j, rfl⟩ : ∃ (p : Fin 6000) (j : Fin 128), y = ix2 p j := ⟨y 0, y 1, eq_ix2 y⟩
  obtain ⟨h, d, rfl⟩ := AttnLayer.lane_surj j
  refine (Payloads.pay1_apply _ _ _ p h d).trans ?_
  obtain ⟨-, -, -, -, -, -, e6, e7⟩ := where1 t
  have hemb0 : ((((cfg1.win 3).blk t).view.emb (ix2 p (AttnLayer.lane h d))) 0).val = t.val * 6000 + p.val := by
    show win1_3.index t (0 : Fin 2) * 6000 + 1 * p.val = _; omega
  have hemb1 : ((((cfg1.win 3).blk t).view.emb (ix2 p (AttnLayer.lane h d))) 1) = AttnLayer.lane h d := by
    apply Fin.ext; show win1_3.index t (1 : Fin 2) * 128 + 1 * (AttnLayer.lane h d).val = _; omega
  show _ = messageTable (V c main_v13) (V c main_v20) (V c main_v27) (((cfg1.win 3).blk t).view.emb (ix2 p (AttnLayer.lane h d)))
  unfold messageTable
  rw [hemb1, AttnLayer.headOf_lane, AttnLayer.offOf_lane]
  have hq : (fun j => blk1 V c 0 t (ix2 p j)) = fun j => V c main_v13 (ix2 ((((cfg1.win 3).blk t).view.emb (ix2 p (AttnLayer.lane h d))) 0) j) :=
    funext fun j => queryBlock1 V c t p j _ hemb0
  have hk : (fun j => blk1 V c 1 t (ix2 p j)) = fun j => V c main_v20 (ix2 ((((cfg1.win 3).blk t).view.emb (ix2 p (AttnLayer.lane h d))) 0) j) :=
    funext fun j => keyBlock1 V c t p j _ hemb0
  have hv : (fun j => blk1 V c 2 t (ix2 p j)) = fun j => V c main_v27 (ix2 ((((cfg1.win 3).blk t).view.emb (ix2 p (AttnLayer.lane h d))) 0) j) :=
    funext fun j => valueBlock1 V c t p j _ hemb0
  rw [hq, hk, hv]

theorem mem_blk1 (t : Fin cfg1.N) (i : S600000x128.Idx) :
    i ∈ ((cfg1.win 3).blk t).view.set ↔ ∀ a : Fin 2, win1_3.index t a * S6000x128.size a ≤ (i a).val ∧ (i a).val < win1_3.index t a * S6000x128.size a + S6000x128.size a := by
  show i ∈ ((View.whole main_v28).slice (win1_3.rect t)).set ↔ _
  rw [View.set_slice_whole, Rect.mem_set_unit]
  exact Iff.rfl

theorem cover1_all (i : S600000x128.Idx) :
    ∃ t : Fin cfg1.N, (cfg1.win 3).flush t = true ∧ i ∈ ((cfg1.win 3).blk t).view.set := by
  have hi0 : (i 0).val < 600000 := (i 0).isLt
  have hi1 : (i 1).val < 128 := (i 1).isLt
  refine ⟨⟨(i 0).val / 6000, by show _ < grid1.N; rw [N_1]; omega⟩, flush1_3 _, ?_⟩
  rw [mem_blk1]
  obtain ⟨-, -, -, -, -, -, e6, e7⟩ := where1 ⟨(i 0).val / 6000, by show _ < grid1.N; rw [N_1]; omega⟩
  intro a
  match a with
  | ⟨0, _⟩ =>
    show win1_3.index _ (0 : Fin 2) * 6000 ≤ (i 0).val ∧ (i 0).val < win1_3.index _ (0 : Fin 2) * 6000 + 6000
    rw [e6]; show (i 0).val / 6000 * 6000 ≤ (i 0).val ∧ (i 0).val < (i 0).val / 6000 * 6000 + 6000; omega
  | ⟨1, _⟩ =>
    show win1_3.index _ (1 : Fin 2) * 128 ≤ (i 1).val ∧ (i 1).val < win1_3.index _ (1 : Fin 2) * 128 + 128
    rw [e7]; omega

/-- THE TABLE after region 1: the message table of the arrays the region is entered with. -/
theorem final1 (c : Dev nD) :
    (dat1 V c).arrAt 3 cfg1.N = messageTable (V c main_v13) (V c main_v20) (V c main_v27) :=
  (dat1 V c).arrAt_eq_of_cover 3 _ (fun t _ => flushed1_eq V c t) cover1_all

end Cert.KernelIdeal.Bodies

end
-- ==== Proof.IdealTable2.lean ====
/-
  Region 2's output array at Ideal, as one function of the arrays the region is entered with: the result table.
  Grid point t holds rows t*5000 .. t*5000+4999 of the summed messages and of the node table, the whole [128,128]
  output weights and the whole bias row; what it writes back is those rows of  (messages * weights + bias) + nodes ;
  the twenty row blocks tile the [100000,128] table.
-/
import proofs.«124997_j40149354283101_2_alg».proof.Proof.IdealBodies2
import proofs.«124997_j40149354283101_2_alg».proof.Proof.IdealPayloads
import Idealize.ShloMosaic.Lib.Pipeline.Value
import Idealize.ShloMosaic.Lib.ValueIdx

set_option maxRecDepth 16384

noncomputable section

namespace Cert.KernelIdeal.Bodies

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The result table: entry (n, j) is row n of the summed messages times column j of the output weights, plus the
    bias row's entry j, plus the node table's entry (n, j). -/
def resultTable (a : S100000x128.Idx → EReal) (w : S128x128.Idx → EReal) (b : S1x128.Idx → EReal) (x : S100000x128.Idx → EReal) :
    S100000x128.Idx → EReal :=
  fun i => ((∑ k : Fin 128, a (ix2 (i 0) k) * w (ix2 k (i 1))) + b (ix2 0 (i 1))) + x (ix2 (i 0) (i 1))

/-- Where the windows' blocks sit: the message rows, the node rows and the output rows move with the grid point,
    the weights and the bias row stand still. -/
theorem where2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem msgBlock2 (c : Dev nD) (t : Fin cfg2.N) (p : Fin 5000) (k : Fin 128) (j : S100000x128.Idx)
    (hj : (j 0).val = t.val * 5000 + p.val) :
    blk2 V c 0 t (ix2 p k) = V c main_v31 (ix2 (j 0) k) := by
  show V c main_v31 (((cfg2.win 0).blk t).view.emb (ix2 p k)) = V c main_v31 (ix2 (j 0) k)
  refine congrArg _ ?_
  obtain ⟨e0, e1, -⟩ := where2 t
  funext a; apply Fin.ext
  match a with
  | ⟨0, _⟩ => show win2_0.index t (0 : Fin 2) * 5000 + 1 * p.val = (j 0).val; omega
  | ⟨1, _⟩ => show win2_0.index t (1 : Fin 2) * 128 + 1 * k.val = k.val; omega

theorem weightBlock2 (c : Dev nD) (t : Fin cfg2.N) (k : Fin 128) (q : Fin 128) :
    blk2 V c 1 t (ix2 k q) = V c main_arg9 (ix2 k q) := by
  show V c main_arg9 (((cfg2.win 1).blk t).view.emb (ix2 k q)) = V c main_arg9 (ix2 k q)
  refine congrArg _ ?_
  obtain ⟨-, -, e2, e3, -⟩ := where2 t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

theorem biasBlock2 (c : Dev nD) (t : Fin cfg2.N) (q : Fin 128) :
    blk2 V c 2 t (ix2 0 q) = V c main_v32 (ix2 0 q) := by
  show V c main_v32 (((cfg2.win 2).blk t).view.emb (ix2 0 q)) = V c main_v32 (ix2 0 q)
  refine congrArg _ ?_
  obtain ⟨-, -, -, -, e4, e5, -⟩ := where2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega

theorem nodeBlock2 (c : Dev nD) (t : Fin cfg2.N) (p : Fin 5000) (q : Fin 128) (j : S100000x128.Idx)
    (hj : (j 0).val = t.val * 5000 + p.val) (hq : j 1 = q) :
    blk2 V c 3 t (ix2 p q) = V c main_arg0 (ix2 (j 0) (j 1)) := by
  show V c main_arg0 (((cfg2.win 3).blk t).view.emb (ix2 p q)) = V c main_arg0 (ix2 (j 0) (j 1))
  refine congrArg _ ?_
  obtain ⟨-, -, -, -, -, -, e6, e7, -⟩ := where2 t
  funext a; apply Fin.ext
  match a with
  | ⟨0, _⟩ => show win2_3.index t (0 : Fin 2) * 5000 + 1 * p.val = (j 0).val; omega
  | ⟨1, _⟩ => show win2_3.index t (1 : Fin 2) * 128 + 1 * q.val = (j 1).val; rw [hq]; omega

/-- What point t writes back is block t of the result table. -/
theorem flushed2_eq (c : Dev nD) (t : Fin cfg2.N) :
    (dat2 V c).flushed 4 t = ((cfg2.win 4).blk t).view.read (Elt Ideal)
      (resultTable (V c main_v31) (V c main_arg9) (V c main_v32) (V c main_arg0)) := by
  show (cfg2.win 4).cut (grid2.coords t) ((dat2 V c).after 4 t) = _
  rw [after2_4]
  unfold out2
  rw [View.canon_unit_zero zeroOffsets2]
  simp only [View.ld_unit_zero (S := S5000x128) zeroOffsets2, View.ld_unit_zero (S := S128x128) zeroOffsets2, View.ld_unit_zero (S := S1x128) zeroOffsets2]
  funext y
  obtain ⟨p, q, rfl⟩ : ∃ (p : Fin 5000) (q : Fin 128), y = ix2 p q := ⟨y 0, y 1, eq_ix2 y⟩
  refine (Payloads.pay2_apply _ _ _ _ p q).trans ?_
  obtain ⟨-, -, -, -, -, -, -, -, e8, e9⟩ := where2 t
  have hemb0 : ((((cfg2.win 4).blk t).view.emb (ix2 p q)) 0).val = t.val * 5000 + p.val := by
    show win2_4.index t (0 : Fin 2) * 5000 + 1 * p.val = _; omega
  have hemb1 : ((((cfg2.win 4).blk t).view.emb (ix2 p q)) 1) = q := by
    apply Fin.ext; show win2_4.index t (1 : Fin 2) * 128 + 1 * q.val = _; omega
  show _ = resultTable (V c main_v31) (V c main_arg9) (V c main_v32) (V c main_arg0) (((cfg2.win 4).blk t).view.emb (ix2 p q))
  unfold resultTable
  refine congrArg₂ (· + ·) (congrArg₂ (· + ·) (Finset.sum_congr rfl fun k _ => ?_) ?_) (nodeBlock2 V c t p q _ hemb0 hemb1)
  · rw [msgBlock2 V c t p k _ hemb0, weightBlock2 V c t k, hemb1]
  · rw [biasBlock2 V c t q, hemb1]

theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v33).slice (win2_4.rect t)).set ↔ _
  rw [View.set_slice_whole, Rect.mem_set_unit]
  exact Iff.rfl

theorem cover2_all (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  refine ⟨⟨(i 0).val / 5000, by show _ < grid2.N; rw [N_2]; omega⟩, flush2_4 _, ?_⟩
  rw [mem_blk2]
  obtain ⟨-, -, -, -, -, -, -, -, e8, e9⟩ := where2 ⟨(i 0).val / 5000, by show _ < grid2.N; rw [N_2]; omega⟩
  intro a
  match a with
  | ⟨0, _⟩ =>
    show win2_4.index _ (0 : Fin 2) * 5000 ≤ (i 0).val ∧ (i 0).val < win2_4.index _ (0 : Fin 2) * 5000 + 5000
    rw [e8]; show (i 0).val / 5000 * 5000 ≤ (i 0).val ∧ (i 0).val < (i 0).val / 5000 * 5000 + 5000; omega
  | ⟨1, _⟩ =>
    show win2_4.index _ (1 : Fin 2) * 128 ≤ (i 1).val ∧ (i 1).val < win2_4.index _ (1 : Fin 2) * 128 + 128
    rw [e9]; omega

/-- THE TABLE after region 2: the result table of the arrays the region is entered with. -/
theorem final2 (c : Dev nD) :
    (dat2 V c).arrAt 4 cfg2.N = resultTable (V c main_v31) (V c main_arg9) (V c main_v32) (V c main_arg0) :=
  (dat2 V c).arrAt_eq_of_cover 4 _ (fun t _ => flushed2_eq V c t) cover2_all

end Cert.KernelIdeal.Bodies

end
-- ==== Proof.IdealWhole.lean ====
/-
  The result buffer of `KernelIdeal` after the run, at Ideal, as one term of the eleven argument arrays.
  Walking the boundaries: the weights and biases are concatenated; region 0 leaves the projected table
  nodes * [Wq Wk Wv] + [bq bk bv]; its three column bands are cut out and their rows gathered per edge by the wrapped
  sender / receiver index columns; region 1 leaves the message table of those gathered rows; the messages are summed
  into their receivers' rows; region 2 leaves (summed messages * Wo + bo) + nodes. No stretch and no region writes an
  argument array, so wherever an argument is read it still holds its launch contents.
-/
import proofs.«124997_j40149354283101_2_alg».proof.Proof.IdealRun
import proofs.«124997_j40149354283101_2_alg».proof.Proof.IdealTable0
import proofs.«124997_j40149354283101_2_alg».proof.Proof.IdealTable1
import proofs.«124997_j40149354283101_2_alg».proof.Proof.IdealTable2
import Idealize.ShloMosaic.Lib.StableHlo.Run

set_option maxRecDepth 16384

noncomputable section

namespace Cert.KernelIdeal.Bodies

open Cert.KernelIdeal Cert.KernelIdeal.Gen
open Idealize.ShloMosaic Idealize.ShloMosaic.TcCoe Idealize.ShloMosaic.StableHlo Idealize.ShloMosaic.ValueIdx
open Idealize.SL Idealize.SL.Sem

/-! ## The program's host terms, named -/

/-- An index array with negative entries wrapped by the table's height, as a [600000,1] column of start indices. -/
def wrapCol (x : IVec S600000 32) : IVec S600000x1 32 :=
  broadcastInDim S600000x1 ![0] bcast_S600000_S600000x1_0
    (select (cmpi CmpIPredicate.slt x (broadcastInDim S600000 ![] bcast_S_S600000 (constantI S_ 32 0#32)))
      (addi x (broadcastInDim S600000 ![] bcast_S_S600000 (constantI S_ 32 100000#32))) x)

/-- The three weight matrices side by side. -/
def weightsCat (w0 w1 w2 : FVec Ideal S128x128 .f32) : FVec Ideal S128x384 .f32 :=
  concatenate S128x384 1 [⟨S128x128, w0⟩, ⟨S128x128, w1⟩, ⟨S128x128, w2⟩] concatenates_S128x128_S128x128_S128x128_S128x384_d1

/-- The three biases end to end, as a row. -/
def biasRow (b0 b1 b2 : FVec Ideal S128 .f32) : FVec Ideal S1x384 .f32 :=
  shapeCast S1x384 (concatenate S384 0 [⟨S128, b0⟩, ⟨S128, b1⟩, ⟨S128, b2⟩] concatenates_S128_S128_S128_S384_d0) shapeCasts_S384_S1x384

/-- Rows of a column band of the projected table, gathered per edge. -/
def gatheredBand0 (p : FVec Ideal S100000x384 .f32) (col : IVec S600000x1 32) : FVec Ideal S600000x128 .f32 :=
  Host.gather gather_S100000x128_S600000x1_S600000x128_1_0_n_n_0_1_1128
    (extractStridedSlice S100000x128 ![0, 0] p slices_S100000x384_S100000x128_0_0) col
def gatheredBand1 (p : FVec Ideal S100000x384 .f32) (col : IVec S600000x1 32) : FVec Ideal S600000x128 .f32 :=
  Host.gather gather_S100000x128_S600000x1_S600000x128_1_0_n_n_0_1_1128
    (extractStridedSlice S100000x128 ![0, 128] p slices_S100000x384_S100000x128_0_128) col
def gatheredBand2 (p : FVec Ideal S100000x384 .f32) (col : IVec S600000x1 32) : FVec Ideal S600000x128 .f32 :=
  Host.gather gather_S100000x128_S600000x1_S600000x128_1_0_n_n_0_1_1128
    (extractStridedSlice S100000x128 ![0, 256] p slices_S100000x384_S100000x128_0_256) col

/-- The messages summed into their receivers' rows of a zero table. -/
def summed (rcv : IVec S600000 32) (msg : FVec Ideal S600000x128 .f32) : FVec Ideal S100000x128 .f32 :=
  Host.scatterAdd scatter_S100000x128_S600000x1_S600000x128_1_0_0_1
    (broadcastInDim S100000x128 ![] bcast_S_S100000x128 (constant (F := Ideal) S_ FTy.f32 0x00000000#32))
    (broadcastInDim S600000x1 ![0] bcast_S600000_S600000x1_0 rcv) msg

/-- The whole layer as the program arranges it. -/
def wholeResult (x0 : FVec Ideal S100000x128 .f32) (x1 x2 : IVec S600000 32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x128 .f32) (x10 : FVec Ideal S128 .f32) :
    FVec Ideal S100000x128 .f32 :=
  resultTable
    (summed x2 (messageTable
      (gatheredBand0 (projected x0 (weightsCat x3 x5 x7) (biasRow x4 x6 x8)) (wrapCol x1))
      (gatheredBand1 (projected x0 (weightsCat x3 x5 x7) (biasRow x4 x6 x8)) (wrapCol x2))
      (gatheredBand2 (projected x0 (weightsCat x3 x5 x7) (biasRow x4 x6 x8)) (wrapCol x1))))
    x9 (shapeCast S1x128 x10 shapeCasts_S128_S1x128) x0

variable (m : (ℓ : Loc nD τ sig) → Buf (Elt Ideal) ℓ) (ρ : Dev nD → PrngReg) (c : Dev nD)

/-! ## An argument array is still at its launch contents at every boundary -/

theorem launch1 (b : Ref sig .tc) (h0 : b ∉ hostOps0_W) : Bd1 m ρ c (Proc.devRef .tc b) = m ((c : Thread nD τ).loc b) :=
  (StableHlo.after_of_writes_sub hostOps0 _ hostOps0_writes h0).trans rfl
theorem launch2 (b : Ref sig .tc) (h0 : b ∉ hostOps0_W) (ho0 : b ≠ Pipeline.arrRef spec0 3) :
    Bd2 m ρ c (Proc.devRef .tc b) = m ((c : Thread nD τ).loc b) :=
  (Bd2_keep m ρ c b ho0).trans (launch1 m ρ c b h0)
theorem launch3 (b : Ref sig .tc) (h0 : b ∉ hostOps0_W) (h1 : b ∉ hostOps1_W) (ho0 : b ≠ Pipeline.arrRef spec0 3) :
    Bd3 m ρ c (Proc.devRef .tc b) = m ((c : Thread nD τ).loc b) :=
  (StableHlo.after_of_writes_sub hostOps1 _ hostOps1_writes h1).trans (launch2 m ρ c b h0 ho0)
theorem launch4 (b : Ref sig .tc) (h0 : b ∉ hostOps0_W) (h1 : b ∉ hostOps1_W) (ho0 : b ≠ Pipeline.arrRef spec0 3)
    (ho1 : b ≠ Pipeline.arrRef spec1 3) : Bd4 m ρ c (Proc.devRef .tc b) = m ((c : Thread nD τ).loc b) :=
  (Bd4_keep m ρ c b ho1).trans (launch3 m ρ c b h0 h1 ho0)
theorem launch5 (b : Ref sig .tc) (h0 : b ∉ hostOps0_W) (h1 : b ∉ hostOps1_W) (h2 : b ∉ hostOps2_W) (ho0 : b ≠ Pipeline.arrRef spec0 3)
    (ho1 : b ≠ Pipeline.arrRef spec1 3) : Bd5 m ρ c (Proc.devRef .tc b) = m ((c : Thread nD τ).loc b) :=
  (StableHlo.after_of_writes_sub hostOps2 _ hostOps2_writes h2).trans (launch4 m ρ c b h0 h1 ho0 ho1)

/-! ## Region 0's entry arrays and the projected table -/

theorem En0_weights : En0 m ρ c main_v0 = weightsCat (m ((c : Thread nD τ).loc main_arg3)) (m ((c : Thread nD τ).loc main_arg5)) (m ((c : Thread nD τ).loc main_arg7)) := by
  show StableHlo.after hostOps0 (Bd0 m ρ c) (Proc.devRef .tc main_v0) = _
  after_results
  rfl
theorem En0_bias : En0 m ρ c main_v2 = biasRow (m ((c : Thread nD τ).loc main_arg4)) (m ((c : Thread nD τ).loc main_arg6)) (m ((c : Thread nD τ).loc main_arg8)) := by
  show StableHlo.after hostOps0 (Bd0 m ρ c) (Proc.devRef .tc main_v2) = _
  after_results
  rfl

theorem table0 : Bd2 m ρ c (Proc.devRef .tc main_v3) =
    projected (m ((c : Thread nD τ).loc main_arg0))
      (weightsCat (m ((c : Thread nD τ).loc main_arg3)) (m ((c : Thread nD τ).loc main_arg5)) (m ((c : Thread nD τ).loc main_arg7)))
      (biasRow (m ((c : Thread nD τ).loc main_arg4)) (m ((c : Thread nD τ).loc main_arg6)) (m ((c : Thread nD τ).loc main_arg8))) := by
  refine (Bd2_arr m ρ c 3).trans ((final0 (En0 m ρ) c).trans ?_)
  rw [En0_weights m ρ c, En0_bias m ρ c, show En0 m ρ c main_arg0 = m ((c : Thread nD τ).loc main_arg0) from launch1 m ρ c main_arg0 (by decide)]

/-! ## Region 1's entry arrays and the message table -/

theorem En1_query : En1 m ρ c main_v13 = gatheredBand0 (Bd2 m ρ c (Proc.devRef .tc main_v3)) (wrapCol (m ((c : Thread nD τ).loc main_arg1))) := by
  show StableHlo.after hostOps1 (Bd2 m ρ c) (Proc.devRef .tc main_v13) = _
  after_results
  rw [launch2 m ρ c main_arg1 (by decide) (by decide)]
  rfl
theorem En1_key : En1 m ρ c main_v20 = gatheredBand1 (Bd2 m ρ c (Proc.devRef .tc main_v3)) (wrapCol (m ((c : Thread nD τ).loc main_arg2))) := by
  show StableHlo.after hostOps1 (Bd2 m ρ c) (Proc.devRef .tc main_v20) = _
  after_results
  rw [launch2 m ρ c main_arg2 (by decide) (by decide)]
  rfl
theorem En1_value : En1 m ρ c main_v27 = gatheredBand2 (Bd2 m ρ c (Proc.devRef .tc main_v3)) (wrapCol (m ((c : Thread nD τ).loc main_arg1))) := by
  show StableHlo.after hostOps1 (Bd2 m ρ c) (Proc.devRef .tc main_v27) = _
  after_results
  rw [launch2 m ρ c main_arg1 (by decide) (by decide)]
  rfl

theorem table1 : Bd4 m ρ c (Proc.devRef .tc main_v28) =
    messageTable (gatheredBand0 (Bd2 m ρ c (Proc.devRef .tc main_v3)) (wrapCol (m ((c : Thread nD τ).loc main_arg1))))
      (gatheredBand1 (Bd2 m ρ c (Proc.devRef .tc main_v3)) (wrapCol (m ((c : Thread nD τ).loc main_arg2))))
      (gatheredBand2 (Bd2 m ρ c (Proc.devRef .tc main_v3)) (wrapCol (m ((c : Thread nD τ).loc main_arg1)))) := by
  refine (Bd4_arr m ρ c 3).trans ((final1 (En1 m ρ) c).trans ?_)
  rw [En1_query m ρ c, En1_key m ρ c, En1_value m ρ c]

/-! ## Region 2's entry arrays and the result table -/

theorem En2_summed : En2 m ρ c main_v31 = summed (m ((c : Thread nD τ).loc main_arg2)) (Bd4 m ρ c (Proc.devRef .tc main_v28)) := by
  show StableHlo.after hostOps2 (Bd4 m ρ c) (Proc.devRef .tc main_v31) = _
  after_results
  rw [launch4 m ρ c main_arg2 (by decide) (by decide) (by decide) (by decide)]
  rfl
theorem En2_biasRow : En2 m ρ c main_v32 = shapeCast S1x128 (m ((c : Thread nD τ).loc main_arg10)) shapeCasts_S128_S1x128 := by
  show StableHlo.after hostOps2 (Bd4 m ρ c) (Proc.devRef .tc main_v32) = _
  after_results
  rw [launch4 m ρ c main_arg10 (by decide) (by decide) (by decide) (by decide)]
  rfl

/-- THE RESULT BUFFER after the run is the whole layer of the argument arrays as launched. -/
theorem result_eq : Bd6 m ρ c (Proc.devRef .tc main_v33) =
    wholeResult (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  refine (Bd6_arr m ρ c 4).trans ((final2 (En2 m ρ) c).trans ?_)
  rw [En2_summed m ρ c, En2_biasRow m ρ c, table1 m ρ c, table0 m ρ c,
    show En2 m ρ c main_arg9 = m ((c : Thread nD τ).loc main_arg9) from launch5 m ρ c main_arg9 (by decide) (by decide) (by decide) (by decide) (by decide),
    show En2 m ρ c main_arg0 = m ((c : Thread nD τ).loc main_arg0) from launch5 m ρ c main_arg0 (by decide) (by decide) (by decide) (by decide) (by decide)]
  rfl

/-- THE RUN with the result named: every weakly fair execution ends with the result buffer at the whole layer of the
    launch contents and every argument array as launched. -/
theorem run_value : θ_run defs (onTc (τ := τ) (main (F := Ideal))) ⟨m, fun _ => 0, ρ⟩ (fun r => ∀ c : Dev nD,
      r.2.mem ((c.tc : Thread nD τ).loc main_v33) =
        wholeResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))) :=
  (θ_run defs _ _).mono (fun r h c => (h c _ (mem_uc main_v33 (by decide))).trans (result_eq m ρ c)) (run_all m ρ)

end Cert.KernelIdeal.Bodies

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.IdealBands.lean ====
/-
  Between the projection and the edge attention: the column bands of the projected table and the gathered rows, read
  at an index, on the extended reals.

  The three [128,128] weight arrays are laid side by side into [128,384] and the three [128] bias vectors end to end
  into [384], made a row [1,384]; the projected table is nodes times those weights plus that row. Its column band s
  (columns 128 s .. 128 s + 127) is therefore the dense layer with the s-th weights and the s-th bias: column
  128 s + j of the laid-out weights is column j of the s-th array, and entry 128 s + j of the laid-out biases is
  entry j of the s-th vector. A gather of whole rows by a column of index words reads the table at the row the word
  selects (read signed, clamped into the table) and the same column.
-/
import proofs.«124997_j40149354283101_2_alg».proof.Proof.IdealTable0
import proofs.«124997_j40149354283101_2_alg».proof.Proof.AttnLayer
import proofs.«124997_j40149354283101_2_alg».proof.Proof.LibGatherRows
import Idealize.ShloMosaic.Lib.ValueIdx
import Idealize.ShloMosaic.Lib.ValueLayout
import Idealize.ShloMosaic.Lib.Pipeline.Value

noncomputable section

namespace Cert.KernelIdeal.Bands

open Cert.KernelIdeal Cert.KernelIdeal.Gen
open Idealize.ShloMosaic Idealize.ShloMosaic.ValueIdx

/-! ## The gathered rows -/

/-- The program's gather dimension numbers are those of a gather of whole rows by a column of indices. -/
theorem gatherDims_eq : gather_S100000x128_S600000x1_S600000x128_1_0_n_n_0_1_1128
    = Cert.Moe.rowDims 100000 128 600000 gather_S100000x128_S600000x1_S600000x128_1_0_n_n_0_1_1128.wf := rfl

/-- The gathered array at (e, j): the table at the row index word e selects, column j. -/
theorem gathered_apply (x : Vec Ideal S100000x128 .f32) (idx : IVec S600000x1 32) (e : Fin 600000) (j : Fin 128) :
    Host.gather gather_S100000x128_S600000x1_S600000x128_1_0_n_n_0_1_1128 x idx (ix2 e j)
      = x (ix2 (AttnLayer.rowOf (idx (ix2 e 0))) j) := by
  rw [gatherDims_eq]
  exact Cert.Moe.gather_rows_apply (by omega) _ x idx e j

/-! ## Three pieces laid side by side, or end to end -/

/-- Three [n, w] pieces concatenated along the second axis read, at row e and column h * w + d, piece h at (e, d). -/
theorem concat3_cols_apply {α : Type} {n w m : ℕ} (x : Fin 3 → ((⟨2, ![n, w]⟩ : Shape).Idx → α))
    (hc : Shape.Concatenates
      (([⟨⟨2, ![n, w]⟩, x 0⟩, ⟨⟨2, ![n, w]⟩, x 1⟩, ⟨⟨2, ![n, w]⟩, x 2⟩] :
        List ((s : Shape) × (s.Idx → α))).map (·.1)) ⟨2, ![n, m]⟩ 1)
    (e : Fin n) (h : Fin 3) (d : Fin w) (c : Fin m) (hcv : c.val = h.val * w + d.val) :
    concatenate ⟨2, ![n, m]⟩ 1 [⟨⟨2, ![n, w]⟩, x 0⟩, ⟨⟨2, ![n, w]⟩, x 1⟩, ⟨⟨2, ![n, w]⟩, x 2⟩] hc (ix2 e c)
      = x h (ix2 e d) := by
  have hi : ∀ b : Fin 2, b.cast (rfl : (2 : ℕ) = 2) ≠ (1 : Fin 2) → ((ix2 e d : (⟨2, ![n, w]⟩ : Shape).Idx) b).val
      = ((ix2 e c : (⟨2, ![n, m]⟩ : Shape).Idx) (b.cast rfl)).val := fun b hb => by
    match b with
    | ⟨0, _⟩ => rfl
    | ⟨1, _⟩ => exact absurd rfl hb
  match h with
  | ⟨0, _⟩ =>
    exact concatenate_apply_piece 1 _ hc (ix2 e c) 0 (show (0 : ℕ) < 3 by omega) ⟨2, ![n, w]⟩ (x 0) rfl rfl 0 rfl (ix2 e d) hi
      (by show 0 + d.val = c.val; rw [hcv]; show 0 + d.val = 0 * w + d.val; omega)
  | ⟨1, _⟩ =>
    exact concatenate_apply_piece 1 _ hc (ix2 e c) 1 (show (1 : ℕ) < 3 by omega) ⟨2, ![n, w]⟩ (x 1) rfl rfl w rfl (ix2 e d) hi
      (by show w + d.val = c.val; rw [hcv]; show w + d.val = 1 * w + d.val; omega)
  | ⟨2, _⟩ =>
    exact concatenate_apply_piece 1 _ hc (ix2 e c) 2 (show (2 : ℕ) < 3 by omega) ⟨2, ![n, w]⟩ (x 2) rfl rfl (w + w) rfl (ix2 e d) hi
      (by show w + w + d.val = c.val; rw [hcv]; show w + w + d.val = 2 * w + d.val; omega)

/-- Three [w] vectors concatenated end to end read, at position h * w + d, vector h at d. -/
theorem concat3_vec_apply {α : Type} {w m : ℕ} (x : Fin 3 → ((⟨1, ![w]⟩ : Shape).Idx → α))
    (hc : Shape.Concatenates
      (([⟨⟨1, ![w]⟩, x 0⟩, ⟨⟨1, ![w]⟩, x 1⟩, ⟨⟨1, ![w]⟩, x 2⟩] :
        List ((s : Shape) × (s.Idx → α))).map (·.1)) ⟨1, ![m]⟩ 0)
    (h : Fin 3) (d : Fin w) (c : Fin m) (hcv : c.val = h.val * w + d.val) :
    concatenate ⟨1, ![m]⟩ 0 [⟨⟨1, ![w]⟩, x 0⟩, ⟨⟨1, ![w]⟩, x 1⟩, ⟨⟨1, ![w]⟩, x 2⟩] hc (ix1 c)
      = x h (ix1 d) := by
  have hi : ∀ b : Fin 1, b.cast (rfl : (1 : ℕ) = 1) ≠ (0 : Fin 1) → ((ix1 d : (⟨1, ![w]⟩ : Shape).Idx) b).val
      = ((ix1 c : (⟨1, ![m]⟩ : Shape).Idx) (b.cast rfl)).val := fun b hb => absurd (Subsingleton.elim _ _) hb
  match h with
  | ⟨0, _⟩ =>
    exact concatenate_apply_piece 0 _ hc (ix1 c) 0 (show (0 : ℕ) < 3 by omega) ⟨1, ![w]⟩ (x 0) rfl rfl 0 rfl (ix1 d) hi
      (by show 0 + d.val = c.val; rw [hcv]; show 0 + d.val = 0 * w + d.val; omega)
  | ⟨1, _⟩ =>
    exact concatenate_apply_piece 0 _ hc (ix1 c) 1 (show (1 : ℕ) < 3 by omega) ⟨1, ![w]⟩ (x 1) rfl rfl w rfl (ix1 d) hi
      (by show w + d.val = c.val; rw [hcv]; show w + d.val = 1 * w + d.val; omega)
  | ⟨2, _⟩ =>
    exact concatenate_apply_piece 0 _ hc (ix1 c) 2 (show (2 : ℕ) < 3 by omega) ⟨1, ![w]⟩ (x 2) rfl rfl (w + w) rfl (ix1 d) hi
      (by show w + w + d.val = c.val; rw [hcv]; show w + w + d.val = 2 * w + d.val; omega)

/-! ## The column bands of the projected table -/

section
variable (nodes : Vec Ideal S100000x128 .f32) (Wq Wk Wv : Vec Ideal S128x128 .f32) (bq bk bv : Vec Ideal S128 .f32)

/-- The three weight arrays side by side at (k, 128 s + j): array s at (k, j). -/
theorem weights_apply (k : Fin 128) (s : Fin 3) (j : Fin 128) (c : Fin 384) (hcv : c.val = s.val * 128 + j.val) :
    concatenate S128x384 1 [⟨S128x128, Wq⟩, ⟨S128x128, Wk⟩, ⟨S128x128, Wv⟩] concatenates_S128x128_S128x128_S128x128_S128x384_d1 (ix2 k c)
      = (![Wq, Wk, Wv] : Fin 3 → Vec Ideal S128x128 .f32) s (ix2 k j) :=
  concat3_cols_apply (n := 128) (w := 128) (m := 384) ![Wq, Wk, Wv] concatenates_S128x128_S128x128_S128x128_S128x384_d1 k s j c hcv

/-- The three bias vectors end to end, made a row, at (0, 128 s + j): vector s at j. -/
theorem biases_apply (s : Fin 3) (j : Fin 128) (c : Fin 384) (hcv : c.val = s.val * 128 + j.val) :
    shapeCast S1x384 (concatenate S384 0 [⟨S128, bq⟩, ⟨S128, bk⟩, ⟨S128, bv⟩] concatenates_S128_S128_S128_S384_d0) shapeCasts_S384_S1x384
        (ix2 (0 : Fin 1) c)
      = (![bq, bk, bv] : Fin 3 → Vec Ideal S128 .f32) s (ix1 j) :=
  (shapeCast_a_1a_apply _ shapeCasts_S384_S1x384 0 c).trans
    (concat3_vec_apply (w := 128) (m := 384) ![bq, bk, bv] concatenates_S128_S128_S128_S384_d0 s j c hcv)

/-- Column band s of the projected table at (n, j): the dense layer with the s-th weights and the s-th bias. -/
theorem band_apply (o : ℕ) (hs : S100000x384.Slices ![0, o] S100000x128) (s : Fin 3) (ho : o = s.val * 128) (n : Fin 100000) (j : Fin 128) :
    extractStridedSlice S100000x128 ![0, o]
        (Bodies.projected nodes
          (concatenate S128x384 1 [⟨S128x128, Wq⟩, ⟨S128x128, Wk⟩, ⟨S128x128, Wv⟩] concatenates_S128x128_S128x128_S128x128_S128x384_d1)
          (shapeCast S1x384 (concatenate S384 0 [⟨S128, bq⟩, ⟨S128, bk⟩, ⟨S128, bv⟩] concatenates_S128_S128_S128_S384_d0) shapeCasts_S384_S1x384))
        hs (ix2 n j)
      = AttnLayer.dense (fun k => nodes (ix2 n k)) (fun k j => (![Wq, Wk, Wv] : Fin 3 → Vec Ideal S128x128 .f32) s (ix2 k j))
          (fun j => (![bq, bk, bv] : Fin 3 → Vec Ideal S128 .f32) s (ix1 j)) j := by
  have hc : (⟨o + j.val, by omega⟩ : Fin 384).val = s.val * 128 + j.val := by show o + j.val = _; omega
  refine (slice2_axis1_apply o _ hs n j ⟨o + j.val, by omega⟩ rfl).trans ?_
  unfold Bodies.projected AttnLayer.dense
  refine congrArg₂ (· + ·) (Finset.sum_congr rfl fun k _ => ?_) ?_
  · exact congrArg (nodes (ix2 n k) * ·) (weights_apply Wq Wk Wv k s j _ hc)
  · exact biases_apply bq bk bv s j _ hc

/-- The first band is the query layer. -/
theorem band0_apply (n : Fin 100000) (j : Fin 128) :
    extractStridedSlice S100000x128 ![0, 0]
        (Bodies.projected nodes
          (concatenate S128x384 1 [⟨S128x128, Wq⟩, ⟨S128x128, Wk⟩, ⟨S128x128, Wv⟩] concatenates_S128x128_S128x128_S128x128_S128x384_d1)
          (shapeCast S1x384 (concatenate S384 0 [⟨S128, bq⟩, ⟨S128, bk⟩, ⟨S128, bv⟩] concatenates_S128_S128_S128_S384_d0) shapeCasts_S384_S1x384))
        slices_S100000x384_S100000x128_0_0 (ix2 n j)
      = AttnLayer.dense (fun k => nodes (ix2 n k)) (fun k j => Wq (ix2 k j)) (fun j => bq (ix1 j)) j :=
  band_apply nodes Wq Wk Wv bq bk bv 0 _ 0 rfl n j

/-- The second band is the key layer. -/
theorem band1_apply (n : Fin 100000) (j : Fin 128) :
    extractStridedSlice S100000x128 ![0, 128]
        (Bodies.projected nodes
          (concatenate S128x384 1 [⟨S128x128, Wq⟩, ⟨S128x128, Wk⟩, ⟨S128x128, Wv⟩] concatenates_S128x128_S128x128_S128x128_S128x384_d1)
          (shapeCast S1x384 (concatenate S384 0 [⟨S128, bq⟩, ⟨S128, bk⟩, ⟨S128, bv⟩] concatenates_S128_S128_S128_S384_d0) shapeCasts_S384_S1x384))
        slices_S100000x384_S100000x128_0_128 (ix2 n j)
      = AttnLayer.dense (fun k => nodes (ix2 n k)) (fun k j => Wk (ix2 k j)) (fun j => bk (ix1 j)) j :=
  band_apply nodes Wq Wk Wv bq bk bv 128 _ 1 rfl n j

/-- The third band is the value layer. -/
theorem band2_apply (n : Fin 100000) (j : Fin 128) :
    extractStridedSlice S100000x128 ![0, 256]
        (Bodies.projected nodes
          (concatenate S128x384 1 [⟨S128x128, Wq⟩, ⟨S128x128, Wk⟩, ⟨S128x128, Wv⟩] concatenates_S128x128_S128x128_S128x128_S128x384_d1)
          (shapeCast S1x384 (concatenate S384 0 [⟨S128, bq⟩, ⟨S128, bk⟩, ⟨S128, bv⟩] concatenates_S128_S128_S128_S384_d0) shapeCasts_S384_S1x384))
        slices_S100000x384_S100000x128_0_256 (ix2 n j)
      = AttnLayer.dense (fun k => nodes (ix2 n k)) (fun k j => Wv (ix2 k j)) (fun j => bv (ix1 j)) j :=
  band_apply nodes Wq Wk Wv bq bk bv 256 _ 2 rfl n j

end

end Cert.KernelIdeal.Bands

end
-- ==== Proof.RefValue.lean ====
/-
  The jnp reference's result, read entry by entry on the extended reals, down to the attention layer's specification.

  The reference computes, for 100000 nodes of 128 features and 600000 edges: three dense layers of the node rows (query,
  key, value), each viewed as 4 heads of 32 lanes; per edge the rows of the sender and of the receiver, selected by an
  index word read as a signed integer and clamped into the table; per head the score, the sum over the head's lanes of
  query times key, scaled; the softmax of the four scores; the message, the sender's value row with each head's lanes
  multiplied by the head's share; the messages summed into their receivers' rows (kept as one unopened function of the
  message array); and the summed rows through a fourth dense layer plus the node's own row.

  Every step is the same expression of extended reals on both sides of each equation: nothing is assumed finite.
-/
import proofs.«124997_j40149354283101_2_alg».proof.Proof.Gen.ReferenceIdeal.Read
import proofs.«124997_j40149354283101_2_alg».proof.Proof.AttnLayer

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The node rows, and every [100000, 128] array of extended reals. -/
abbrev Rows := FVec Ideal S100000x128 .f32
/-- A dense layer's weights. -/
abbrev Weights := FVec Ideal S128x128 .f32
/-- A dense layer's bias. -/
abbrev Bias := FVec Ideal S128 .f32
/-- One index word per edge. -/
abbrev Words := IVec S600000 32
/-- The [600000, 1] column of start indices that a selection of rows, or the summation into rows, reads. -/
abbrev Column := IVec S600000x1 32
/-- A [100000, 4, 32] table: a dense layer's rows viewed as 4 heads of 32 lanes. -/
abbrev Table := FVec Ideal S100000x4x32 .f32
/-- The [600000, 128] array of messages. -/
abbrev Messages := FVec Ideal S600000x128 .f32

/-! ## A dense layer, and the output layer -/

/-- The left operand of a [100000,128] x [128,128] product at output entry (n, j), position k: entry (n, k). -/
theorem lidx_eq (n : Fin 100000) (j k : Fin 128) : lidx_main_v0 (ix2 n j) k = ix2 n k :=
  funext fun a => Fin.ext (by match a with | ⟨0, _⟩ => rfl | ⟨1, _⟩ => rfl)

/-- The right operand of that product at output entry (n, j), position k: entry (k, j). -/
theorem ridx_eq (n : Fin 100000) (j k : Fin 128) : ridx_main_v0 (ix2 n j) k = ix2 k j :=
  funext fun a => Fin.ext (by match a with | ⟨0, _⟩ => rfl | ⟨1, _⟩ => rfl)

/-- The bias broadcast along the rows reads, at (n, j), the bias at j. -/
theorem bias_apply (b : Bias) (n : Fin 100000) (j : Fin 128) : val_main_v60 (F := Ideal) b (ix2 n j) = b (ix1 j) := by
  rw [val_main_v60_apply, val_main_v59_apply]
  exact congrArg b (funext fun a => Fin.ext (by match a with | ⟨0, _⟩ => rfl))

/-- A dense layer as the program computes it: the [100000,128] x [128,128] product plus the bias broadcast along the rows. -/
def layer (x : Rows) (W : Weights) (b : Bias) : Rows :=
  addf (F := Ideal) (val_main_v0 (F := Ideal) x W) (val_main_v60 (F := Ideal) b)

/-- The program's dense layer at (n, j): the specification's dense layer of row n at column j. -/
theorem layer_apply (x : Rows) (W : Weights) (b : Bias) (n : Fin 100000) (j : Fin 128) :
    layer x W b (ix2 n j) = AttnLayer.dense (fun k => x (ix2 n k)) (fun k j => W (ix2 k j)) (fun j => b (ix1 j)) j := by
  unfold layer
  refine (addf_apply _ _ _).trans ?_
  rw [val_main_v0_apply, bias_apply]
  unfold AttnLayer.dense
  exact congrArg (· + b (ix1 j)) (Finset.sum_congr rfl fun k _ => by rw [lidx_eq, ridx_eq])

/-- The program's last four operations as a function of the summed messages: the product with the output weights, the
    bias broadcast along the rows, their sum, and the node rows added. -/
def out (agg x0 : Rows) (x9 : Weights) (x10 : Bias) : Rows :=
  addf (F := Ideal) (layer agg x9 x10) x0

/-- THE RESULT FROM THE SUMMED MESSAGES, at (n, j): the specification's result of the summed row n, the output layer and
    node row n, at feature j. -/
theorem out_apply (agg x0 : Rows) (x9 : Weights) (x10 : Bias) (n : Fin 100000) (j : Fin 128) :
    out agg x0 x9 x10 (ix2 n j)
      = AttnLayer.result (fun k => agg (ix2 n k)) (fun k j => x9 (ix2 k j)) (fun j => x10 (ix1 j)) (fun k => x0 (ix2 n k)) j := by
  unfold out AttnLayer.result
  refine (addf_apply _ _ _).trans ?_
  rw [layer_apply]

/-- The program's result stage is the output layer applied to its own stage of summed messages. -/
theorem val_main_v62_out (x0 : Rows) (x1 x2 : Words) (x3 : Weights) (x4 : Bias) (x5 : Weights) (x6 : Bias) (x7 : Weights)
    (x8 : Bias) (x9 : Weights) (x10 : Bias) :
    val_main_v62 (F := Ideal) x0 x1 x2 x3 x4 x5 x6 x7 x8 x9 x10
      = out (val_main_v57 (F := Ideal) x0 x1 x2 x3 x4 x5 x6 x7 x8) x0 x9 x10 := rfl

/-! ## Whole [H, D] slabs selected by a column of start indices -/

section
variable {α : Type}

/-- Dimension numbers of a selection of whole slabs by a column of indices: operand [A, H, D], start indices [M, 1],
    result [M, H, D] (slice sizes [1, H, D], axis 0 collapsed, axes 1 and 2 the result's offset axes). -/
abbrev slabDims (A H D M : Nat)
    (wf : GatherDims.WF ⟨3, ![A, H, D]⟩ ⟨2, ![M, 1]⟩ ⟨3, ![M, H, D]⟩ [1, 2] [0] [] [0] [] 1 ![1, H, D]) :
    GatherDims ⟨3, ![A, H, D]⟩ ⟨2, ![M, 1]⟩ ⟨3, ![M, H, D]⟩ where
  offsetDims := [1, 2]
  collapsedSliceDims := [0]
  operandBatchingDims := []
  startIndicesBatchingDims := []
  startIndexMap := [0]
  indexVectorDim := 1
  sliceSizes := ![1, H, D]
  wf := wf

/-- THE SLAB SELECTION READ AT (p, h, d): the operand at the row that the start index (p, 0) names, read as a signed
    integer and clamped into [0, A − 1], and at (h, d) inside the slab. -/
theorem gather_slabs_apply {A H D M w : Nat} (hA : 0 < A)
    (wf : GatherDims.WF ⟨3, ![A, H, D]⟩ ⟨2, ![M, 1]⟩ ⟨3, ![M, H, D]⟩ [1, 2] [0] [] [0] [] 1 ![1, H, D])
    (x : (⟨3, ![A, H, D]⟩ : Shape).Idx → α) (idx : IVec ⟨2, ![M, 1]⟩ w) (p : Fin M) (h : Fin H) (d : Fin D) :
    Host.gather (slabDims A H D M wf) x idx (ix3 p h d)
      = x (ix3 ⟨min (idx (ix2 p 0)).toInt.toNat (A - 1), by omega⟩ h d) := by
  unfold Host.gather
  refine congrArg x ?_
  funext a
  refine Fin.ext ?_
  match a with
  | ⟨0, _⟩ =>
    show (slabDims A H D M wf).start (ix3 p h d) idx 0 + (slabDims A H D M wf).batchCoord (ix3 p h d) 0
      + (slabDims A H D M wf).offCoord (ix3 p h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims A H D M wf).startIndexMap from List.mem_singleton.mpr rfl)]
    have hsi : (slabDims A H D M wf).siIdx (ix3 p h d) ⟨List.idxOf (0 : Fin 3) (slabDims A H D M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (slabDims A H D M wf).start (ix3 p h d) idx 1 + (slabDims A H D M wf).batchCoord (ix3 p h d) 1
      + (slabDims A H D M wf).offCoord (ix3 p h d) 1 = h.val
    have hs : (slabDims A H D M wf).start (ix3 p h d) idx 1 = 0 := by
      unfold GatherDims.start
      rw [dif_neg (show (1 : Fin 3) ∉ (slabDims A H D M wf).startIndexMap from
        (by decide : (1 : Fin 3) ∉ [(0 : Fin 3)]))]
    have ho : (slabDims A H D M wf).offCoord (ix3 p h d) 1 = h.val := by
      unfold GatherDims.offCoord
      rw [dif_pos (show (1 : Fin 3) ∈ (slabDims A H D M wf).sKept from
        (GatherDims.mem_sKept _ _).mpr ⟨(by decide : (1 : Fin 3) ∉ [(0 : Fin 3)]), List.not_mem_nil⟩)]
      rfl
    rw [hs, ho, GatherDims.batchCoord_eq_zero _ _ _ List.not_mem_nil]
    omega
  | ⟨2, _⟩ =>
    show (slabDims A H D M wf).start (ix3 p h d) idx 2 + (slabDims A H D M wf).batchCoord (ix3 p h d) 2
      + (slabDims A H D M wf).offCoord (ix3 p h d) 2 = d.val
    have hs : (slabDims A H D M wf).start (ix3 p h d) idx 2 = 0 := by
      unfold GatherDims.start
      rw [dif_neg (show (2 : Fin 3) ∉ (slabDims A H D M wf).startIndexMap from
        (by decide : (2 : Fin 3) ∉ [(0 : Fin 3)]))]
    have ho : (slabDims A H D M wf).offCoord (ix3 p h d) 2 = d.val := by
      unfold GatherDims.offCoord
      rw [dif_pos (show (2 : Fin 3) ∈ (slabDims A H D M wf).sKept from
        (GatherDims.mem_sKept _ _).mpr ⟨(by decide : (2 : Fin 3) ∉ [(0 : Fin 3)]), List.not_mem_nil⟩)]
      rfl
    rw [hs, ho, GatherDims.batchCoord_eq_zero _ _ _ List.not_mem_nil]
    omega

end

/-! ## The three dense layers viewed as 4 heads of 32 lanes -/

/-- The [100000,128] array viewed as [100000,4,32] reads, at (n, h, d), the operand at (n, lane d of head h): both are
    position 128 n + 32 h + d in row-major order. -/
theorem heads_idx (n : Fin 100000) (h : Fin 4) (d : Fin 32) : idx_main_v4 (ix3 n h d) = ix2 n (AttnLayer.lane h d) :=
  funext fun a => Fin.ext (by
    have hh := h.isLt
    have hd := d.isLt
    match a with
    | ⟨0, _⟩ => show ((n.val * 4 + h.val) * 32 + d.val) / 128 = n.val; omega
    | ⟨1, _⟩ => show ((n.val * 4 + h.val) * 32 + d.val) % 128 = h.val * 32 + d.val; omega)

/-- THE QUERY TABLE at (n, h, d): the dense layer of node row n at lane d of head h. Stated for any rows, weights and
    bias: the key and the value tables are the same stage of their own weights. -/
theorem query_apply (x : Rows) (W : Weights) (b : Bias) (n : Fin 100000) (h : Fin 4) (d : Fin 32) :
    val_main_v4 (F := Ideal) x W b (ix3 n h d)
      = AttnLayer.dense (fun k => x (ix2 n k)) (fun k j => W (ix2 k j)) (fun j => b (ix1 j)) (AttnLayer.lane h d) := by
  rw [val_main_v4_apply, heads_idx]
  exact layer_apply x W b n (AttnLayer.lane h d)

/-- THE KEY TABLE at (n, h, d). -/
theorem key_apply (x : Rows) (W : Weights) (b : Bias) (n : Fin 100000) (h : Fin 4) (d : Fin 32) :
    val_main_v9 (F := Ideal) x W b (ix3 n h d)
      = AttnLayer.dense (fun k => x (ix2 n k)) (fun k j => W (ix2 k j)) (fun j => b (ix1 j)) (AttnLayer.lane h d) :=
  query_apply x W b n h d

/-- THE VALUE TABLE at (n, h, d). -/
theorem value_apply (x : Rows) (W : Weights) (b : Bias) (n : Fin 100000) (h : Fin 4) (d : Fin 32) :
    val_main_v14 (F := Ideal) x W b (ix3 n h d)
      = AttnLayer.dense (fun k => x (ix2 n k)) (fun k j => W (ix2 k j)) (fun j => b (ix1 j)) (AttnLayer.lane h d) :=
  query_apply x W b n h d

/-! ## The maximum over the heads -/

/-- The maximum of a [600000, 4] array over its second axis from the pattern of minus infinity, at edge e: the fold of
    max, from that pattern's value, over the four entries of row e. -/
theorem headsMax_apply (s : FVec Ideal S600000x4 .f32) (e : Fin 600000) :
    Host.reduce (FloatOps.maximumf (F := Ideal) (φ := .f32)) s (val_main_cst_4 (F := Ideal))
        reducesTo_S600000x4_S600000_d1 h_S_ (ix1 e)
      = RowSoftmax.rowMax AttnLayer.floor (fun k => s (ix2 e k)) := by
  have hr : S600000x4.Reduces [1] S600000 := by decide
  refine (Host.reduce_eq_fold_single (FloatOps.maximumf (F := Ideal) (φ := .f32)) s (val_main_cst_4 (F := Ideal))
    reducesTo_S600000x4_S600000_d1 hr h_S_ (ix1 e)).trans ?_
  unfold RowSoftmax.rowMax
  show (Finset.univ : Finset (Fin 4)).fold max AttnLayer.floor (fun k => s (hr.lift (ix1 e) k)) = _
  refine congrArg (fun f => (Finset.univ : Finset (Fin 4)).fold max AttnLayer.floor f)
    (funext fun k => congrArg s (funext fun a => Fin.ext ?_))
  match a with
  | ⟨0, _⟩ => rfl
  | ⟨1, _⟩ => rfl

/-! ## The rows an edge selects -/

/-- The program's selection of table rows by a column of start indices, at (e, h, d): the table at the row that the
    index word (e, 0) names — read as a signed integer and clamped into the table — and at (h, d). -/
theorem rows_apply (T : Table) (c : Column) (e : Fin 600000) (h : Fin 4) (d : Fin 32) :
    Host.gather gather_S100000x4x32_S600000x1_S600000x4x32_12_0_n_n_0_1_1432 T c (ix3 e h d)
      = T (ix3 (AttnLayer.rowOf (c (ix2 e 0))) h d) :=
  gather_slabs_apply (by decide) gather_S100000x4x32_S600000x1_S600000x4x32_12_0_n_n_0_1_1432_wf T c e h d

/-- The column of the senders' index words as the program computes it (a negative word moved up by 100000, then made
    a column). Every statement below keeps it as one term. -/
def sndCol (x1 : Words) : Column := val_main_v20 (F := Ideal) x1
/-- The column of the receivers' index words as the program computes it for the selection of key rows. -/
def rcvCol (x2 : Words) : Column := val_main_v27 (F := Ideal) x2
/-- The column of the receivers' index words as they are, which the summation into rows reads. -/
def rcvRaw (x2 : Words) : Column := val_main_v56 (F := Ideal) x2

/-- The dense layer of the node row that edge e's index word in the column c names: a function of the feature. -/
def edgeRow (x : Rows) (W : Weights) (b : Bias) (c : Column) (e : Fin 600000) : Fin 128 → EReal := fun j =>
  AttnLayer.dense (fun k => x (ix2 (AttnLayer.rowOf (c (ix2 e 0))) k)) (fun k j => W (ix2 k j)) (fun j => b (ix1 j)) j

section Edge
variable (x0 : Rows) (x1 x2 : Words) (x3 : Weights) (x4 : Bias) (x5 : Weights) (x6 : Bias) (x7 : Weights) (x8 : Bias)

/-- The selected query rows at (e, h, d): the sender's query row at lane d of head h. -/
theorem v21_apply (e : Fin 600000) (h : Fin 4) (d : Fin 32) :
    val_main_v21 (F := Ideal) x0 x1 x3 x4 (ix3 e h d) = edgeRow x0 x3 x4 (sndCol x1) e (AttnLayer.lane h d) := by
  unfold val_main_v21
  refine (rows_apply _ _ e h d).trans ?_
  exact query_apply x0 x3 x4 _ h d

/-- The selected key rows at (e, h, d): the receiver's key row at lane d of head h. -/
theorem v28_apply (e : Fin 600000) (h : Fin 4) (d : Fin 32) :
    val_main_v28 (F := Ideal) x0 x2 x5 x6 (ix3 e h d) = edgeRow x0 x5 x6 (rcvCol x2) e (AttnLayer.lane h d) := by
  unfold val_main_v28
  refine (rows_apply _ _ e h d).trans ?_
  exact key_apply x0 x5 x6 _ h d

/-- The selected value rows at (e, h, d): the sender's value row at lane d of head h. The program computes the
    senders' column a second time for this selection; it is the same term. -/
theorem v50_apply (e : Fin 600000) (h : Fin 4) (d : Fin 32) :
    val_main_v50 (F := Ideal) x0 x1 x7 x8 (ix3 e h d) = edgeRow x0 x7 x8 (sndCol x1) e (AttnLayer.lane h d) := by
  unfold val_main_v50
  refine (rows_apply _ _ e h d).trans ?_
  exact value_apply x0 x7 x8 _ h d

/-! ## The scores and their softmax over the heads -/

/-- THE SCORES at (e, h): head h's score of the sender's query row against the receiver's key row. The sum over the
    head's lanes starts from the zero word, which adds nothing. -/
theorem v32_apply (e : Fin 600000) (h : Fin 4) :
    val_main_v32 (F := Ideal) x0 x1 x2 x3 x4 x5 x6 (ix2 e h)
      = AttnLayer.score (edgeRow x0 x3 x4 (sndCol x1) e) (edgeRow x0 x5 x6 (rcvCol x2) e) h := by
  rw [val_main_v32_apply, val_main_v30_apply, val_main_v31_apply, val_main_cst_3_apply, val_main_cst_apply]
  unfold AttnLayer.score
  simp only [Ideal.mulf_def, Ideal.ofBits_def]
  rw [Ideal.ofBits_zero_f32, zero_add]
  refine congrArg (· * AttnLayer.scale) (Finset.sum_congr rfl fun d _ => ?_)
  have hi : idx_main_v30 (ix2 e h) d = ix3 e h d :=
    funext fun a => Fin.ext (by match a with | ⟨0, _⟩ => rfl | ⟨1, _⟩ => rfl | ⟨2, _⟩ => rfl)
  rw [hi, val_main_v29_apply, v21_apply, v28_apply]
  rfl

/-- The scores of edge e as a function of the head. -/
theorem v32_row (e : Fin 600000) :
    (fun k => val_main_v32 (F := Ideal) x0 x1 x2 x3 x4 x5 x6 (ix2 e k))
      = AttnLayer.score (edgeRow x0 x3 x4 (sndCol x1) e) (edgeRow x0 x5 x6 (rcvCol x2) e) :=
  funext fun k => v32_apply x0 x1 x2 x3 x4 x5 x6 e k

/-- The maximum over the heads at edge e: the fold of max, from the pattern of minus infinity, over the four scores. -/
theorem v33_apply (e : Fin 600000) :
    val_main_v33 (F := Ideal) x0 x1 x2 x3 x4 x5 x6 (ix1 e)
      = RowSoftmax.rowMax AttnLayer.floor (fun k => val_main_v32 (F := Ideal) x0 x1 x2 x3 x4 x5 x6 (ix2 e k)) :=
  headsMax_apply (val_main_v32 (F := Ideal) x0 x1 x2 x3 x4 x5 x6) e

/-- One more maximum with minus infinity changes nothing: the fold is already above it. -/
theorem v35_apply (e : Fin 600000) :
    val_main_v35 (F := Ideal) x0 x1 x2 x3 x4 x5 x6 (ix1 e)
      = RowSoftmax.rowMax AttnLayer.floor (fun k => val_main_v32 (F := Ideal) x0 x1 x2 x3 x4 x5 x6 (ix2 e k)) := by
  rw [val_main_v35_apply, val_main_v34_apply, val_main_cst_5_apply, v33_apply]
  exact RowSoftmax.max_rowMax _ _

/-- The maximum made a column and spread over the heads reads, at (e, h), the maximum of edge e. -/
theorem v37_apply (e : Fin 600000) (h : Fin 4) :
    val_main_v37 (F := Ideal) x0 x1 x2 x3 x4 x5 x6 (ix2 e h)
      = RowSoftmax.rowMax AttnLayer.floor (fun k => val_main_v32 (F := Ideal) x0 x1 x2 x3 x4 x5 x6 (ix2 e k)) := by
  rw [val_main_v37_apply, val_main_v36_apply]
  have hi : idx_main_v36 (idx_main_v37 (ix2 e h)) = ix1 e :=
    funext fun a => Fin.ext (by match a with | ⟨0, _⟩ => rfl)
  rw [hi, v35_apply]

/-- The shifted exponential at (e, h). -/
theorem v39_apply (e : Fin 600000) (h : Fin 4) :
    val_main_v39 (F := Ideal) x0 x1 x2 x3 x4 x5 x6 (ix2 e h)
      = Ideal.exp (val_main_v32 (F := Ideal) x0 x1 x2 x3 x4 x5 x6 (ix2 e h)
          - RowSoftmax.rowMax AttnLayer.floor (fun k => val_main_v32 (F := Ideal) x0 x1 x2 x3 x4 x5 x6 (ix2 e k))) := by
  rw [val_main_v39_apply, val_main_v38_apply, v37_apply]
  simp only [Ideal.hostUnary_exp_def, Ideal.subf_def]

/-- The sum of the shifted exponentials over the heads at edge e; it starts from the zero word, which adds nothing. -/
theorem v40_apply (e : Fin 600000) :
    val_main_v40 (F := Ideal) x0 x1 x2 x3 x4 x5 x6 (ix1 e)
      = ∑ j : Fin 4, Ideal.exp (val_main_v32 (F := Ideal) x0 x1 x2 x3 x4 x5 x6 (ix2 e j)
          - RowSoftmax.rowMax AttnLayer.floor (fun k => val_main_v32 (F := Ideal) x0 x1 x2 x3 x4 x5 x6 (ix2 e k))) := by
  rw [val_main_v40_apply, val_main_cst_6_apply, Ideal.ofBits_def, Ideal.ofBits_zero_f32, zero_add]
  refine Finset.sum_congr rfl fun j _ => ?_
  have hi : idx_main_v40 (ix1 e) j = ix2 e j :=
    funext fun a => Fin.ext (by match a with | ⟨0, _⟩ => rfl | ⟨1, _⟩ => rfl)
  rw [hi, v39_apply]

/-- THE SHARES at (e, h): head h's share of the softmax of edge e's four scores. -/
theorem v43_apply (e : Fin 600000) (h : Fin 4) :
    val_main_v43 (F := Ideal) x0 x1 x2 x3 x4 x5 x6 (ix2 e h)
      = RowSoftmax.share AttnLayer.floor
          (AttnLayer.score (edgeRow x0 x3 x4 (sndCol x1) e) (edgeRow x0 x5 x6 (rcvCol x2) e)) h := by
  rw [val_main_v43_apply, val_main_v42_apply, val_main_v41_apply]
  have hi : idx_main_v41 (idx_main_v42 (ix2 e h)) = ix1 e :=
    funext fun a => Fin.ext (by match a with | ⟨0, _⟩ => rfl)
  rw [hi, v40_apply, v39_apply]
  simp only [Ideal.hostDivf_def]
  rw [← v32_row]
  simp only [RowSoftmax.share]

/-! ## The messages -/

/-- The [600000,4,32] array viewed as [600000,128] reads, at (e, lane d of head h), the operand at (e, h, d). -/
theorem lanes_idx (e : Fin 600000) (h : Fin 4) (d : Fin 32) : idx_main_v54 (ix2 e (AttnLayer.lane h d)) = ix3 e h d :=
  funext fun a => Fin.ext (by
    have hh := h.isLt
    have hd := d.isLt
    match a with
    | ⟨0, _⟩ => show (e.val * 128 + (h.val * 32 + d.val)) / 128 = e.val; omega
    | ⟨1, _⟩ => show (e.val * 128 + (h.val * 32 + d.val)) / 32 % 4 = h.val; omega
    | ⟨2, _⟩ => show (e.val * 128 + (h.val * 32 + d.val)) % 32 = d.val; omega)

/-- The message array as the program computes it from the node rows, the two index arrays and the three layers. -/
def msg : Messages := val_main_v54 (F := Ideal) x0 x1 x2 x3 x4 x5 x6 x7 x8

/-- THE MESSAGES at (e, lane d of head h): the specification's message of the sender's query row, the receiver's key
    row and the sender's value row. -/
theorem msg_apply (e : Fin 600000) (h : Fin 4) (d : Fin 32) :
    msg x0 x1 x2 x3 x4 x5 x6 x7 x8 (ix2 e (AttnLayer.lane h d))
      = AttnLayer.message (edgeRow x0 x3 x4 (sndCol x1) e) (edgeRow x0 x5 x6 (rcvCol x2) e)
          (edgeRow x0 x7 x8 (sndCol x1) e) h d := by
  unfold msg
  rw [val_main_v54_apply, lanes_idx, val_main_v53_apply, v50_apply, val_main_v52_apply, val_main_v51_apply]
  have hi : idx_main_v51 (idx_main_v52 (ix3 e h d)) = ix2 e h :=
    funext fun a => Fin.ext (by match a with | ⟨0, _⟩ => rfl | ⟨1, _⟩ => rfl)
  rw [hi, v43_apply]
  simp only [Ideal.mulf_def, AttnLayer.message]

end Edge

/-! ## The result -/

/-- The summation of the messages into their receivers' rows, as the program states it: one function of the array it
    starts from, the column of index words and the message array. Every statement below keeps it as one term. -/
def scatterRows (z : Rows) (c : Column) (u : Messages) : Rows :=
  Host.scatterAdd scatter_S100000x128_S600000x1_S600000x128_1_0_0_1 z c u

/-- The array of zeros the summation starts from. -/
def zeros : Rows := val_main_v55 (F := Ideal)

/-- The program's stage of summed messages is the summation of its message array, from the zeros, by the receivers'
    index words as they are. -/
theorem val_main_v57_eq (x0 : Rows) (x1 x2 : Words) (x3 : Weights) (x4 : Bias) (x5 : Weights) (x6 : Bias) (x7 : Weights)
    (x8 : Bias) :
    val_main_v57 (F := Ideal) x0 x1 x2 x3 x4 x5 x6 x7 x8
      = scatterRows zeros (rcvRaw x2) (msg x0 x1 x2 x3 x4 x5 x6 x7 x8) := rfl

/-- The result stage as a function of the index: the specification's result of the summed messages' row, the output
    layer and the node's own row. -/
theorem val_main_v62_result (x0 : Rows) (x1 x2 : Words) (x3 : Weights) (x4 : Bias) (x5 : Weights) (x6 : Bias)
    (x7 : Weights) (x8 : Bias) (x9 : Weights) (x10 : Bias) :
    val_main_v62 (F := Ideal) x0 x1 x2 x3 x4 x5 x6 x7 x8 x9 x10
      = fun i : S100000x128.Idx => AttnLayer.result
          (fun k => scatterRows zeros (rcvRaw x2) (msg x0 x1 x2 x3 x4 x5 x6 x7 x8) (ix2 (i 0) k))
          (fun k j => x9 (ix2 k j)) (fun j => x10 (ix1 j)) (fun k => x0 (ix2 (i 0) k)) (i 1) := by
  funext i
  obtain ⟨n, j, rfl⟩ : ∃ (n : Fin 100000) (j : Fin 128), i = ix2 n j := ⟨i 0, i 1, eq_ix2 i⟩
  rw [val_main_v62_out, val_main_v57_eq]
  exact out_apply _ x0 x9 x10 n j

/-- THE REFERENCE'S RESULT: the term its run states for the result buffer, as a function of the eleven argument arrays,
    is at every index the specification's result of the summed messages; the message array is read by msg_apply. -/
theorem res_main_v62_eq (m : (ℓ : Loc nD τ sig) → Buf (Elt Ideal) ℓ) (c : Dev nD) :
    Cert.ReferenceIdeal.Value.res_main_v62 (F := Ideal) m c
      = fun i : S100000x128.Idx => AttnLayer.result
          (fun k => scatterRows zeros (rcvRaw (m ((c.tc : Thread nD τ).loc main_arg2)))
            (msg (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))) (ix2 (i 0) k))
          (fun k j => m ((c.tc : Thread nD τ).loc main_arg9) (ix2 k j))
          (fun j => m ((c.tc : Thread nD τ).loc main_arg10) (ix1 j))
          (fun k => m ((c.tc : Thread nD τ).loc main_arg0) (ix2 (i 0) k)) (i 1) :=
  (Read.val_main_v62_eq (F := Ideal) m c).trans (val_main_v62_result _ _ _ _ _ _ _ _ _ _ _)

/-! ## The columns and the zeros, as the program's own terms -/

/-- The senders' column written out: where the word is negative (compared as signed integers with 0) the word plus
    100000, else the word; then the vector made a [600000, 1] column. -/
theorem sndCol_eq (x1 : Words) :
    sndCol x1 = broadcastInDim S600000x1 ![0] bcast_S600000_S600000x1_0
      (select (cmpi .slt x1 (broadcastInDim S600000 ![] bcast_S_S600000 (constantI S_ 32 0#32)))
        (addi x1 (broadcastInDim S600000 ![] bcast_S_S600000 (constantI S_ 32 100000#32))) x1) := rfl

/-- The receivers' column for the selection of key rows written out: the same operations on the receivers' words. -/
theorem rcvCol_eq (x2 : Words) :
    rcvCol x2 = broadcastInDim S600000x1 ![0] bcast_S600000_S600000x1_0
      (select (cmpi .slt x2 (broadcastInDim S600000 ![] bcast_S_S600000 (constantI S_ 32 0#32)))
        (addi x2 (broadcastInDim S600000 ![] bcast_S_S600000 (constantI S_ 32 100000#32))) x2) := rfl

/-- The receivers' column that the summation reads written out: the words as they are, made a [600000, 1] column. -/
theorem rcvRaw_eq (x2 : Words) : rcvRaw x2 = broadcastInDim S600000x1 ![0] bcast_S600000_S600000x1_0 x2 := rfl

/-- That column at (e, 0): the receiver's word of edge e. -/
theorem rcvRaw_apply (x2 : Words) (e : Fin 600000) (u : Fin 1) : rcvRaw x2 (ix2 e u) = x2 (ix1 e) := by
  unfold rcvRaw
  rw [val_main_v56_apply]
  exact congrArg x2 (funext fun a => Fin.ext (by match a with | ⟨0, _⟩ => rfl))

/-- The zeros written out: the zero word spread over a [100000, 128] array. -/
theorem zeros_eq : zeros = broadcastInDim S100000x128 ![] bcast_S_S100000x128 (constant (F := Ideal) S_ .f32 0x00000000#32) := rfl

/-- Every entry of the zeros is the zero word's value. -/
theorem zeros_apply (i : S100000x128.Idx) : zeros i = Ideal.ofBits .f32 0x00000000#32 := by
  unfold zeros
  rw [val_main_v55_apply, val_main_cst_9_apply]
  rfl

end Cert.ReferenceIdeal.RefValue

end
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.Bridge.lean ====
/-
  The two programs compute one function of the argument arrays, at Ideal.
  The kernel's program gathers rows of column bands of one fused projected table; the reference gathers rows of three
  separately projected tables laid out by head. Entry by entry both gathered rows are the same dense layer of the same
  node row (the row the same wrapped index word selects), so every edge's message is the same expression, the two
  message arrays are equal, the sums into the receivers' rows are the same operation on equal operands, and the two
  result tables agree entry by entry. Nothing is assumed finite.
-/
import proofs.«124997_j40149354283101_2_alg».proof.Defs
import proofs.«124997_j40149354283101_2_alg».proof.Proof.IdealWhole
import proofs.«124997_j40149354283101_2_alg».proof.Proof.IdealBands
import proofs.«124997_j40149354283101_2_alg».proof.Proof.RefValue
import proofs.«124997_j40149354283101_2_alg».proof.Proof.AttnLanes
import proofs.«124997_j40149354283101_2_alg».proof.Proof.LibRowVector
import proofs.«124997_j40149354283101_2_alg».proof.Proof.Gen.Pre_finite_inputs
import proofs.«124997_j40149354283101_2_alg».proof.Proof.Gen.KernelIdeal
import proofs.«124997_j40149354283101_2_alg».proof.Proof.Gen.ReferenceIdeal

set_option maxRecDepth 16384

noncomputable section

namespace Cert.Bridge

open Idealize.ShloMosaic Idealize.ShloMosaic.TcCoe Idealize.ShloMosaic.ValueIdx
open Idealize.SL Idealize.SL.Sem
open Cert.KernelIdeal.Bodies

section Values

variable (x0 : FVec Ideal Cert.KernelIdeal.S100000x128 .f32) (x1 x2 : IVec Cert.KernelIdeal.S600000 32)
  (x3 : FVec Ideal Cert.KernelIdeal.S128x128 .f32) (x4 : FVec Ideal Cert.KernelIdeal.S128 .f32) (x5 : FVec Ideal Cert.KernelIdeal.S128x128 .f32) (x6 : FVec Ideal Cert.KernelIdeal.S128 .f32)
  (x7 : FVec Ideal Cert.KernelIdeal.S128x128 .f32) (x8 : FVec Ideal Cert.KernelIdeal.S128 .f32) (x9 : FVec Ideal Cert.KernelIdeal.S128x128 .f32) (x10 : FVec Ideal Cert.KernelIdeal.S128 .f32)

/-- The wrapped index columns are the same terms in the two programs. -/
theorem sndCol_same : wrapCol x1 = Cert.ReferenceIdeal.RefValue.sndCol x1 := rfl
theorem rcvCol_same : wrapCol x2 = Cert.ReferenceIdeal.RefValue.rcvCol x2 := rfl

/-- A gathered row of the first band is the query layer of the node row the index word selects. -/
theorem queryRow (col : IVec Cert.KernelIdeal.S600000x1 32) (e : Fin 600000) (j : Fin 128) :
    gatheredBand0 (projected x0 (weightsCat x3 x5 x7) (biasRow x4 x6 x8)) col (ix2 e j)
      = Cert.ReferenceIdeal.RefValue.edgeRow x0 x3 x4 col e j := by
  unfold gatheredBand0
  rw [Cert.KernelIdeal.Bands.gathered_apply]
  exact Cert.KernelIdeal.Bands.band0_apply x0 x3 x5 x7 x4 x6 x8 _ j
/-- A gathered row of the second band is the key layer of the selected node row. -/
theorem keyRow (col : IVec Cert.KernelIdeal.S600000x1 32) (e : Fin 600000) (j : Fin 128) :
    gatheredBand1 (projected x0 (weightsCat x3 x5 x7) (biasRow x4 x6 x8)) col (ix2 e j)
      = Cert.ReferenceIdeal.RefValue.edgeRow x0 x5 x6 col e j := by
  unfold gatheredBand1
  rw [Cert.KernelIdeal.Bands.gathered_apply]
  exact Cert.KernelIdeal.Bands.band1_apply x0 x3 x5 x7 x4 x6 x8 _ j
/-- A gathered row of the third band is the value layer of the selected node row. -/
theorem valueRow (col : IVec Cert.KernelIdeal.S600000x1 32) (e : Fin 600000) (j : Fin 128) :
    gatheredBand2 (projected x0 (weightsCat x3 x5 x7) (biasRow x4 x6 x8)) col (ix2 e j)
      = Cert.ReferenceIdeal.RefValue.edgeRow x0 x7 x8 col e j := by
  unfold gatheredBand2
  rw [Cert.KernelIdeal.Bands.gathered_apply]
  exact Cert.KernelIdeal.Bands.band2_apply x0 x3 x5 x7 x4 x6 x8 _ j

/-- THE MESSAGE ARRAYS ARE EQUAL: at (e, lane d of head h) both are the message of the sender's query row, the
    receiver's key row and the sender's value row. -/
theorem messages_eq :
    messageTable (gatheredBand0 (projected x0 (weightsCat x3 x5 x7) (biasRow x4 x6 x8)) (wrapCol x1))
        (gatheredBand1 (projected x0 (weightsCat x3 x5 x7) (biasRow x4 x6 x8)) (wrapCol x2))
        (gatheredBand2 (projected x0 (weightsCat x3 x5 x7) (biasRow x4 x6 x8)) (wrapCol x1))
      = Cert.ReferenceIdeal.RefValue.msg x0 x1 x2 x3 x4 x5 x6 x7 x8 := by
  funext i
  obtain ⟨e, j, rfl⟩ : ∃ (e : Fin 600000) (j : Fin 128), i = ix2 e j := ⟨i 0, i 1, eq_ix2 i⟩
  obtain ⟨h, d, rfl⟩ := AttnLayer.lane_surj j
  rw [Cert.ReferenceIdeal.RefValue.msg_apply]
  show AttnLayer.message
      (fun j => gatheredBand0 (projected x0 (weightsCat x3 x5 x7) (biasRow x4 x6 x8)) (wrapCol x1) (ix2 e j))
      (fun j => gatheredBand1 (projected x0 (weightsCat x3 x5 x7) (biasRow x4 x6 x8)) (wrapCol x2) (ix2 e j))
      (fun j => gatheredBand2 (projected x0 (weightsCat x3 x5 x7) (biasRow x4 x6 x8)) (wrapCol x1) (ix2 e j))
      (AttnLayer.headOf (AttnLayer.lane h d)) (AttnLayer.offOf (AttnLayer.lane h d)) = _
  rw [AttnLayer.headOf_lane, AttnLayer.offOf_lane,
    show (fun j => gatheredBand0 (projected x0 (weightsCat x3 x5 x7) (biasRow x4 x6 x8)) (wrapCol x1) (ix2 e j))
      = Cert.ReferenceIdeal.RefValue.edgeRow x0 x3 x4 (Cert.ReferenceIdeal.RefValue.sndCol x1) e from funext fun j => queryRow x0 x3 x4 x5 x6 x7 x8 _ e j,
    show (fun j => gatheredBand1 (projected x0 (weightsCat x3 x5 x7) (biasRow x4 x6 x8)) (wrapCol x2) (ix2 e j))
      = Cert.ReferenceIdeal.RefValue.edgeRow x0 x5 x6 (Cert.ReferenceIdeal.RefValue.rcvCol x2) e from funext fun j => keyRow x0 x3 x4 x5 x6 x7 x8 _ e j,
    show (fun j => gatheredBand2 (projected x0 (weightsCat x3 x5 x7) (biasRow x4 x6 x8)) (wrapCol x1) (ix2 e j))
      = Cert.ReferenceIdeal.RefValue.edgeRow x0 x7 x8 (Cert.ReferenceIdeal.RefValue.sndCol x1) e from funext fun j => valueRow x0 x3 x4 x5 x6 x7 x8 _ e j]

/-- The two sums into the receivers' rows are one operation: same start table of zeros, same column of index words. -/
theorem summed_same (u : FVec Ideal Cert.KernelIdeal.S600000x128 .f32) :
    summed x2 u = Cert.ReferenceIdeal.RefValue.scatterRows Cert.ReferenceIdeal.RefValue.zeros (Cert.ReferenceIdeal.RefValue.rcvRaw x2) u := rfl

/-- THE RESULT TABLES ARE EQUAL, entry by entry. -/
theorem whole_eq :
    wholeResult x0 x1 x2 x3 x4 x5 x6 x7 x8 x9 x10
      = fun i : Cert.KernelIdeal.S100000x128.Idx => AttnLayer.result
          (fun k => Cert.ReferenceIdeal.RefValue.scatterRows Cert.ReferenceIdeal.RefValue.zeros (Cert.ReferenceIdeal.RefValue.rcvRaw x2) (Cert.ReferenceIdeal.RefValue.msg x0 x1 x2 x3 x4 x5 x6 x7 x8) (ix2 (i 0) k))
          (fun k j => x9 (ix2 k j)) (fun j => x10 (ix1 j)) (fun k => x0 (ix2 (i 0) k)) (i 1) := by
  funext i
  obtain ⟨n, j, rfl⟩ : ∃ (n : Fin 100000) (j : Fin 128), i = ix2 n j := ⟨i 0, i 1, eq_ix2 i⟩
  unfold wholeResult
  rw [messages_eq, summed_same]
  show ((∑ k : Fin 128, Cert.ReferenceIdeal.RefValue.scatterRows Cert.ReferenceIdeal.RefValue.zeros (Cert.ReferenceIdeal.RefValue.rcvRaw x2) (Cert.ReferenceIdeal.RefValue.msg x0 x1 x2 x3 x4 x5 x6 x7 x8) (ix2 n k) * x9 (ix2 k j))
      + shapeCast Cert.KernelIdeal.S1x128 x10 _ (ix2 0 j)) + x0 (ix2 n j)
    = ((∑ k : Fin 128, Cert.ReferenceIdeal.RefValue.scatterRows Cert.ReferenceIdeal.RefValue.zeros (Cert.ReferenceIdeal.RefValue.rcvRaw x2) (Cert.ReferenceIdeal.RefValue.msg x0 x1 x2 x3 x4 x5 x6 x7 x8) (ix2 n k) * x9 (ix2 k j))
      + x10 (ix1 j)) + x0 (ix2 n j)
  rw [show shapeCast Cert.KernelIdeal.S1x128 x10 _ (ix2 0 j) = x10 (ix1 j) from RowVector.shapeCast_n_1n_apply x10 _ 0 j]

end Values

/-! ## The kernel's run with exactly the claim's post -/

theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v33)
        = wholeResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono (fun r h c =>
    have keep : ∀ (b : Ref Cert.KernelIdeal.sig .tc), ¬ (Proc.devRef .tc b : DevRef Cert.KernelIdeal.τ Cert.KernelIdeal.sig).isScoped → b ∉ Cert.KernelIdeal.Gen.hostOps0_W → b ∉ Cert.KernelIdeal.Gen.hostOps1_W → b ∉ Cert.KernelIdeal.Gen.hostOps2_W →
        b ≠ Pipeline.arrRef Cert.KernelIdeal.spec0 3 → b ≠ Pipeline.arrRef Cert.KernelIdeal.spec1 3 → b ≠ Pipeline.arrRef Cert.KernelIdeal.spec2 4 →
        r.2.mem ((c.tc : Thread Cert.KernelIdeal.nD Cert.KernelIdeal.τ).loc b) = m ((c.tc : Thread Cert.KernelIdeal.nD Cert.KernelIdeal.τ).loc b) :=
      fun b hs h0 h1 h2 ho0 ho1 ho2 => (h c _ (mem_uc b hs)).trans (Bd6_launch m ρ c b h0 h1 h2 ho0 ho1 ho2)
    ⟨(h c _ (mem_uc Cert.KernelIdeal.main_v33 (by decide))).trans (result_eq m ρ c),
     keep Cert.KernelIdeal.main_arg0 (by decide) (by decide) (by decide) (by decide) (by decide) (by decide) (by decide),
     keep Cert.KernelIdeal.main_arg1 (by decide) (by decide) (by decide) (by decide) (by decide) (by decide) (by decide),
     keep Cert.KernelIdeal.main_arg2 (by decide) (by decide) (by decide) (by decide) (by decide) (by decide) (by decide),
     keep Cert.KernelIdeal.main_arg3 (by decide) (by decide) (by decide) (by decide) (by decide) (by decide) (by decide),
     keep Cert.KernelIdeal.main_arg4 (by decide) (by decide) (by decide) (by decide) (by decide) (by decide) (by decide),
     keep Cert.KernelIdeal.main_arg5 (by decide) (by decide) (by decide) (by decide) (by decide) (by decide) (by decide),
     keep Cert.KernelIdeal.main_arg6 (by decide) (by decide) (by decide) (by decide) (by decide) (by decide) (by decide),
     keep Cert.KernelIdeal.main_arg7 (by decide) (by decide) (by decide) (by decide) (by decide) (by decide) (by decide),
     keep Cert.KernelIdeal.main_arg8 (by decide) (by decide) (by decide) (by decide) (by decide) (by decide) (by decide),
     keep Cert.KernelIdeal.main_arg9 (by decide) (by decide) (by decide) (by decide) (by decide) (by decide) (by decide),
     keep Cert.KernelIdeal.main_arg10 (by decide) (by decide) (by decide) (by decide) (by decide) (by decide) (by decide)⟩) (run_all m ρ)

/-! ## The claim's last conjunct -/

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => wholeResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), kernel_run m ρ, ?_⟩
  refine (θ_run (Cert.ReferenceIdeal.defs (F := Ideal)) _ _).mono (fun _ h c => ⟨(h c).1.trans ?_, (h c).2⟩) (Cert.ReferenceIdeal.Value.run (F := Ideal) m' ρ')
  obtain ⟨a0, a1, a2, a3, a4, a5, a6, a7, a8, a9, a10⟩ := hagree c
  rw [Cert.ReferenceIdeal.RefValue.res_main_v62_eq m' c, a0, a1, a2, a3, a4, a5, a6, a7, a8, a9, a10]
  exact (whole_eq _ _ _ _ _ _ _ _ _ _ _).symm

end Cert.Bridge

end
-- ==== Proof.LibGatherSlabs.lean ====
/-
  `stablehlo.gather` of whole [H, D] slabs of a rank-3 table by a COLUMN of start indices, read at an index.
  No program is imported.

  What `x[idx]` lowers to for a table x : [A, H, D] (rows of H heads of D lanes, say) when the integer array idx of M
  indices is passed as an [M, 1] array: the result [M, H, D] holds, at (p, h, d), the table at the row idx[p, 0] read as
  a signed integer and clamped into [0, A − 1], and at (h, d) inside the slab. The rank-3 companion of the row gather
  of an [A, C] table. The dimension numbers are a literal record with an arbitrary proof of their conditions, so a
  program's own record with the same fields is one of these by rfl.
-/
import Idealize.ShloMosaic.Lib.ValueIdx

noncomputable section

namespace GatherSlabs

open Idealize.ShloMosaic Idealize.ShloMosaic.ValueIdx

section
variable {α : Type}

/-- Dimension numbers of a selection of whole slabs by a column of indices: operand [A, H, D], start indices [M, 1],
    result [M, H, D] (slice sizes [1, H, D], axis 0 collapsed, axes 1 and 2 the result's offset axes). -/
abbrev slabDims (A H D M : Nat)
    (wf : GatherDims.WF ⟨3, ![A, H, D]⟩ ⟨2, ![M, 1]⟩ ⟨3, ![M, H, D]⟩ [1, 2] [0] [] [0] [] 1 ![1, H, D]) :
    GatherDims ⟨3, ![A, H, D]⟩ ⟨2, ![M, 1]⟩ ⟨3, ![M, H, D]⟩ where
  offsetDims := [1, 2]
  collapsedSliceDims := [0]
  operandBatchingDims := []
  startIndicesBatchingDims := []
  startIndexMap := [0]
  indexVectorDim := 1
  sliceSizes := ![1, H, D]
  wf := wf

/-- THE SLAB SELECTION READ AT (p, h, d): the operand at the row that the start index (p, 0) names, read as a signed
    integer and clamped into [0, A − 1], and at (h, d) inside the slab. -/
theorem gather_slabs_apply {A H D M w : Nat} (hA : 0 < A)
    (wf : GatherDims.WF ⟨3, ![A, H, D]⟩ ⟨2, ![M, 1]⟩ ⟨3, ![M, H, D]⟩ [1, 2] [0] [] [0] [] 1 ![1, H, D])
    (x : (⟨3, ![A, H, D]⟩ : Shape).Idx → α) (idx : IVec ⟨2, ![M, 1]⟩ w) (p : Fin M) (h : Fin H) (d : Fin D) :
    Host.gather (slabDims A H D M wf) x idx (ix3 p h d)
      = x (ix3 ⟨min (idx (ix2 p 0)).toInt.toNat (A - 1), by omega⟩ h d) := by
  unfold Host.gather
  refine congrArg x ?_
  funext a
  refine Fin.ext ?_
  match a with
  | ⟨0, _⟩ =>
    show (slabDims A H D M wf).start (ix3 p h d) idx 0 + (slabDims A H D M wf).batchCoord (ix3 p h d) 0
      + (slabDims A H D M wf).offCoord (ix3 p h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims A H D M wf).startIndexMap from List.mem_singleton.mpr rfl)]
    have hsi : (slabDims A H D M wf).siIdx (ix3 p h d) ⟨List.idxOf (0 : Fin 3) (slabDims A H D M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (slabDims A H D M wf).start (ix3 p h d) idx 1 + (slabDims A H D M wf).batchCoord (ix3 p h d) 1
      + (slabDims A H D M wf).offCoord (ix3 p h d) 1 = h.val
    have hs : (slabDims A H D M wf).start (ix3 p h d) idx 1 = 0 := by
      unfold GatherDims.start
      rw [dif_neg (show (1 : Fin 3) ∉ (slabDims A H D M wf).startIndexMap from
        (by decide : (1 : Fin 3) ∉ [(0 : Fin 3)]))]
    have ho : (slabDims A H D M wf).offCoord (ix3 p h d) 1 = h.val := by
      unfold GatherDims.offCoord
      rw [dif_pos (show (1 : Fin 3) ∈ (slabDims A H D M wf).sKept from
        (GatherDims.mem_sKept _ _).mpr ⟨(by decide : (1 : Fin 3) ∉ [(0 : Fin 3)]), List.not_mem_nil⟩)]
      rfl
    rw [hs, ho, GatherDims.batchCoord_eq_zero _ _ _ List.not_mem_nil]
    omega
  | ⟨2, _⟩ =>
    show (slabDims A H D M wf).start (ix3 p h d) idx 2 + (slabDims A H D M wf).batchCoord (ix3 p h d) 2
      + (slabDims A H D M wf).offCoord (ix3 p h d) 2 = d.val
    have hs : (slabDims A H D M wf).start (ix3 p h d) idx 2 = 0 := by
      unfold GatherDims.start
      rw [dif_neg (show (2 : Fin 3) ∉ (slabDims A H D M wf).startIndexMap from
        (by decide : (2 : Fin 3) ∉ [(0 : Fin 3)]))]
    have ho : (slabDims A H D M wf).offCoord (ix3 p h d) 2 = d.val := by
      unfold GatherDims.offCoord
      rw [dif_pos (show (2 : Fin 3) ∈ (slabDims A H D M wf).sKept from
        (GatherDims.mem_sKept _ _).mpr ⟨(by decide : (2 : Fin 3) ∉ [(0 : Fin 3)]), List.not_mem_nil⟩)]
      rfl
    rw [hs, ho, GatherDims.batchCoord_eq_zero _ _ _ List.not_mem_nil]
    omega

end

end GatherSlabs

end
-- ==== Proof.LibConcatPieces.lean ====
/-
  A concatenate of three or four equal pieces, read at an index. No program is imported.

  Pieces of shape [n, w] laid side by side along the second axis into [n, m] read, at row e and column h * w + d,
  piece h at (e, d); vectors [w] laid end to end into [m] read, at position h * w + d, vector h at d. The position of
  piece h along the axis is the total width of the pieces before it, h * w. Stated for three pieces (two shapes) and
  for four pieces side by side; generic in the sizes and in the element type.
-/
import Idealize.ShloMosaic.Lib.ValueIdx
import Idealize.ShloMosaic.Lib.Pipeline.Value

noncomputable section

namespace ConcatPieces

open Idealize.ShloMosaic Idealize.ShloMosaic.ValueIdx

/-- Three [n, w] pieces concatenated along the second axis read, at row e and column h * w + d, piece h at (e, d). -/
theorem concat3_cols_apply {α : Type} {n w m : ℕ} (x : Fin 3 → ((⟨2, ![n, w]⟩ : Shape).Idx → α))
    (hc : Shape.Concatenates
      (([⟨⟨2, ![n, w]⟩, x 0⟩, ⟨⟨2, ![n, w]⟩, x 1⟩, ⟨⟨2, ![n, w]⟩, x 2⟩] :
        List ((s : Shape) × (s.Idx → α))).map (·.1)) ⟨2, ![n, m]⟩ 1)
    (e : Fin n) (h : Fin 3) (d : Fin w) (c : Fin m) (hcv : c.val = h.val * w + d.val) :
    concatenate ⟨2, ![n, m]⟩ 1 [⟨⟨2, ![n, w]⟩, x 0⟩, ⟨⟨2, ![n, w]⟩, x 1⟩, ⟨⟨2, ![n, w]⟩, x 2⟩] hc (ix2 e c)
      = x h (ix2 e d) := by
  have hi : ∀ b : Fin 2, b.cast (rfl : (2 : ℕ) = 2) ≠ (1 : Fin 2) → ((ix2 e d : (⟨2, ![n, w]⟩ : Shape).Idx) b).val
      = ((ix2 e c : (⟨2, ![n, m]⟩ : Shape).Idx) (b.cast rfl)).val := fun b hb => by
    match b with
    | ⟨0, _⟩ => rfl
    | ⟨1, _⟩ => exact absurd rfl hb
  match h with
  | ⟨0, _⟩ =>
    exact concatenate_apply_piece 1 _ hc (ix2 e c) 0 (show (0 : ℕ) < 3 by omega) ⟨2, ![n, w]⟩ (x 0) rfl rfl 0 rfl (ix2 e d) hi
      (by show 0 + d.val = c.val; rw [hcv]; show 0 + d.val = 0 * w + d.val; omega)
  | ⟨1, _⟩ =>
    exact concatenate_apply_piece 1 _ hc (ix2 e c) 1 (show (1 : ℕ) < 3 by omega) ⟨2, ![n, w]⟩ (x 1) rfl rfl w rfl (ix2 e d) hi
      (by show w + d.val = c.val; rw [hcv]; show w + d.val = 1 * w + d.val; omega)
  | ⟨2, _⟩ =>
    exact concatenate_apply_piece 1 _ hc (ix2 e c) 2 (show (2 : ℕ) < 3 by omega) ⟨2, ![n, w]⟩ (x 2) rfl rfl (w + w) rfl (ix2 e d) hi
      (by show w + w + d.val = c.val; rw [hcv]; show w + w + d.val = 2 * w + d.val; omega)

/-- Three [w] vectors concatenated end to end read, at position h * w + d, vector h at d. -/
theorem concat3_vec_apply {α : Type} {w m : ℕ} (x : Fin 3 → ((⟨1, ![w]⟩ : Shape).Idx → α))
    (hc : Shape.Concatenates
      (([⟨⟨1, ![w]⟩, x 0⟩, ⟨⟨1, ![w]⟩, x 1⟩, ⟨⟨1, ![w]⟩, x 2⟩] :
        List ((s : Shape) × (s.Idx → α))).map (·.1)) ⟨1, ![m]⟩ 0)
    (h : Fin 3) (d : Fin w) (c : Fin m) (hcv : c.val = h.val * w + d.val) :
    concatenate ⟨1, ![m]⟩ 0 [⟨⟨1, ![w]⟩, x 0⟩, ⟨⟨1, ![w]⟩, x 1⟩, ⟨⟨1, ![w]⟩, x 2⟩] hc (ix1 c)
      = x h (ix1 d) := by
  have hi : ∀ b : Fin 1, b.cast (rfl : (1 : ℕ) = 1) ≠ (0 : Fin 1) → ((ix1 d : (⟨1, ![w]⟩ : Shape).Idx) b).val
      = ((ix1 c : (⟨1, ![m]⟩ : Shape).Idx) (b.cast rfl)).val := fun b hb => absurd (Subsingleton.elim _ _) hb
  match h with
  | ⟨0, _⟩ =>
    exact concatenate_apply_piece 0 _ hc (ix1 c) 0 (show (0 : ℕ) < 3 by omega) ⟨1, ![w]⟩ (x 0) rfl rfl 0 rfl (ix1 d) hi
      (by show 0 + d.val = c.val; rw [hcv]; show 0 + d.val = 0 * w + d.val; omega)
  | ⟨1, _⟩ =>
    exact concatenate_apply_piece 0 _ hc (ix1 c) 1 (show (1 : ℕ) < 3 by omega) ⟨1, ![w]⟩ (x 1) rfl rfl w rfl (ix1 d) hi
      (by show w + d.val = c.val; rw [hcv]; show w + d.val = 1 * w + d.val; omega)
  | ⟨2, _⟩ =>
    exact concatenate_apply_piece 0 _ hc (ix1 c) 2 (show (2 : ℕ) < 3 by omega) ⟨1, ![w]⟩ (x 2) rfl rfl (w + w) rfl (ix1 d) hi
      (by show w + w + d.val = c.val; rw [hcv]; show w + w + d.val = 2 * w + d.val; omega)

/-- Four [n, w] pieces concatenated along the second axis read, at row e and column h * w + d, piece h at (e, d). -/
theorem concat4_cols_apply {α : Type} {n w m : ℕ} (x : Fin 4 → ((⟨2, ![n, w]⟩ : Shape).Idx → α))
    (hc : Shape.Concatenates
      (([⟨⟨2, ![n, w]⟩, x 0⟩, ⟨⟨2, ![n, w]⟩, x 1⟩, ⟨⟨2, ![n, w]⟩, x 2⟩, ⟨⟨2, ![n, w]⟩, x 3⟩] :
        List ((s : Shape) × (s.Idx → α))).map (·.1)) ⟨2, ![n, m]⟩ 1)
    (e : Fin n) (h : Fin 4) (d : Fin w) (c : Fin m) (hcv : c.val = h.val * w + d.val) :
    concatenate ⟨2, ![n, m]⟩ 1 [⟨⟨2, ![n, w]⟩, x 0⟩, ⟨⟨2, ![n, w]⟩, x 1⟩, ⟨⟨2, ![n, w]⟩, x 2⟩, ⟨⟨2, ![n, w]⟩, x 3⟩] hc (ix2 e c)
      = x h (ix2 e d) := by
  have hi : ∀ b : Fin 2, b.cast (rfl : (2 : ℕ) = 2) ≠ (1 : Fin 2) → ((ix2 e d : (⟨2, ![n, w]⟩ : Shape).Idx) b).val
      = ((ix2 e c : (⟨2, ![n, m]⟩ : Shape).Idx) (b.cast rfl)).val := fun b hb => by
    match b with
    | ⟨0, _⟩ => rfl
    | ⟨1, _⟩ => exact absurd rfl hb
  match h with
  | ⟨0, _⟩ =>
    exact concatenate_apply_piece 1 _ hc (ix2 e c) 0 (show (0 : ℕ) < 4 by omega) ⟨2, ![n, w]⟩ (x 0) rfl rfl 0 rfl (ix2 e d) hi
      (by show 0 + d.val = c.val; rw [hcv]; show 0 + d.val = 0 * w + d.val; omega)
  | ⟨1, _⟩ =>
    exact concatenate_apply_piece 1 _ hc (ix2 e c) 1 (show (1 : ℕ) < 4 by omega) ⟨2, ![n, w]⟩ (x 1) rfl rfl w rfl (ix2 e d) hi
      (by show w + d.val = c.val; rw [hcv]; show w + d.val = 1 * w + d.val; omega)
  | ⟨2, _⟩ =>
    exact concatenate_apply_piece 1 _ hc (ix2 e c) 2 (show (2 : ℕ) < 4 by omega) ⟨2, ![n, w]⟩ (x 2) rfl rfl (w + w) rfl (ix2 e d) hi
      (by show w + w + d.val = c.val; rw [hcv]; show w + w + d.val = 2 * w + d.val; omega)
  | ⟨3, _⟩ =>
    exact concatenate_apply_piece 1 _ hc (ix2 e c) 3 (show (3 : ℕ) < 4 by omega) ⟨2, ![n, w]⟩ (x 3) rfl rfl (w + (w + w)) rfl (ix2 e d) hi
      (by show w + (w + w) + d.val = c.val; rw [hcv]; show w + (w + w) + d.val = 3 * w + d.val; omega)

end ConcatPieces

end
-- ==== Proof.lean ====
/-
  One attention message-passing layer over a graph of 100000 nodes and 600000 edges: the kernel's program (a fused
  query / key / value projection, a per-edge attention over already gathered rows, an output projection with residual,
  with the gathers and the sum into receivers' rows on the host) against the plain reference.

  The three frames. Each kernel loads its blocks whole and stores one value over its output block, so a region leaves
  its input arrays as entered and writes only its output array; the host stretches write only intermediate buffers;
  hence the argument arrays end as launched, at the word level and at the ideal instance alike (the same text in the
  two namespaces). The reference has no kernel: its frame is its run with the result dropped.

  The idealization rewrote nothing, so there is nothing to preserve.

  The equivalence. At the ideal instance the kernel's run ends with the result buffer at one term of the argument
  arrays; entry by entry that term and the reference's are the same expression of extended reals (the same dense
  layers of the same node rows, the same scores, the same softmax over the four heads, the same sum into receivers'
  rows, the same output layer and residual), with nothing assumed finite.
-/
import proofs.«124997_j40149354283101_2_alg».proof.Defs
import proofs.«124997_j40149354283101_2_alg».proof.Proof.Gen.Kernel
import proofs.«124997_j40149354283101_2_alg».proof.Proof.Gen.KernelIdeal
import proofs.«124997_j40149354283101_2_alg».proof.Proof.Gen.ReferenceIdeal
import proofs.«124997_j40149354283101_2_alg».proof.Proof.Gen.Pre_finite_inputs
import proofs.«124997_j40149354283101_2_alg».proof.Proof.Gen.ReferenceIdeal.Run
import proofs.«124997_j40149354283101_2_alg».proof.Proof.Gen.ReferenceIdeal.Read
import proofs.«124997_j40149354283101_2_alg».proof.Proof.BitsRun
import proofs.«124997_j40149354283101_2_alg».proof.Proof.IdealRun
import proofs.«124997_j40149354283101_2_alg».proof.Proof.Bridge
import proofs.«124997_j40149354283101_2_alg».proof.Proof.LibGatherSlabs
import proofs.«124997_j40149354283101_2_alg».proof.Proof.LibConcatPieces
import Idealize.ShloMosaic.Adequacy
import Idealize.ShloMosaic.Init

noncomputable section

namespace Cert.Proof

open Idealize.ShloMosaic Idealize.SL.Sem

/-- The word-level program's argument arrays end as launched. -/
theorem frame_bits : Cert.frame_Kernel (hKernel := Cert.Kernel.Gen.facts) (hPre_finite_inputs := Cert.Pre_finite_inputs.Gen.facts) :=
  fun m ρ _ => Cert.Kernel.Bodies.frame m ρ

/-- So do the idealized program's. -/
theorem frame_ideal : Cert.frame_KernelIdeal (hKernelIdeal := Cert.KernelIdeal.Gen.facts) (hPre_finite_inputs := Cert.Pre_finite_inputs.Gen.facts) :=
  fun m ρ _ => Cert.KernelIdeal.Bodies.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_bits, frame_ideal, frame_reference, trivial, Cert.Bridge.algebraic⟩

end Cert.Proof

end
